-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x256 : Shape := ⟨3, ![256, 128, 256]⟩
abbrev S256x1024 : Shape := ⟨2, ![256, 1024]⟩
abbrev S1x1024 : Shape := ⟨2, ![1, 1024]⟩
abbrev S_ : Shape := ⟨0, ![]⟩

class Facts : Prop where
  bcast_S_S256x128x256 : S_.BroadcastsInDim S256x128x256 (![] : Fin 0 → Fin S256x128x256.rank)
  reducesTo_S256x128x256_S_d0_1_2 : S256x128x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S256x128x256 .f32) (main_arg1 : FVec F S256x1024 .f32) (main_arg2 : FVec F S256x1024 .f32) (main_arg3 : FVec F S1x1024 .f32) : IVec S_ 1 :=
  let main_v0 : FVec F S256x128x256 .f32 := Host.absf main_arg0
  let main_cst : FVec F S_ .f32 := constant S_ .f32 0x7F800000#32
  let main_v1 : FVec F S256x128x256 .f32 := broadcastInDim S256x128x256 ![] bcast_S_S256x128x256 main_cst
  let main_v2 : IVec S256x128x256 1 := cmpf .olt main_v0 main_v1
  let main_c : IVec S_ 1 := constantI S_ 1 1#1
  let main_v3 : IVec S_ 1 := (fun x v => Host.reduce IntOp.andi x v reducesTo_S256x128x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S256x128x256 : Shape := ⟨3, ![256, 128, 256]⟩
abbrev S256x1024 : Shape := ⟨2, ![256, 1024]⟩
abbrev S1x1024 : Shape := ⟨2, ![1, 1024]⟩
abbrev S_ : Shape := ⟨0, ![]⟩
abbrev S1x256 : Shape := ⟨2, ![1, 256]⟩
abbrev S8x128x256 : Shape := ⟨3, ![8, 128, 256]⟩
abbrev S128x256 : Shape := ⟨2, ![128, 256]⟩
abbrev S1024x1024 : Shape := ⟨2, ![1024, 1024]⟩
abbrev S1024x256 : Shape := ⟨2, ![1024, 256]⟩
abbrev S128x1024 : Shape := ⟨2, ![128, 1024]⟩
abbrev S1x128x256 : Shape := ⟨3, ![1, 128, 256]⟩

abbrev nBuf : Space → Nat
  | .hbm => 22
  | .vmem => 10
  | .smem => 0
  | _ => 0

abbrev bufTy : (tb : Table) → Fin (tcTables nBuf tb) → BufTy
  | .hbm, ⟨0, _⟩ => ⟨S256x128x256, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S1x256, .f32⟩
  | .hbm, ⟨6, _⟩ => ⟨S_, .f32⟩
  | .hbm, ⟨7, _⟩ => ⟨S1x256, .f32⟩
  | .hbm, ⟨8, _⟩ => ⟨S_, .f32⟩
  | .hbm, ⟨9, _⟩ => ⟨S1x256, .f32⟩
  | .hbm, ⟨10, _⟩ => ⟨S_, .f32⟩
  | .hbm, ⟨11, _⟩ => ⟨S1x256, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .bf16⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S256x128x256, .bf16⟩
  | .hbm, ⟨21, _⟩ => ⟨S256x128x256, .f32⟩
  | .local _ .vmem, ⟨0, _⟩ => ⟨S8x128x256, .bf16⟩
  | .local _ .vmem, ⟨1, _⟩ => ⟨S8x128x256, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x256, .f32⟩
  | .local _ .vmem, ⟨6, _⟩ => ⟨S8x128x256, .f32⟩
  | .local _ .vmem, ⟨7, _⟩ => ⟨S128x256, .f32⟩
  | .local _ .vmem, ⟨8, _⟩ => ⟨S128x256, .f32⟩
  | .local _ .vmem, ⟨9, _⟩ => ⟨S1024x1024, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_off1 (c0_i32_22 : BitVec 32) : Fin 2 → Nat :=
  let c128_i32 : BitVec 32 := 128#32
  let v51 : BitVec 32 := Scalar.muli c0_i32_22 c128_i32
  let v52 : Index := Scalar.indexCast v51
  let c0_23 : Index := 0#32
  ![v52.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1x256 : S_.BroadcastsInDim S1x256 (![] : Fin 0 → Fin S1x256.rank)
  concatenates_S1x256_S1x256_S1x256_S1x256_S1x1024_d1 : Shape.Concatenates [S1x256, S1x256, S1x256, S1x256] S1x1024 1
  bcast_S1x1024_S256x1024_0_1 : S1x1024.BroadcastsInDim S256x1024 (![0, 1] : Fin 2 → Fin S256x1024.rank)
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  shapeCasts_S8x128x256_S1024x256 : S8x128x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S128x1024_d1_w32 : S128x1024.Iotas .tc 32 [1]
  natLt_1_32 : 1 < 32
  h_S128x1024 : 0 < S128x1024.numel
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  shapeCasts_S128x256_S1x128x256 : S128x256.ShapeCasts S1x128x256
  inb_S8x128x256_S1x128x256_1_0_0 : ∀ a, (![1, 0, 0] : Fin 3 → Nat) a + S1x128x256.size a ≤ S8x128x256.size a
  inb_S8x128x256_S1x128x256_2_0_0 : ∀ a, (![2, 0, 0] : Fin 3 → Nat) a + S1x128x256.size a ≤ S8x128x256.size a
  inb_S8x128x256_S1x128x256_3_0_0 : ∀ a, (![3, 0, 0] : Fin 3 → Nat) a + S1x128x256.size a ≤ S8x128x256.size a
  inb_S8x128x256_S1x128x256_4_0_0 : ∀ a, (![4, 0, 0] : Fin 3 → Nat) a + S1x128x256.size a ≤ S8x128x256.size a
  inb_S8x128x256_S1x128x256_5_0_0 : ∀ a, (![5, 0, 0] : Fin 3 → Nat) a + S1x128x256.size a ≤ S8x128x256.size a
  inb_S8x128x256_S1x128x256_6_0_0 : ∀ a, (![6, 0, 0] : Fin 3 → Nat) a + S1x128x256.size a ≤ S8x128x256.size a
  inb_S8x128x256_S1x128x256_7_0_0 : ∀ a, (![7, 0, 0] : Fin 3 → Nat) a + S1x128x256.size a ≤ S8x128x256.size a
  dot_S1024x256_S256x1024_S1024x1024_1_0_0_1_n_n_wf : DotDims.WF S1024x256 S256x1024 S1024x1024 [1] [0] [0] [1] [] []
  dot_S128x256_S256x1024_S128x1024_1_0_0_1_n_n_wf : DotDims.WF S128x256 S256x1024 S128x1024 [1] [0] [0] [1] [] []
  hrank0 : 0 < grid0.rank
  k0_off1_inb : ∀ (r : Fin 8), ∀ a, (k0_off1 (BitVec.ofNat 32 r.val)) a + S128x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S256x128x256.size a
  hwx0_0 : ∀ i : grid0.Coords, EltTy.bits .bf16 = 32 ∨ (Rect.block (s := S256x128x256) S8x128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x256.size a ≤ S256x128x256.size a
  hwx0_4 : ∀ i : grid0.Coords, EltTy.bits .f32 = 32 ∨ (Rect.block (s := S256x128x256) S8x128x256.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_v12) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x256 : Shape := ⟨3, ![256, 128, 256]⟩
abbrev S256x1024 : Shape := ⟨2, ![256, 1024]⟩
abbrev S1x1024 : Shape := ⟨2, ![1, 1024]⟩
abbrev S0 : Shape := ⟨1, ![0]⟩
abbrev S_ : Shape := ⟨0, ![]⟩
abbrev S32768x256 : Shape := ⟨2, ![32768, 256]⟩
abbrev S1024x1024 : Shape := ⟨2, ![1024, 1024]⟩
abbrev S256x256 : Shape := ⟨2, ![256, 256]⟩
abbrev S1 : Shape := ⟨1, ![1]⟩
abbrev S2 : Shape := ⟨1, ![2]⟩
abbrev S1x256 : Shape := ⟨2, ![1, 256]⟩
abbrev S32768x1024 : Shape := ⟨2, ![32768, 1024]⟩
abbrev S128x1024 : Shape := ⟨2, ![128, 1024]⟩
abbrev S256x128x1024 : Shape := ⟨3, ![256, 128, 1024]⟩

abbrev nBuf : Space → Nat
  | .hbm => 117
  | .vmem => 10
  | .smem => 0
  | _ => 0

abbrev bufTy : (tb : Table) → Fin (tcTables nBuf tb) → BufTy
  | .hbm, ⟨0, _⟩ => ⟨S256x128x256, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S0, .i32⟩
  | .hbm, ⟨5, _⟩ => ⟨S_, .bf16⟩
  | .hbm, ⟨6, _⟩ => ⟨S32768x256, .bf16⟩
  | .hbm, ⟨7, _⟩ => ⟨S32768x256, .f32⟩
  | .hbm, ⟨8, _⟩ => ⟨S32768x256, .bf16⟩
  | .hbm, ⟨9, _⟩ => ⟨S32768x256, .bf16⟩
  | .hbm, ⟨10, _⟩ => ⟨S_, .f32⟩
  | .hbm, ⟨11, _⟩ => ⟨S256x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1x1024, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .i32⟩
  | .hbm, ⟨21, _⟩ => ⟨S1, .i32⟩
  | .hbm, ⟨22, _⟩ => ⟨S256x1024, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1024x1024, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .i32⟩
  | .hbm, ⟨38, _⟩ => ⟨S1, .i32⟩
  | .hbm, ⟨39, _⟩ => ⟨S1x1024, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .i32⟩
  | .hbm, ⟨45, _⟩ => ⟨S1, .i32⟩
  | .hbm, ⟨46, _⟩ => ⟨S256x1024, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S1024x1024, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S1x256, .f32⟩
  | .hbm, ⟨61, _⟩ => ⟨S_, .i32⟩
  | .hbm, ⟨62, _⟩ => ⟨S1, .i32⟩
  | .hbm, ⟨63, _⟩ => ⟨S1x1024, .f32⟩
  | .hbm, ⟨64, _⟩ => ⟨S256x256, .f32⟩
  | .hbm, ⟨65, _⟩ => ⟨S_, .f32⟩
  | .hbm, ⟨66, _⟩ => ⟨S256x256, .f32⟩
  | .hbm, ⟨67, _⟩ => ⟨S256x256, .f32⟩
  | .hbm, ⟨68, _⟩ => ⟨S_, .i32⟩
  | .hbm, ⟨69, _⟩ => ⟨S1, .i32⟩
  | .hbm, ⟨70, _⟩ => ⟨S256x1024, .f32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S1024x1024, .f32⟩
  | .hbm, ⟨81, _⟩ => ⟨S1x256, .f32⟩
  | .hbm, ⟨82, _⟩ => ⟨S_, .f32⟩
  | .hbm, ⟨83, _⟩ => ⟨S1x256, .f32⟩
  | .hbm, ⟨84, _⟩ => ⟨S1x256, .f32⟩
  | .hbm, ⟨85, _⟩ => ⟨S_, .i32⟩
  | .hbm, ⟨86, _⟩ => ⟨S1, .i32⟩
  | .hbm, ⟨87, _⟩ => ⟨S1x1024, .f32⟩
  | .hbm, ⟨88, _⟩ => ⟨S256x256, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S_, .i32⟩
  | .hbm, ⟨93, _⟩ => ⟨S1, .i32⟩
  | .hbm, ⟨94, _⟩ => ⟨S256x1024, .f32⟩
  | .hbm, ⟨95, _⟩ => ⟨S256x256, .f32⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S_, .i32⟩
  | .hbm, ⟨100, _⟩ => ⟨S1, .i32⟩
  | .hbm, ⟨101, _⟩ => ⟨S_, .i32⟩
  | .hbm, ⟨102, _⟩ => ⟨S1, .i32⟩
  | .hbm, ⟨103, _⟩ => ⟨S2, .i32⟩
  | .hbm, ⟨104, _⟩ => ⟨S1024x1024, .f32⟩
  | .hbm, ⟨105, _⟩ => ⟨S1x256, .f32⟩
  | .hbm, ⟨106, _⟩ => ⟨S_, .f32⟩
  | .hbm, ⟨107, _⟩ => ⟨S1x256, .f32⟩
  | .hbm, ⟨108, _⟩ => ⟨S1x256, .f32⟩
  | .hbm, ⟨109, _⟩ => ⟨S_, .i32⟩
  | .hbm, ⟨110, _⟩ => ⟨S1, .i32⟩
  | .hbm, ⟨111, _⟩ => ⟨S1x1024, .f32⟩
  | .hbm, ⟨112, _⟩ => ⟨S256x1024, .bf16⟩
  | .hbm, ⟨113, _⟩ => ⟨S1024x1024, .bf16⟩
  | .hbm, ⟨114, _⟩ => ⟨S32768x1024, .f32⟩
  | .hbm, ⟨115, _⟩ => ⟨S256x128x1024, .f32⟩
  | .hbm, ⟨116, _⟩ => ⟨S256x128x256, .f32⟩
  | .local _ .vmem, ⟨0, _⟩ => ⟨S256x256, .bf16⟩
  | .local _ .vmem, ⟨1, _⟩ => ⟨S256x256, .bf16⟩
  | .local _ .vmem, ⟨2, _⟩ => ⟨S256x1024, .bf16⟩
  | .local _ .vmem, ⟨3, _⟩ => ⟨S1024x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S128x1024, .f32⟩
  | .local _ .vmem, ⟨8, _⟩ => ⟨S128x1024, .f32⟩
  | .local _ .vmem, ⟨9, _⟩ => ⟨S256x1024, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_10 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_12 : Ref sig .tc := ⟨.hbm, 48, rfl⟩
abbrev main_v30 : Ref sig .tc := ⟨.hbm, 49, rfl⟩
abbrev main_v31 : Ref sig .tc := ⟨.hbm, 50, rfl⟩
abbrev main_c_13 : Ref sig .tc := ⟨.hbm, 51, rfl⟩
abbrev main_v32 : Ref sig .tc := ⟨.hbm, 52, rfl⟩
abbrev main_c_14 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_15 : Ref sig .tc := ⟨.hbm, 58, rfl⟩
abbrev main_v37 : Ref sig .tc := ⟨.hbm, 59, rfl⟩
abbrev main_v38 : Ref sig .tc := ⟨.hbm, 60, rfl⟩
abbrev main_c_16 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_17 : Ref sig .tc := ⟨.hbm, 65, rfl⟩
abbrev main_v42 : Ref sig .tc := ⟨.hbm, 66, rfl⟩
abbrev main_v43 : Ref sig .tc := ⟨.hbm, 67, rfl⟩
abbrev main_c_18 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_19 : Ref sig .tc := ⟨.hbm, 72, rfl⟩
abbrev main_v47 : Ref sig .tc := ⟨.hbm, 73, rfl⟩
abbrev main_v48 : Ref sig .tc := ⟨.hbm, 74, rfl⟩
abbrev main_c_20 : Ref sig .tc := ⟨.hbm, 75, rfl⟩
abbrev main_v49 : Ref sig .tc := ⟨.hbm, 76, rfl⟩
abbrev main_c_21 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_22 : Ref sig .tc := ⟨.hbm, 82, rfl⟩
abbrev main_v54 : Ref sig .tc := ⟨.hbm, 83, rfl⟩
abbrev main_v55 : Ref sig .tc := ⟨.hbm, 84, rfl⟩
abbrev main_c_23 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_24 : Ref sig .tc := ⟨.hbm, 89, rfl⟩
abbrev main_v59 : Ref sig .tc := ⟨.hbm, 90, rfl⟩
abbrev main_v60 : Ref sig .tc := ⟨.hbm, 91, rfl⟩
abbrev main_c_25 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_26 : Ref sig .tc := ⟨.hbm, 96, rfl⟩
abbrev main_v64 : Ref sig .tc := ⟨.hbm, 97, rfl⟩
abbrev main_v65 : Ref sig .tc := ⟨.hbm, 98, rfl⟩
abbrev main_c_27 : Ref sig .tc := ⟨.hbm, 99, rfl⟩
abbrev main_v66 : Ref sig .tc := ⟨.hbm, 100, rfl⟩
abbrev main_c_28 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_29 : Ref sig .tc := ⟨.hbm, 106, rfl⟩
abbrev main_v71 : Ref sig .tc := ⟨.hbm, 107, rfl⟩
abbrev main_v72 : Ref sig .tc := ⟨.hbm, 108, rfl⟩
abbrev main_c_30 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def k0_mult1 : BitVec 32 :=
  let c0_i32_21 : BitVec 32 := 0#32
  let c128_i32 : BitVec 32 := 128#32
  let v50 : BitVec 32 := Scalar.muli c0_i32_21 c128_i32
  v50
def k0_off1 (c0_i32_21 : BitVec 32) : Fin 2 → Nat :=
  let c128_i32 : BitVec 32 := 128#32
  let v50 : BitVec 32 := Scalar.muli c0_i32_21 c128_i32
  let v51 : BitVec 32 := v50
  let v52 : Index := Scalar.indexCast v51
  let c0_22 : Index := 0#32
  ![v52.toNat, 0]
def k0_mult2 : BitVec 32 :=
  let c1_i32_28 : BitVec 32 := 1#32
  let c128_i32_29 : BitVec 32 := 128#32
  let v71 : BitVec 32 := Scalar.muli c1_i32_28 c128_i32_29
  v71
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  hz_S0 : S0.numel = 0
  bcast_S_S32768x256 : S_.BroadcastsInDim S32768x256 (![] : Fin 0 → Fin S32768x256.rank)
  shapeCasts_S256x128x256_S32768x256 : S256x128x256.ShapeCasts S32768x256
  bitsLt_bf16_f32 : FTy.bits .bf16 < FTy.bits .f32
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)
  slices_S256x1024_S256x256_0_0 : S256x1024.Slices ![0, 0] S256x256
  bcast_S_S256x256 : S_.BroadcastsInDim S256x256 (![] : Fin 0 → Fin S256x256.rank)
  bcast_S_S1 : S_.BroadcastsInDim S1 (![] : Fin 0 → Fin S1.rank)
  concatenates_S1_S1_S2_d0 : Shape.Concatenates [S1, S1] S2 0
  slices_S1x1024_S1x256_0_0 : S1x1024.Slices ![0, 0] S1x256
  bcast_S_S1x256 : S_.BroadcastsInDim S1x256 (![] : Fin 0 → Fin S1x256.rank)
  slices_S256x1024_S256x256_0_256 : S256x1024.Slices ![0, 256] S256x256
  slices_S1x1024_S1x256_0_256 : S1x1024.Slices ![0, 256] S1x256
  slices_S256x1024_S256x256_0_512 : S256x1024.Slices ![0, 512] S256x256
  slices_S1x1024_S1x256_0_512 : S1x1024.Slices ![0, 512] S1x256
  slices_S256x1024_S256x256_0_768 : S256x1024.Slices ![0, 768] S256x256
  slices_S1x1024_S1x256_0_768 : S1x1024.Slices ![0, 768] S1x256
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  iota_S128x1024_d1_w32 : S128x1024.Iotas .tc 32 [1]
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  rotates_S128x1024_d1 : S128x1024.Rotates 1 none
  shapeCasts_S32768x1024_S256x128x1024 : S32768x1024.ShapeCasts S256x128x1024
  slices_S256x128x1024_S256x128x256_0_0_256 : S256x128x1024.Slices ![0, 0, 256] S256x128x256
  scatter_S32768x256_S0_S32768x256_01_n_n_0_wf : ScatterDims.WF S32768x256 S0 S32768x256 [0, 1] [] [] 0
  scatter_S256x1024_S1_S256x256_01_n_1_0_wf : ScatterDims.WF S256x1024 S1 S256x256 [0, 1] [] [1] 0
  scatter_S1024x1024_S2_S256x256_01_n_01_0_wf : ScatterDims.WF S1024x1024 S2 S256x256 [0, 1] [] [0, 1] 0
  scatter_S1x1024_S1_S1x256_01_n_1_0_wf : ScatterDims.WF S1x1024 S1 S1x256 [0, 1] [] [1] 0
  dot_S256x256_S256x1024_S256x1024_1_0_0_1_n_n_wf : DotDims.WF S256x256 S256x1024 S256x1024 [1] [0] [0] [1] [] []
  dot_S128x1024_S1024x1024_S128x1024_1_0_0_1_n_n_wf : DotDims.WF S128x1024 S1024x1024 S128x1024 [1] [0] [0] [1] [] []
  hrank0 : 0 < grid0.rank
  k0_mult1_dvd : 128 ∣ k0_mult1.toNat
  k0_off1_inb : ∀ (r : Fin 2), ∀ a, (k0_off1 (BitVec.ofNat 32 r.val)) a + S128x1024.size a ≤ S256x1024.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .bf16 = 32 ∨ (Rect.block (s := S32768x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S32768x1024.size a
  hwx0_4 : ∀ i : grid0.Coords, EltTy.bits .f32 = 32 ∨ (Rect.block (s := S32768x1024) S256x1024.size (cc0_transform_4 i) (hinb0_4 i)).WholeWords (EltTy.packing .f32)

variable [Facts₀]

def scatter_S32768x256_S0_S32768x256_01_n_n_0 : ScatterDims S32768x256 S0 S32768x256 where
  updateWindowDims := [0, 1]
  insertedWindowDims := []
  scatterDimsToOperandDims := []
  indexVectorDim := 0
  wf := scatter_S32768x256_S0_S32768x256_01_n_n_0_wf
def scatter_S256x1024_S1_S256x256_01_n_1_0 : ScatterDims S256x1024 S1 S256x256 where
  updateWindowDims := [0, 1]
  insertedWindowDims := []
  scatterDimsToOperandDims := [1]
  indexVectorDim := 0
  wf := scatter_S256x1024_S1_S256x256_01_n_1_0_wf
def scatter_S1024x1024_S2_S256x256_01_n_01_0 : ScatterDims S1024x1024 S2 S256x256 where
  updateWindowDims := [0, 1]
  insertedWindowDims := []
  scatterDimsToOperandDims := [0, 1]
  indexVectorDim := 0
  wf := scatter_S1024x1024_S2_S256x256_01_n_01_0_wf
def scatter_S1x1024_S1_S1x256_01_n_1_0 : ScatterDims S1x1024 S1 S1x256 where
  updateWindowDims := [0, 1]
  insertedWindowDims := []
  scatterDimsToOperandDims := [1]
  indexVectorDim := 0
  wf := scatter_S1x1024_S1_S1x256_01_n_1_0_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v3) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v74) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v77) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KbRuns.lean ====
/-
  The LSTM kernel's launch, seen from outside the body.  The host lines before the launch scale the gate columns of the
  two weight matrices and of the bias and round the inputs; none of them writes an argument array.  The grid has 32
  points, one per chunk of eight time steps; the recurrent state (h, c) lives in two scratch buffers carried from one
  point to the next and reset to zero at the first point only; the third scratch buffer holds the chunk's input
  projection and is rewritten whole at every point before it is read.
-/
import proofs.«173986_g2000208858419734_pallasbulk_908_7_alg».proof.Proof.Gen.Kernel.Launch
import proofs.«173986_g2000208858419734_pallasbulk_908_7_alg».proof.Proof.Gen.Kernel.Skeleton
import proofs.«173986_g2000208858419734_pallasbulk_908_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What each buffer of core `c` holds when the launch begins: the host lines applied to the initial memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The blocks -/

/-- Block `t` of operand `w`: the part of its array that grid point `t` sees. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block of the array at every grid point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block of the array at every grid point, whether the point fetched it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block of the array at every grid point, whether the point fetched it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds its block of the array at every grid point, whether the point fetched it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Arguments unchanged -/

/-- The four argument arrays are no operand of the launch (its operands are the scaled, rounded copies), so a run
    that leaves every buffer outside the operands untouched leaves the arguments as given. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The reset condition -/

/-- The body resets the state exactly when its grid coordinate is zero. -/
abbrev cond0_0 (i : grid0.Coords) : Prop := (Scalar.cmpi .ne (Scalar.extui (Scalar.cmpi .eq (BitVec.ofNat 32 (i 0).val) 0#32)) 0#32) = 1#1
/-- Over the 32 points that is the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The body's memory operands -/

/-- One staging buffer of the output, through which its contents are stated. -/
abbrev VO0_4 : View sig .tc .vmem S8x128x256 .f32 := (Memref.whole cc0_stg4_0 : Memref sig .tc .vmem S8x128x256 .f32).view
abbrev ms0_0 (t : Fin cfg0.N) : Memref sig .tc .vmem S8x128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x256 .f32 := win0_4.stage (cfg0.slots t 4)
abbrev hs0_4 (t : Fin cfg0.N) : (ms0_4 t).IsWhole := hstage0_4 ((cfg0.slots t 4).cast nbuf0_4)
/-- The three scratch buffers: the hidden state, the cell state, the chunk's input projection. -/
abbrev scM0_0 : Memref sig .tc .vmem S128x256 .f32 := Memref.whole cc0_scratch0
abbrev scM0_1 : Memref sig .tc .vmem S128x256 .f32 := Memref.whole cc0_scratch1
abbrev scM0_2 : Memref sig .tc .vmem S1024x1024 .f32 := Memref.whole cc0_scratch2
abbrev VS0_0 : View sig .tc .vmem S128x256 .f32 := scM0_0.view
abbrev VS0_1 : View sig .tc .vmem S128x256 .f32 := scM0_1.view

/-- What the launch lends the body besides the operands: the three scratch buffers at some contents and the
    random-number register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KbRunA.lean ====
/-
  The body at the first grid point.  The two state buffers may hold anything when the body starts; it stores zeros
  into both, computes the chunk's input projection into the third scratch buffer, takes eight recurrent steps, stores
  the eight hidden states into the output block one time step at a time, and stores the final state back.  What each
  buffer ends with is recorded as the list of the body's stores into it.
-/
import proofs.«173986_g2000208858419734_pallasbulk_908_7_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block and into the two state buffers when the reset branch is taken,
    with the proof that from whole operands the body runs to completion leaving the inputs as they were and each of
    those three buffers with exactly these stores written. -/
noncomputable def kernelRun0_A (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) :
    Σ' (L4 : List (View.Piece (Elt F) S8x128x256 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ d, owns (c : Thread nD τ) arg8 fullShare d)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _, _; isplitr; swap; · iexact HS2
    ipureintro; rfl

end Cert.Kernel.Hand

end
-- ==== Proof.KbRunB.lean ====
/-
  The body at a later grid point.  The reset branch is not taken: the two state buffers hold what the point before
  left in them, and the body continues the recurrence from there — the input projection of this chunk, eight steps,
  eight hidden states stored into the output block, the final state stored back.
-/
import proofs.«173986_g2000208858419734_pallasbulk_908_7_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block and into the two state buffers when the reset branch is not
    taken, as functions of the operands and of the state `xs0`, `xs1` it starts from, with the proof that the body
    runs to completion leaving the inputs as they were and those three buffers with exactly these stores written. -/
noncomputable def kernelRun0_B (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) :
    Σ' (L4 : List (View.Piece (Elt F) S8x128x256 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ d, owns (c : Thread nD τ) arg8 fullShare d)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _, _; isplitr; swap; · iexact HS2
    ipureintro; rfl

end Cert.Kernel.Hand

end
-- ==== Proof.KbFrame.lean ====
/-
  The LSTM kernel's frame.  After grid point n the output block holds the hidden states of time steps 8n … 8n+7 and
  the two state buffers hold (h, c) after step 8n+7: at the first point these come from the reset case, at every later
  point from the continuing case started at what point n−1 left.  Between points the state buffers are held at exactly
  those contents; the body at each point is then one of the two runs, and the launch theorem for a kernel that carries
  scratch between points gives the run of the whole program, from which the arguments come back unchanged.
-/
import proofs.«173986_g2000208858419734_pallasbulk_908_7_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight stores of case A into the output block are its eight time-step slabs: together they cover it. -/
theorem cover0_A_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S8x128x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S1x128x256.size (by sl_kernel_rfl) y

/-- What case A leaves in the output block: its stores read back. -/
def out0_A_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S8x128x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- The stores of case A into the hidden-state buffer are whole-buffer stores: they cover it. -/
theorem scover0_A_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S128x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S128x256.size (by sl_kernel_rfl) y

/-- The hidden state case A leaves. -/
def sout0_A_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.1)

/-- The stores of case A into the cell-state buffer are whole-buffer stores: they cover it. -/
theorem scover0_A_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S128x256.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S128x256.size (by sl_kernel_rfl) y

/-- The cell state case A leaves. -/
def sout0_A_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S128x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.1)

/-- The eight stores of case B into the output block are its eight time-step slabs: together they cover it. -/
theorem cover0_B_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S8x128x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S1x128x256.size (by sl_kernel_rfl) y

/-- What case B leaves in the output block: its stores read back. -/
def out0_B_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S8x128x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)

/-- The stores of case B into the hidden-state buffer are whole-buffer stores: they cover it. -/
theorem scover0_B_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S128x256.size (by sl_kernel_rfl) y

/-- The hidden state case B leaves. -/
def sout0_B_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 x3 xs0 xs1).2.1)

/-- The stores of case B into the cell-state buffer are whole-buffer stores: they cover it. -/
theorem scover0_B_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.1 S128x256.size (by sl_kernel_rfl) y

/-- The cell state case B leaves. -/
def sout0_B_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S128x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 x3 xs0 xs1).2.2.1)

/-! ## Point by point -/

/-- What the output block and the two state buffers hold after the body at grid point `n`: the reset case at the first
    point, the continuing case — started from the state the point before left — at every other. -/
def outsAt0 (c : Dev nD) : (n : ℕ) → n < cfg0.N → Vec F S8x128x256 .f32 × Vec F S128x256 .f32 × Vec F S128x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 32 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What the body may rely on between points: before the first point the scratch buffers hold anything; afterwards the
    two state buffers hold what the point before left, the projection buffer anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The launch's proof data -/

/-- The operands' arrays as the launch finds them; after the body at point `t` each input's buffer still at its block
    and the output's at the eight hidden states of the chunk; the state carried by `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- At every grid point the body, given the inputs' blocks and the carried state, leaves the inputs as they were, the
    output block at this chunk's hidden states and the state buffers at the state after the chunk's last step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · rw [outsAt0_A m c t h0]
    unfold out0_A_4 sout0_A_0 sout0_A_1; (try dsimp only)
    have hz : t.val = 0 := by omega
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _ _ _ _)
  · rw [outsAt0_B m c t h0]
    unfold out0_B_4 sout0_B_0 sout0_B_1; (try dsimp only)
    have hz : t.val ≠ 0 := by omega
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault; every operand's array ends at what the
    launch's proof data says and every other buffer as the host lines left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs and its four argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KiRuns.lean ====
/-
  The LSTM kernel's launch, seen from outside the body.  The host lines before the launch scale the gate columns of the
  two weight matrices and of the bias and round the inputs; none of them writes an argument array.  The grid has 32
  points, one per chunk of eight time steps; the recurrent state (h, c) lives in two scratch buffers carried from one
  point to the next and reset to zero at the first point only; the third scratch buffer holds the chunk's input
  projection and is rewritten whole at every point before it is read.
-/
import proofs.«173986_g2000208858419734_pallasbulk_908_7_alg».proof.Proof.Gen.KernelIdeal.Launch
import proofs.«173986_g2000208858419734_pallasbulk_908_7_alg».proof.Proof.Gen.KernelIdeal.Skeleton
import proofs.«173986_g2000208858419734_pallasbulk_908_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What each buffer of core `c` holds when the launch begins: the host lines applied to the initial memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The blocks -/

/-- Block `t` of operand `w`: the part of its array that grid point `t` sees. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block of the array at every grid point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block of the array at every grid point, whether the point fetched it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block of the array at every grid point, whether the point fetched it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds its block of the array at every grid point, whether the point fetched it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Arguments unchanged -/

/-- The four argument arrays are no operand of the launch (its operands are the scaled, rounded copies), so a run
    that leaves every buffer outside the operands untouched leaves the arguments as given. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The reset condition -/

/-- The body resets the state exactly when its grid coordinate is zero. -/
abbrev cond0_0 (i : grid0.Coords) : Prop := (Scalar.cmpi .ne (Scalar.extui (Scalar.cmpi .eq (BitVec.ofNat 32 (i 0).val) 0#32)) 0#32) = 1#1
/-- Over the 32 points that is the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The body's memory operands -/

/-- One staging buffer of the output, through which its contents are stated. -/
abbrev VO0_4 : View sig .tc .vmem S8x128x256 .f32 := (Memref.whole cc0_stg4_0 : Memref sig .tc .vmem S8x128x256 .f32).view
abbrev ms0_0 (t : Fin cfg0.N) : Memref sig .tc .vmem S8x128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x256 .f32 := win0_4.stage (cfg0.slots t 4)
abbrev hs0_4 (t : Fin cfg0.N) : (ms0_4 t).IsWhole := hstage0_4 ((cfg0.slots t 4).cast nbuf0_4)
/-- The three scratch buffers: the hidden state, the cell state, the chunk's input projection. -/
abbrev scM0_0 : Memref sig .tc .vmem S128x256 .f32 := Memref.whole cc0_scratch0
abbrev scM0_1 : Memref sig .tc .vmem S128x256 .f32 := Memref.whole cc0_scratch1
abbrev scM0_2 : Memref sig .tc .vmem S1024x1024 .f32 := Memref.whole cc0_scratch2
abbrev VS0_0 : View sig .tc .vmem S128x256 .f32 := scM0_0.view
abbrev VS0_1 : View sig .tc .vmem S128x256 .f32 := scM0_1.view

/-- What the launch lends the body besides the operands: the three scratch buffers at some contents and the
    random-number register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KiRunA.lean ====
/-
  The body at the first grid point.  The two state buffers may hold anything when the body starts; it stores zeros
  into both, computes the chunk's input projection into the third scratch buffer, takes eight recurrent steps, stores
  the eight hidden states into the output block one time step at a time, and stores the final state back.  What each
  buffer ends with is recorded as the list of the body's stores into it.
-/
import proofs.«173986_g2000208858419734_pallasbulk_908_7_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block and into the two state buffers when the reset branch is taken,
    with the proof that from whole operands the body runs to completion leaving the inputs as they were and each of
    those three buffers with exactly these stores written. -/
noncomputable def kernelRun0_A (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) :
    Σ' (L4 : List (View.Piece (Elt F) S8x128x256 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ d, owns (c : Thread nD τ) arg8 fullShare d)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _, _; isplitr; swap; · iexact HS2
    ipureintro; rfl

end Cert.KernelIdeal.Hand

end
-- ==== Proof.KiRunB.lean ====
/-
  The body at a later grid point.  The reset branch is not taken: the two state buffers hold what the point before
  left in them, and the body continues the recurrence from there — the input projection of this chunk, eight steps,
  eight hidden states stored into the output block, the final state stored back.
-/
import proofs.«173986_g2000208858419734_pallasbulk_908_7_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block and into the two state buffers when the reset branch is not
    taken, as functions of the operands and of the state `xs0`, `xs1` it starts from, with the proof that the body
    runs to completion leaving the inputs as they were and those three buffers with exactly these stores written. -/
noncomputable def kernelRun0_B (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) :
    Σ' (L4 : List (View.Piece (Elt F) S8x128x256 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ d, owns (c : Thread nD τ) arg8 fullShare d)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _, _; isplitr; swap; · iexact HS2
    ipureintro; rfl

end Cert.KernelIdeal.Hand

end
-- ==== Proof.KiFrame.lean ====
/-
  The LSTM kernel's frame.  After grid point n the output block holds the hidden states of time steps 8n … 8n+7 and
  the two state buffers hold (h, c) after step 8n+7: at the first point these come from the reset case, at every later
  point from the continuing case started at what point n−1 left.  Between points the state buffers are held at exactly
  those contents; the body at each point is then one of the two runs, and the launch theorem for a kernel that carries
  scratch between points gives the run of the whole program, from which the arguments come back unchanged.
-/
import proofs.«173986_g2000208858419734_pallasbulk_908_7_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight stores of case A into the output block are its eight time-step slabs: together they cover it. -/
theorem cover0_A_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S8x128x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S1x128x256.size (by sl_kernel_rfl) y

/-- What case A leaves in the output block: its stores read back. -/
def out0_A_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S8x128x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- The stores of case A into the hidden-state buffer are whole-buffer stores: they cover it. -/
theorem scover0_A_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S128x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S128x256.size (by sl_kernel_rfl) y

/-- The hidden state case A leaves. -/
def sout0_A_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.1)

/-- The stores of case A into the cell-state buffer are whole-buffer stores: they cover it. -/
theorem scover0_A_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) (y : S128x256.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S128x256.size (by sl_kernel_rfl) y

/-- The cell state case A leaves. -/
def sout0_A_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i)
    (x0 : Vec F S8x128x256 .bf16) (x1 : Vec F S256x1024 .bf16) (x2 : Vec F S256x1024 .bf16) (x3 : Vec F S1x1024 .f32) : Vec F S128x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.1)

/-- The eight stores of case B into the output block are its eight time-step slabs: together they cover it. -/
theorem cover0_B_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S8x128x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S1x128x256.size (by sl_kernel_rfl) y

/-- What case B leaves in the output block: its stores read back. -/
def out0_B_4 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S8x128x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)

/-- The stores of case B into the hidden-state buffer are whole-buffer stores: they cover it. -/
theorem scover0_B_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S128x256.size (by sl_kernel_rfl) y

/-- The hidden state case B leaves. -/
def sout0_B_0 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 x3 xs0 xs1).2.1)

/-- The stores of case B into the cell-state buffer are whole-buffer stores: they cover it. -/
theorem scover0_B_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.1 S128x256.size (by sl_kernel_rfl) y

/-- The cell state case B leaves. -/
def sout0_B_1 (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i)
    (x0 : Vec F S8x128x256 .bf16) (x1 : Vec F S256x1024 .bf16) (x2 : Vec F S256x1024 .bf16) (x3 : Vec F S1x1024 .f32) (xs0 : Vec F S128x256 .f32) (xs1 : Vec F S128x256 .f32) : Vec F S128x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 x3 xs0 xs1).2.2.1)

/-! ## Point by point -/

/-- What the output block and the two state buffers hold after the body at grid point `n`: the reset case at the first
    point, the continuing case — started from the state the point before left — at every other. -/
def outsAt0 (c : Dev nD) : (n : ℕ) → n < cfg0.N → Vec F S8x128x256 .f32 × Vec F S128x256 .f32 × Vec F S128x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 32 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What the body may rely on between points: before the first point the scratch buffers hold anything; afterwards the
    two state buffers hold what the point before left, the projection buffer anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The launch's proof data -/

/-- The operands' arrays as the launch finds them; after the body at point `t` each input's buffer still at its block
    and the output's at the eight hidden states of the chunk; the state carried by `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- At every grid point the body, given the inputs' blocks and the carried state, leaves the inputs as they were, the
    output block at this chunk's hidden states and the state buffers at the state after the chunk's last step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · rw [outsAt0_A m c t h0]
    unfold out0_A_4 sout0_A_0 sout0_A_1; (try dsimp only)
    have hz : t.val = 0 := by omega
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _ _ _ _)
  · rw [outsAt0_B m c t h0]
    unfold out0_B_4 sout0_B_0 sout0_B_1; (try dsimp only)
    have hz : t.val ≠ 0 := by omega
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault; every operand's array ends at what the
    launch's proof data says and every other buffer as the host lines left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs and its four argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.KiStep.lean ====
/-
  The body's eight steps are one step repeated.  With lane vectors S, T, one step takes the state (h, c), the step's
  slice g of the input projection and the recurrent weights w to
      a = tanh(g + h·w)·S + T,    c' = a[f]·c + a[i]·a[g],    h' = a[o]·tanh c',
  where a[i], a[f], a[g], a[o] are the four 256-lane slices of a.  The body's text cuts the eight steps at fixed
  statement counts, so its intermediate values arrive grouped unevenly — one step here, two steps there, once a gate slab
  with three of its slices; each group is this one step applied once or twice.
-/
import proofs.«173986_g2000208858419734_pallasbulk_908_7_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gate slab: tanh of the pre-activation, then the lane-wise affine map. -/
def actS (S T : FVec F S128x1024 .f32) (h : FVec F S128x256 .f32) (g : Vec F S128x1024 .f32) (w : Vec F S256x1024 .bf16) : FVec F S128x1024 .f32 :=
  addf (mulf (tanh (addf g (matmul dot_S128x256_S256x1024_S128x1024_1_0_0_1_n_n none (truncf .bf16 h bitsLt_bf16_f32)
    (shapeCast S256x1024 w shapeCasts_S256x1024_S256x1024) (constant S128x1024 .f32 0x00000000#32)))) S) T
/-- The four gates: lanes 0…255, 256…511, 512…767, 768…1023 of a slab. -/
def gI (a : FVec F S128x1024 .f32) : FVec F S128x256 .f32 := extractStridedSlice S128x256 ![0, 0] a slices_S128x1024_o0_0_S128x256
def gF (a : FVec F S128x1024 .f32) : FVec F S128x256 .f32 := extractStridedSlice S128x256 ![0, 256] a slices_S128x1024_o0_256_S128x256
def gG (a : FVec F S128x1024 .f32) : FVec F S128x256 .f32 := extractStridedSlice S128x256 ![0, 512] a slices_S128x1024_o0_512_S128x256
def gO (a : FVec F S128x1024 .f32) : FVec F S128x256 .f32 := extractStridedSlice S128x256 ![0, 768] a slices_S128x1024_o0_768_S128x256
/-- The cell state from a gate slab. -/
def cOf (a : FVec F S128x1024 .f32) (c : FVec F S128x256 .f32) : FVec F S128x256 .f32 := addf (mulf (gF a) c) (mulf (gI a) (gG a))
/-- The hidden state from a gate slab and the new cell state. -/
def hOf (a : FVec F S128x1024 .f32) (c' : FVec F S128x256 .f32) : FVec F S128x256 .f32 := mulf (gO a) (tanh c')
/-- The cell state after one step. -/
def cS (S T : FVec F S128x1024 .f32) (h c : FVec F S128x256 .f32) (g : Vec F S128x1024 .f32) (w : Vec F S256x1024 .bf16) : FVec F S128x256 .f32 :=
  cOf (actS S T h g w) c
/-- The hidden state after one step. -/
def hS (S T : FVec F S128x1024 .f32) (h c : FVec F S128x256 .f32) (g : Vec F S128x1024 .f32) (w : Vec F S256x1024 .bf16) : FVec F S128x256 .f32 :=
  hOf (actS S T h g w) (cS S T h c g w)
/-- A hidden state as one time-step slab of the output block. -/
def outS (h : FVec F S128x256 .f32) : FVec F S1x128x256 .f32 := shapeCast S1x128x256 h shapeCasts_S128x256_S1x128x256

/-- The lane vectors the body computes. -/
abbrev aS : FVec F S128x1024 .f32 := k0_pay8 k0_pay5 k0_pay6 1#32
abbrev aT : FVec F S128x1024 .f32 := k0_pay9 k0_pay5 k0_pay6 1#32

section
variable (S T : FVec F S128x1024 .f32) (h c : FVec F S128x256 .f32) (g g' : Vec F S128x1024 .f32) (w w' : Vec F S256x1024 .bf16)

theorem pay10_eq : k0_pay10 k0_pay5 k0_pay6 1#32 h g w = actS aS aT h g w := rfl
theorem pay11_eq : k0_pay11 k0_pay5 k0_pay6 1#32 h c g w = cS aS aT h c g w := rfl
theorem pay12_eq : k0_pay12 k0_pay5 k0_pay6 1#32 h c g w = hS aS aT h c g w := rfl
theorem pay13_eq : k0_pay13 k0_pay5 k0_pay6 1#32 h c g w = outS (hS aS aT h c g w) := rfl

theorem pay15_eq : k0_pay15 S T c h g w = cS S T h c g w := rfl
theorem pay16_eq : k0_pay16 S T c h g w = hS S T h c g w := rfl
theorem pay17_eq : k0_pay17 S T c h g w = outS (hS S T h c g w) := rfl
theorem pay19_eq : k0_pay19 S T c h g w g' w' = cS S T (hS S T h c g w) (cS S T h c g w) g' w' := rfl
theorem pay20_eq : k0_pay20 S T c h g w g' w' = hS S T (hS S T h c g w) (cS S T h c g w) g' w' := rfl
theorem pay21_eq : k0_pay21 S T c h g w g' w' = outS (hS S T (hS S T h c g w) (cS S T h c g w) g' w') := rfl

theorem pay23_eq : k0_pay23 S T c h g w = cS S T h c g w := rfl
theorem pay24_eq : k0_pay24 S T c h g w = hS S T h c g w := rfl
theorem pay25_eq : k0_pay25 S T c h g w = outS (hS S T h c g w) := rfl
theorem pay27_eq : k0_pay27 S T c h g w g' w' = cS S T (hS S T h c g w) (cS S T h c g w) g' w' := rfl
theorem pay28_eq : k0_pay28 S T c h g w g' w' = hS S T (hS S T h c g w) (cS S T h c g w) g' w' := rfl
theorem pay29_eq : k0_pay29 h = outS h := rfl

theorem pay31_eq : k0_pay31 S T c h g w = cS S T h c g w := rfl
theorem pay32_eq : k0_pay32 S T c h g w = hS S T h c g w := rfl
theorem pay33_eq : k0_pay33 S T c h g w = outS (hS S T h c g w) := rfl
theorem pay34_eq : k0_pay34 S T c h g w g' w' = actS S T (hS S T h c g w) g' w' := rfl
theorem pay35_eq : k0_pay35 S T c h g w g' w' = gI (actS S T (hS S T h c g w) g' w') := rfl
theorem pay36_eq : k0_pay36 S T c h g w g' w' = gF (actS S T (hS S T h c g w) g' w') := rfl
theorem pay37_eq : k0_pay37 S T c h g w g' w' = gG (actS S T (hS S T h c g w) g' w') := rfl
end

section
variable (S T : FVec F S128x1024 .f32) (c : FVec F S128x256 .f32) (a : FVec F S128x1024 .f32) (g : Vec F S128x1024 .f32) (w : Vec F S256x1024 .bf16)

theorem pay38_eq : k0_pay38 c (gI a) (gF a) (gG a) = cOf a c := rfl
theorem pay39_eq : k0_pay39 c a (gI a) (gF a) (gG a) = hOf a (cOf a c) := rfl
theorem pay40_eq : k0_pay40 c a (gI a) (gF a) (gG a) = outS (hOf a (cOf a c)) := rfl
theorem pay42_eq : k0_pay42 S T c a (gI a) (gF a) (gG a) g w = cS S T (hOf a (cOf a c)) (cOf a c) g w := rfl
theorem pay43_eq : k0_pay43 S T c a (gI a) (gF a) (gG a) g w = hS S T (hOf a (cOf a c)) (cOf a c) g w := rfl
theorem pay44_eq : k0_pay44 S T c a (gI a) (gF a) (gG a) g w = outS (hS S T (hOf a (cOf a c)) (cOf a c) g w) := rfl
theorem pay45_eq : k0_pay45 S T c a (gI a) (gF a) (gG a) g w = shapeCast S128x256 (hS S T (hOf a (cOf a c)) (cOf a c) g w) shapeCasts_S128x256_S128x256 := rfl
theorem pay1_eq : k0_pay1 c = shapeCast S128x256 c shapeCasts_S128x256_S128x256 := rfl
end

/-- The state after the first `n` steps of a chunk whose slices of the input projection are `G 0, G 1, …`. -/
def chain (S T : FVec F S128x1024 .f32) (G : ℕ → Vec F S128x1024 .f32) (w : Vec F S256x1024 .bf16) (h0 c0 : FVec F S128x256 .f32) :
    ℕ → FVec F S128x256 .f32 × FVec F S128x256 .f32
  | 0 => (h0, c0)
  | n + 1 => (hS S T (chain S T G w h0 c0 n).1 (chain S T G w h0 c0 n).2 (G n) w, cS S T (chain S T G w h0 c0 n).1 (chain S T G w h0 c0 n).2 (G n) w)

theorem chain_succ (S T : FVec F S128x1024 .f32) (G : ℕ → Vec F S128x1024 .f32) (w : Vec F S256x1024 .bf16) (h0 c0 : FVec F S128x256 .f32) (n : ℕ) :
    chain S T G w h0 c0 (n + 1) = (hS S T (chain S T G w h0 c0 n).1 (chain S T G w h0 c0 n).2 (G n) w, cS S T (chain S T G w h0 c0 n).1 (chain S T G w h0 c0 n).2 (G n) w) := rfl

end Cert.KernelIdeal.Hand

end
-- ==== Proof.KiPiecesB.lean ====
/-
  The continuing case's stores, named.  With G s the s-th 128-row slice of the chunk's input projection as the body
  loads it back, w the recurrent weights and (h0, c0) the carried state as loaded, let (h_n, c_n) be the state after n
  steps.  The body stores h_{s+1} into time-step slab s of the output block for s = 0 … 7, and h_8, c_8 into the two
  state buffers.
-/
import proofs.«173986_g2000208858419734_pallasbulk_908_7_alg».proof.Proof.KiRunB
import proofs.«173986_g2000208858419734_pallasbulk_908_7_alg».proof.Proof.KiStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (x0 : Vec F S8x128x256 .bf16) (x1 : Vec F S256x1024 .bf16) (x2 : Vec F S256x1024 .bf16) (x3 : Vec F S1x1024 .f32) (xs0 : Vec F S128x256 .f32) (xs1 : Vec F S128x256 .f32)

/-- The carried state and the recurrent weights as the body loads them. -/
abbrev h0B : FVec F S128x256 .f32 := View.readAt (Elt F) arg6.view (Rect.unit (s := S128x256) ![0, 0] S128x256.size inb_S128x256_S128x256_0_0).toLoadRect (harg6.unread xs0)
abbrev c0B : FVec F S128x256 .f32 := View.readAt (Elt F) arg7.view (Rect.unit (s := S128x256) ![0, 0] S128x256.size inb_S128x256_S128x256_0_0).toLoadRect (harg7.unread xs1)
abbrev wB : Vec F S256x1024 .bf16 := View.readAt (Elt F) arg3.view (Rect.unit (s := S256x1024) ![0, 0] S256x1024.size inb_S256x1024_S256x1024_0_0).toLoadRect (harg3.unread x2)

/-- The eight slices of the input projection as the body loads them back from the projection buffer. -/
def GB : ℕ → Vec F S128x1024 .f32
  | 0 => kernelRun0_B.sl.v53 c arg1 harg1 arg2 harg2 arg4 harg4 arg8 x0 x1 x3
  | 1 => kernelRun0_B.sl.v77 c arg1 harg1 arg2 harg2 arg4 harg4 arg8 x0 x1 x3
  | 2 => kernelRun0_B.sl.v101 c arg1 harg1 arg2 harg2 arg4 harg4 arg8 x0 x1 x3
  | 3 => kernelRun0_B.sl.v125 c arg1 harg1 arg2 harg2 arg4 harg4 arg8 x0 x1 x3
  | 4 => kernelRun0_B.sl.v149 c arg1 harg1 arg2 harg2 arg4 harg4 arg8 x0 x1 x3
  | 5 => kernelRun0_B.sl.v173 c arg1 harg1 arg2 harg2 arg4 harg4 arg8 x0 x1 x3
  | 6 => kernelRun0_B.sl.v197 c arg1 harg1 arg2 harg2 arg4 harg4 arg8 x0 x1 x3
  | _ => kernelRun0_B.sl.v221 c arg1 harg1 arg2 harg2 arg4 harg4 arg8 x0 x1 x3

/-- The state after `n` steps of the chunk. -/
abbrev chB (n : ℕ) : FVec F S128x256 .f32 × FVec F S128x256 .f32 :=
  chain aS aT (GB c arg1 harg1 arg2 harg2 arg4 harg4 arg8 x0 x1 x3) (wB arg3 harg3 x2) (h0B arg6 harg6 xs0) (c0B arg7 harg7 xs1) n

theorem r2B : kernelRun0_B.sl.r_2 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 1).2 := rfl
theorem r3B : kernelRun0_B.sl.r_3 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 1).1 := rfl
theorem r4B : kernelRun0_B.sl.r_4 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 3).2 := by
  rw [kernelRun0_B.sl.r_4, r2B, r3B]; exact (pay19_eq _ _ _ _ _ _ _ _).trans rfl
theorem r5B : kernelRun0_B.sl.r_5 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 3).1 := by
  rw [kernelRun0_B.sl.r_5, r2B, r3B]; exact (pay20_eq _ _ _ _ _ _ _ _).trans rfl
theorem r6B : kernelRun0_B.sl.r_6 c arg1 harg1 arg2 harg2 arg3 harg3 arg4 harg4 arg6 harg6 arg7 harg7 arg8 x0 x1 x2 x3 xs0 xs1 = outS (chB c arg1 harg1 arg2 harg2 arg3 harg3 arg4 harg4 arg6 harg6 arg7 harg7 arg8 x0 x1 x2 x3 xs0 xs1 3).1 := by
  rw [kernelRun0_B.sl.r_6, r2B, r3B]; exact (pay21_eq _ _ _ _ _ _ _ _).trans rfl
theorem r7B : kernelRun0_B.sl.r_7 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 5).2 := by
  rw [kernelRun0_B.sl.r_7, r4B, r5B]; exact (pay27_eq _ _ _ _ _ _ _ _).trans rfl
theorem r8B : kernelRun0_B.sl.r_8 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 5).1 := by
  rw [kernelRun0_B.sl.r_8, r4B, r5B]; exact (pay28_eq _ _ _ _ _ _ _ _).trans rfl
theorem r9B : kernelRun0_B.sl.r_9 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 6).2 := by
  rw [kernelRun0_B.sl.r_9, r7B, r8B]; exact (pay31_eq _ _ _ _ _ _).trans rfl
/-- The gate slab of step 7. -/
abbrev a7B : FVec F S128x1024 .f32 := actS aS aT (chB c arg1 harg1 arg2 harg2 arg3 harg3 arg4 harg4 arg6 harg6 arg7 harg7 arg8 x0 x1 x2 x3 xs0 xs1 6).1 (GB c arg1 harg1 arg2 harg2 arg4 harg4 arg8 x0 x1 x3 6) (wB arg3 harg3 x2)
theorem r10B : kernelRun0_B.sl.r_10 c arg1 harg1 arg2 harg2 arg3 harg3 arg4 harg4 arg6 harg6 arg7 harg7 arg8 x0 x1 x2 x3 xs0 xs1 = a7B c arg1 harg1 arg2 harg2 arg3 harg3 arg4 harg4 arg6 harg6 arg7 harg7 arg8 x0 x1 x2 x3 xs0 xs1 := by
  rw [kernelRun0_B.sl.r_10, r7B, r8B]; exact (pay34_eq _ _ _ _ _ _ _ _).trans rfl
theorem r11B : kernelRun0_B.sl.r_11 c arg1 harg1 arg2 harg2 arg3 harg3 arg4 harg4 arg6 harg6 arg7 harg7 arg8 x0 x1 x2 x3 xs0 xs1 = gI (a7B c arg1 harg1 arg2 harg2 arg3 harg3 arg4 harg4 arg6 harg6 arg7 harg7 arg8 x0 x1 x2 x3 xs0 xs1) := by
  rw [kernelRun0_B.sl.r_11, r7B, r8B]; exact (pay35_eq _ _ _ _ _ _ _ _).trans rfl
theorem r12B : kernelRun0_B.sl.r_12 c arg1 harg1 arg2 harg2 arg3 harg3 arg4 harg4 arg6 harg6 arg7 harg7 arg8 x0 x1 x2 x3 xs0 xs1 = gF (a7B c arg1 harg1 arg2 harg2 arg3 harg3 arg4 harg4 arg6 harg6 arg7 harg7 arg8 x0 x1 x2 x3 xs0 xs1) := by
  rw [kernelRun0_B.sl.r_12, r7B, r8B]; exact (pay36_eq _ _ _ _ _ _ _ _).trans rfl
theorem r13B : kernelRun0_B.sl.r_13 c arg1 harg1 arg2 harg2 arg3 harg3 arg4 harg4 arg6 harg6 arg7 harg7 arg8 x0 x1 x2 x3 xs0 xs1 = gG (a7B c arg1 harg1 arg2 harg2 arg3 harg3 arg4 harg4 arg6 harg6 arg7 harg7 arg8 x0 x1 x2 x3 xs0 xs1) := by
  rw [kernelRun0_B.sl.r_13, r7B, r8B]; exact (pay37_eq _ _ _ _ _ _ _ _).trans rfl
theorem r14B : kernelRun0_B.sl.r_14 c arg1 harg1 arg2 harg2 arg3 harg3 arg4 harg4 arg6 harg6 arg7 harg7 arg8 x0 x1 x2 x3 xs0 xs1 = (chB c arg1 harg1 arg2 harg2 arg3 harg3 arg4 harg4 arg6 harg6 arg7 harg7 arg8 x0 x1 x2 x3 xs0 xs1 8).2 := by
  rw [kernelRun0_B.sl.r_14, r9B, r10B, r11B, r12B, r13B]; exact (pay42_eq _ _ _ _ _ _).trans rfl

end

/-- The continuing case's stores into the output block. -/
theorem piecesB_out (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i) (x0 : Vec F S8x128x256 .bf16) (x1 : Vec F S256x1024 .bf16) (x2 : Vec F S256x1024 .bf16) (x3 : Vec F S1x1024 .f32) (xs0 : Vec F S128x256 .f32) (xs1 : Vec F S128x256 .f32) :
    (kernelRun0_B c i arg1 harg1 arg2 harg2 arg3 harg3 arg4 harg4 arg5 harg5 arg6 harg6 arg7 harg7 arg8 harg8 hc0 x0 x1 x2 x3 xs0 xs1).1
      = [⟨Rect.unit (s := S8x128x256) ![7, 0, 0] S1x128x256.size inb_S8x128x256_S1x128x256_7_0_0, outS (chB c arg1 harg1 arg2 harg2 arg3 harg3 arg4 harg4 arg6 harg6 arg7 harg7 arg8 x0 x1 x2 x3 xs0 xs1 8).1⟩,
         ⟨Rect.unit (s := S8x128x256) ![6, 0, 0] S1x128x256.size inb_S8x128x256_S1x128x256_6_0_0, outS (chB c arg1 harg1 arg2 harg2 arg3 harg3 arg4 harg4 arg6 harg6 arg7 harg7 arg8 x0 x1 x2 x3 xs0 xs1 7).1⟩,
         ⟨Rect.unit (s := S8x128x256) ![5, 0, 0] S1x128x256.size inb_S8x128x256_S1x128x256_5_0_0, outS (chB c arg1 harg1 arg2 harg2 arg3 harg3 arg4 harg4 arg6 harg6 arg7 harg7 arg8 x0 x1 x2 x3 xs0 xs1 6).1⟩,
         ⟨Rect.unit (s := S8x128x256) ![4, 0, 0] S1x128x256.size inb_S8x128x256_S1x128x256_4_0_0, outS (chB c arg1 harg1 arg2 harg2 arg3 harg3 arg4 harg4 arg6 harg6 arg7 harg7 arg8 x0 x1 x2 x3 xs0 xs1 5).1⟩,
         ⟨Rect.unit (s := S8x128x256) ![3, 0, 0] S1x128x256.size inb_S8x128x256_S1x128x256_3_0_0, outS (chB c arg1 harg1 arg2 harg2 arg3 harg3 arg4 harg4 arg6 harg6 arg7 harg7 arg8 x0 x1 x2 x3 xs0 xs1 4).1⟩,
         ⟨Rect.unit (s := S8x128x256) ![2, 0, 0] S1x128x256.size inb_S8x128x256_S1x128x256_2_0_0, outS (chB c arg1 harg1 arg2 harg2 arg3 harg3 arg4 harg4 arg6 harg6 arg7 harg7 arg8 x0 x1 x2 x3 xs0 xs1 3).1⟩,
         ⟨Rect.unit (s := S8x128x256) ![1, 0, 0] S1x128x256.size inb_S8x128x256_S1x128x256_1_0_0, outS (chB c arg1 harg1 arg2 harg2 arg3 harg3 arg4 harg4 arg6 harg6 arg7 harg7 arg8 x0 x1 x2 x3 xs0 xs1 2).1⟩,
         ⟨Rect.unit (s := S8x128x256) ![0, 0, 0] S1x128x256.size inb_S8x128x256_S1x128x256_0_0_0, outS (chB c arg1 harg1 arg2 harg2 arg3 harg3 arg4 harg4 arg6 harg6 arg7 harg7 arg8 x0 x1 x2 x3 xs0 xs1 1).1⟩] := by
  unfold kernelRun0_B
  dsimp only
  rw [r2B, r3B, r4B, r5B, r6B, r7B, r8B, r9B, r10B, r11B, r12B, r13B]
  refine congrArg₂ List.cons (congrArg _ ((pay44_eq _ _ _ _ _ _).trans rfl)) ?_
  refine congrArg₂ List.cons (congrArg _ ((pay40_eq _ _).trans rfl)) ?_
  refine congrArg₂ List.cons (congrArg _ ((pay33_eq _ _ _ _ _ _).trans rfl)) ?_
  refine congrArg₂ List.cons (congrArg _ ((pay29_eq _).trans rfl)) ?_
  refine congrArg₂ List.cons (congrArg _ ((pay25_eq _ _ _ _ _ _).trans rfl)) ?_
  refine congrArg₂ List.cons rfl ?_
  refine congrArg₂ List.cons (congrArg _ ((pay17_eq _ _ _ _ _ _).trans rfl)) ?_
  rfl

/-- Its store into the hidden-state buffer: the hidden state after the chunk's eight steps. -/
theorem piecesB_h (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i) (x0 : Vec F S8x128x256 .bf16) (x1 : Vec F S256x1024 .bf16) (x2 : Vec F S256x1024 .bf16) (x3 : Vec F S1x1024 .f32) (xs0 : Vec F S128x256 .f32) (xs1 : Vec F S128x256 .f32) :
    (kernelRun0_B c i arg1 harg1 arg2 harg2 arg3 harg3 arg4 harg4 arg5 harg5 arg6 harg6 arg7 harg7 arg8 harg8 hc0 x0 x1 x2 x3 xs0 xs1).2.1
      = [⟨Rect.unit (s := S128x256) ![0, 0] S128x256.size inb_S128x256_S128x256_0_0, shapeCast S128x256 (chB c arg1 harg1 arg2 harg2 arg3 harg3 arg4 harg4 arg6 harg6 arg7 harg7 arg8 x0 x1 x2 x3 xs0 xs1 8).1 shapeCasts_S128x256_S128x256⟩] := by
  unfold kernelRun0_B
  dsimp only
  rw [r9B, r10B, r11B, r12B, r13B]
  exact congrArg (fun v => [(⟨_, v⟩ : View.Piece (Elt F) S128x256 .f32)]) ((pay45_eq _ _ _ _ _ _).trans rfl)

/-- Its store into the cell-state buffer: the cell state after the chunk's eight steps. -/
theorem piecesB_c (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i) (x0 : Vec F S8x128x256 .bf16) (x1 : Vec F S256x1024 .bf16) (x2 : Vec F S256x1024 .bf16) (x3 : Vec F S1x1024 .f32) (xs0 : Vec F S128x256 .f32) (xs1 : Vec F S128x256 .f32) :
    (kernelRun0_B c i arg1 harg1 arg2 harg2 arg3 harg3 arg4 harg4 arg5 harg5 arg6 harg6 arg7 harg7 arg8 harg8 hc0 x0 x1 x2 x3 xs0 xs1).2.2.1
      = [⟨Rect.unit (s := S128x256) ![0, 0] S128x256.size inb_S128x256_S128x256_0_0, shapeCast S128x256 (chB c arg1 harg1 arg2 harg2 arg3 harg3 arg4 harg4 arg6 harg6 arg7 harg7 arg8 x0 x1 x2 x3 xs0 xs1 8).2 shapeCasts_S128x256_S128x256⟩] := by
  unfold kernelRun0_B
  dsimp only
  rw [r14B]
  rfl

end Cert.KernelIdeal.Hand

end
-- ==== Proof.KiPiecesA.lean ====
/-
  The reset case's stores, named.  The body first stores zeros into both state buffers and loads them back, so the
  chunk starts from what those loads read; otherwise as in the continuing case: h_{s+1} into time-step slab s of the
  output block, and h_8, c_8 into the state buffers over the zero stores.
-/
import proofs.«173986_g2000208858419734_pallasbulk_908_7_alg».proof.Proof.KiPiecesB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (x0 : Vec F S8x128x256 .bf16) (x1 : Vec F S256x1024 .bf16) (x2 : Vec F S256x1024 .bf16) (x3 : Vec F S1x1024 .f32)

/-- The carried state and the recurrent weights as the body loads them. -/
abbrev h0A : FVec F S128x256 .f32 := kernelRun0_A.sl.v49 c arg6
abbrev c0A : FVec F S128x256 .f32 := kernelRun0_A.sl.v50 c arg7

/-- The eight slices of the input projection as the body loads them back from the projection buffer. -/
def GA : ℕ → Vec F S128x1024 .f32
  | 0 => kernelRun0_A.sl.v53 c arg1 harg1 arg2 harg2 arg4 harg4 arg8 x0 x1 x3
  | 1 => kernelRun0_A.sl.v77 c arg1 harg1 arg2 harg2 arg4 harg4 arg8 x0 x1 x3
  | 2 => kernelRun0_A.sl.v101 c arg1 harg1 arg2 harg2 arg4 harg4 arg8 x0 x1 x3
  | 3 => kernelRun0_A.sl.v125 c arg1 harg1 arg2 harg2 arg4 harg4 arg8 x0 x1 x3
  | 4 => kernelRun0_A.sl.v149 c arg1 harg1 arg2 harg2 arg4 harg4 arg8 x0 x1 x3
  | 5 => kernelRun0_A.sl.v173 c arg1 harg1 arg2 harg2 arg4 harg4 arg8 x0 x1 x3
  | 6 => kernelRun0_A.sl.v197 c arg1 harg1 arg2 harg2 arg4 harg4 arg8 x0 x1 x3
  | _ => kernelRun0_A.sl.v221 c arg1 harg1 arg2 harg2 arg4 harg4 arg8 x0 x1 x3

/-- The state after `n` steps of the chunk. -/
abbrev chA (n : ℕ) : FVec F S128x256 .f32 × FVec F S128x256 .f32 :=
  chain aS aT (GA c arg1 harg1 arg2 harg2 arg4 harg4 arg8 x0 x1 x3) (wB arg3 harg3 x2) (h0A c arg6) (c0A c arg7) n

theorem r2A : kernelRun0_A.sl.r_2 c arg1 harg1 arg2 harg2 arg3 harg3 arg4 harg4 arg6 arg7 arg8 x0 x1 x2 x3 = (chA c arg1 harg1 arg2 harg2 arg3 harg3 arg4 harg4 arg6 arg7 arg8 x0 x1 x2 x3 1).2 := rfl
theorem r3A : kernelRun0_A.sl.r_3 c arg1 harg1 arg2 harg2 arg3 harg3 arg4 harg4 arg6 arg7 arg8 x0 x1 x2 x3 = (chA c arg1 harg1 arg2 harg2 arg3 harg3 arg4 harg4 arg6 arg7 arg8 x0 x1 x2 x3 1).1 := rfl
theorem r4A : kernelRun0_A.sl.r_4 c arg1 harg1 arg2 harg2 arg3 harg3 arg4 harg4 arg6 arg7 arg8 x0 x1 x2 x3 = (chA c arg1 harg1 arg2 harg2 arg3 harg3 arg4 harg4 arg6 arg7 arg8 x0 x1 x2 x3 3).2 := by
  rw [kernelRun0_A.sl.r_4, r2A, r3A]; exact (pay19_eq _ _ _ _ _ _ _ _).trans rfl
theorem r5A : kernelRun0_A.sl.r_5 c arg1 harg1 arg2 harg2 arg3 harg3 arg4 harg4 arg6 arg7 arg8 x0 x1 x2 x3 = (chA c arg1 harg1 arg2 harg2 arg3 harg3 arg4 harg4 arg6 arg7 arg8 x0 x1 x2 x3 3).1 := by
  rw [kernelRun0_A.sl.r_5, r2A, r3A]; exact (pay20_eq _ _ _ _ _ _ _ _).trans rfl
theorem r6A : kernelRun0_A.sl.r_6 c arg1 harg1 arg2 harg2 arg3 harg3 arg4 harg4 arg6 arg7 arg8 x0 x1 x2 x3 = outS (chA c arg1 harg1 arg2 harg2 arg3 harg3 arg4 harg4 arg6 arg7 arg8 x0 x1 x2 x3 3).1 := by
  rw [kernelRun0_A.sl.r_6, r2A, r3A]; exact (pay21_eq _ _ _ _ _ _ _ _).trans rfl
theorem r7A : kernelRun0_A.sl.r_7 c arg1 harg1 arg2 harg2 arg3 harg3 arg4 harg4 arg6 arg7 arg8 x0 x1 x2 x3 = (chA c arg1 harg1 arg2 harg2 arg3 harg3 arg4 harg4 arg6 arg7 arg8 x0 x1 x2 x3 5).2 := by
  rw [kernelRun0_A.sl.r_7, r4A, r5A]; exact (pay27_eq _ _ _ _ _ _ _ _).trans rfl
theorem r8A : kernelRun0_A.sl.r_8 c arg1 harg1 arg2 harg2 arg3 harg3 arg4 harg4 arg6 arg7 arg8 x0 x1 x2 x3 = (chA c arg1 harg1 arg2 harg2 arg3 harg3 arg4 harg4 arg6 arg7 arg8 x0 x1 x2 x3 5).1 := by
  rw [kernelRun0_A.sl.r_8, r4A, r5A]; exact (pay28_eq _ _ _ _ _ _ _ _).trans rfl
theorem r9A : kernelRun0_A.sl.r_9 c arg1 harg1 arg2 harg2 arg3 harg3 arg4 harg4 arg6 arg7 arg8 x0 x1 x2 x3 = (chA c arg1 harg1 arg2 harg2 arg3 harg3 arg4 harg4 arg6 arg7 arg8 x0 x1 x2 x3 6).2 := by
  rw [kernelRun0_A.sl.r_9, r7A, r8A]; exact (pay31_eq _ _ _ _ _ _).trans rfl
/-- The gate slab of step 7. -/
abbrev a7A : FVec F S128x1024 .f32 := actS aS aT (chA c arg1 harg1 arg2 harg2 arg3 harg3 arg4 harg4 arg6 arg7 arg8 x0 x1 x2 x3 6).1 (GA c arg1 harg1 arg2 harg2 arg4 harg4 arg8 x0 x1 x3 6) (wB arg3 harg3 x2)
theorem r10A : kernelRun0_A.sl.r_10 c arg1 harg1 arg2 harg2 arg3 harg3 arg4 harg4 arg6 arg7 arg8 x0 x1 x2 x3 = a7A c arg1 harg1 arg2 harg2 arg3 harg3 arg4 harg4 arg6 arg7 arg8 x0 x1 x2 x3 := by
  rw [kernelRun0_A.sl.r_10, r7A, r8A]; exact (pay34_eq _ _ _ _ _ _ _ _).trans rfl
theorem r11A : kernelRun0_A.sl.r_11 c arg1 harg1 arg2 harg2 arg3 harg3 arg4 harg4 arg6 arg7 arg8 x0 x1 x2 x3 = gI (a7A c arg1 harg1 arg2 harg2 arg3 harg3 arg4 harg4 arg6 arg7 arg8 x0 x1 x2 x3) := by
  rw [kernelRun0_A.sl.r_11, r7A, r8A]; exact (pay35_eq _ _ _ _ _ _ _ _).trans rfl
theorem r12A : kernelRun0_A.sl.r_12 c arg1 harg1 arg2 harg2 arg3 harg3 arg4 harg4 arg6 arg7 arg8 x0 x1 x2 x3 = gF (a7A c arg1 harg1 arg2 harg2 arg3 harg3 arg4 harg4 arg6 arg7 arg8 x0 x1 x2 x3) := by
  rw [kernelRun0_A.sl.r_12, r7A, r8A]; exact (pay36_eq _ _ _ _ _ _ _ _).trans rfl
theorem r13A : kernelRun0_A.sl.r_13 c arg1 harg1 arg2 harg2 arg3 harg3 arg4 harg4 arg6 arg7 arg8 x0 x1 x2 x3 = gG (a7A c arg1 harg1 arg2 harg2 arg3 harg3 arg4 harg4 arg6 arg7 arg8 x0 x1 x2 x3) := by
  rw [kernelRun0_A.sl.r_13, r7A, r8A]; exact (pay37_eq _ _ _ _ _ _ _ _).trans rfl
theorem r14A : kernelRun0_A.sl.r_14 c arg1 harg1 arg2 harg2 arg3 harg3 arg4 harg4 arg6 arg7 arg8 x0 x1 x2 x3 = (chA c arg1 harg1 arg2 harg2 arg3 harg3 arg4 harg4 arg6 arg7 arg8 x0 x1 x2 x3 8).2 := by
  rw [kernelRun0_A.sl.r_14, r9A, r10A, r11A, r12A, r13A]; exact (pay42_eq _ _ _ _ _ _).trans rfl

end

/-- The continuing case's stores into the output block. -/
theorem piecesA_out (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i) (x0 : Vec F S8x128x256 .bf16) (x1 : Vec F S256x1024 .bf16) (x2 : Vec F S256x1024 .bf16) (x3 : Vec F S1x1024 .f32) :
    (kernelRun0_A c i arg1 harg1 arg2 harg2 arg3 harg3 arg4 harg4 arg5 harg5 arg6 harg6 arg7 harg7 arg8 harg8 hc0 x0 x1 x2 x3).1
      = [⟨Rect.unit (s := S8x128x256) ![7, 0, 0] S1x128x256.size inb_S8x128x256_S1x128x256_7_0_0, outS (chA c arg1 harg1 arg2 harg2 arg3 harg3 arg4 harg4 arg6 arg7 arg8 x0 x1 x2 x3 8).1⟩,
         ⟨Rect.unit (s := S8x128x256) ![6, 0, 0] S1x128x256.size inb_S8x128x256_S1x128x256_6_0_0, outS (chA c arg1 harg1 arg2 harg2 arg3 harg3 arg4 harg4 arg6 arg7 arg8 x0 x1 x2 x3 7).1⟩,
         ⟨Rect.unit (s := S8x128x256) ![5, 0, 0] S1x128x256.size inb_S8x128x256_S1x128x256_5_0_0, outS (chA c arg1 harg1 arg2 harg2 arg3 harg3 arg4 harg4 arg6 arg7 arg8 x0 x1 x2 x3 6).1⟩,
         ⟨Rect.unit (s := S8x128x256) ![4, 0, 0] S1x128x256.size inb_S8x128x256_S1x128x256_4_0_0, outS (chA c arg1 harg1 arg2 harg2 arg3 harg3 arg4 harg4 arg6 arg7 arg8 x0 x1 x2 x3 5).1⟩,
         ⟨Rect.unit (s := S8x128x256) ![3, 0, 0] S1x128x256.size inb_S8x128x256_S1x128x256_3_0_0, outS (chA c arg1 harg1 arg2 harg2 arg3 harg3 arg4 harg4 arg6 arg7 arg8 x0 x1 x2 x3 4).1⟩,
         ⟨Rect.unit (s := S8x128x256) ![2, 0, 0] S1x128x256.size inb_S8x128x256_S1x128x256_2_0_0, outS (chA c arg1 harg1 arg2 harg2 arg3 harg3 arg4 harg4 arg6 arg7 arg8 x0 x1 x2 x3 3).1⟩,
         ⟨Rect.unit (s := S8x128x256) ![1, 0, 0] S1x128x256.size inb_S8x128x256_S1x128x256_1_0_0, outS (chA c arg1 harg1 arg2 harg2 arg3 harg3 arg4 harg4 arg6 arg7 arg8 x0 x1 x2 x3 2).1⟩,
         ⟨Rect.unit (s := S8x128x256) ![0, 0, 0] S1x128x256.size inb_S8x128x256_S1x128x256_0_0_0, outS (chA c arg1 harg1 arg2 harg2 arg3 harg3 arg4 harg4 arg6 arg7 arg8 x0 x1 x2 x3 1).1⟩] := by
  unfold kernelRun0_A
  dsimp only
  rw [r2A, r3A, r4A, r5A, r6A, r7A, r8A, r9A, r10A, r11A, r12A, r13A]
  refine congrArg₂ List.cons (congrArg _ ((pay44_eq _ _ _ _ _ _).trans rfl)) ?_
  refine congrArg₂ List.cons (congrArg _ ((pay40_eq _ _).trans rfl)) ?_
  refine congrArg₂ List.cons (congrArg _ ((pay33_eq _ _ _ _ _ _).trans rfl)) ?_
  refine congrArg₂ List.cons (congrArg _ ((pay29_eq _).trans rfl)) ?_
  refine congrArg₂ List.cons (congrArg _ ((pay25_eq _ _ _ _ _ _).trans rfl)) ?_
  refine congrArg₂ List.cons rfl ?_
  refine congrArg₂ List.cons (congrArg _ ((pay17_eq _ _ _ _ _ _).trans rfl)) ?_
  rfl

/-- Its store into the hidden-state buffer: the hidden state after the chunk's eight steps. -/
theorem piecesA_h (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i) (x0 : Vec F S8x128x256 .bf16) (x1 : Vec F S256x1024 .bf16) (x2 : Vec F S256x1024 .bf16) (x3 : Vec F S1x1024 .f32) :
    (kernelRun0_A c i arg1 harg1 arg2 harg2 arg3 harg3 arg4 harg4 arg5 harg5 arg6 harg6 arg7 harg7 arg8 harg8 hc0 x0 x1 x2 x3).2.1
      = ⟨Rect.unit (s := S128x256) ![0, 0] S128x256.size inb_S128x256_S128x256_0_0, shapeCast S128x256 (chA c arg1 harg1 arg2 harg2 arg3 harg3 arg4 harg4 arg6 arg7 arg8 x0 x1 x2 x3 8).1 shapeCasts_S128x256_S128x256⟩ :: kernelRun0_A.sl.HS0_1 := by
  unfold kernelRun0_A
  dsimp only
  rw [r9A, r10A, r11A, r12A, r13A]
  exact congrArg (fun v => (⟨Rect.unit (s := S128x256) ![0, 0] S128x256.size inb_S128x256_S128x256_0_0, v⟩ : View.Piece (Elt F) S128x256 .f32) :: kernelRun0_A.sl.HS0_1) ((pay45_eq _ _ _ _ _ _).trans rfl)

/-- Its store into the cell-state buffer: the cell state after the chunk's eight steps. -/
theorem piecesA_c (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i) (x0 : Vec F S8x128x256 .bf16) (x1 : Vec F S256x1024 .bf16) (x2 : Vec F S256x1024 .bf16) (x3 : Vec F S1x1024 .f32) :
    (kernelRun0_A c i arg1 harg1 arg2 harg2 arg3 harg3 arg4 harg4 arg5 harg5 arg6 harg6 arg7 harg7 arg8 harg8 hc0 x0 x1 x2 x3).2.2.1
      = ⟨Rect.unit (s := S128x256) ![0, 0] S128x256.size inb_S128x256_S128x256_0_0, shapeCast S128x256 (chA c arg1 harg1 arg2 harg2 arg3 harg3 arg4 harg4 arg6 arg7 arg8 x0 x1 x2 x3 8).2 shapeCasts_S128x256_S128x256⟩ :: kernelRun0_A.sl.HS1_1 := by
  unfold kernelRun0_A
  dsimp only
  rw [r14A]
  rfl

end Cert.KernelIdeal.Hand

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.Spec.lean ====
/-
  The LSTM both programs compute, over the extended reals.  Parameters: the input sequence X[τ, b, k] (256 steps,
  batch 128, 256 features), the gate-scaled weights WI[k, l], WH[k, l] and bias BI[l] over the 1024 gate lanes
  (four gates i, f, g, o of 256 lanes each), and two lane vectors S, T: a gate is tanh(pre)·S + T, which is the
  logistic function on the i, f, o lanes (S = T = ½, the weights carrying the inner ½) and tanh on the g lanes
  (S = 1, T = 0).  One step from the state (h, c) at time τ:
      pre[b, l] = (Σ_k X[τ, b, k]·WI[k, l] + BI[l]) + Σ_k h[b, k]·WH[k, l]
      c'[b, j]  = f·c + i·g        h'[b, j] = o·tanh c'
  with i, f, g, o the gates at lanes j, 256+j, 512+j, 768+j.  The state starts at zero; the output at time τ is h
  after step τ.
-/
import Idealize.ShloMosaic.PureOps.Ideal
import Idealize.ShloMosaic.PureOps.Ideal.Laws

noncomputable section

namespace Cert.Lstm

open Idealize.ShloMosaic
open scoped BigOperators

/-- What the recurrence is a function of. -/
structure Params where
  X  : Fin 256 → Fin 128 → Fin 256 → EReal
  WI : Fin 256 → Fin 1024 → EReal
  WH : Fin 256 → Fin 1024 → EReal
  BI : Fin 1024 → EReal
  S  : Fin 128 → Fin 1024 → EReal
  T  : Fin 128 → Fin 1024 → EReal

/-- Lane `j` of gate `g` among the 1024 gate lanes. -/
def lane (g : Fin 4) (j : Fin 256) : Fin 1024 := ⟨256 * g.val + j.val, by have := g.isLt; have := j.isLt; omega⟩

/-- Hidden state and cell state, batch by hidden unit. -/
abbrev St := (Fin 128 → Fin 256 → EReal) × (Fin 128 → Fin 256 → EReal)

/-- The pre-activation of lane `l` at time `τ` from the hidden state `h`. -/
def pre (P : Params) (h : Fin 128 → Fin 256 → EReal) (τ : Fin 256) (b : Fin 128) (l : Fin 1024) : EReal :=
  ((∑ k : Fin 256, P.X τ b k * P.WI k l) + P.BI l) + ∑ k : Fin 256, h b k * P.WH k l

/-- The gate value of lane `l`. -/
def act (P : Params) (h : Fin 128 → Fin 256 → EReal) (τ : Fin 256) (b : Fin 128) (l : Fin 1024) : EReal :=
  Ideal.tanh (pre P h τ b l) * P.S b l + P.T b l

/-- The cell state after the step at time `τ`. -/
def cNext (P : Params) (τ : Fin 256) (s : St) (b : Fin 128) (j : Fin 256) : EReal :=
  act P s.1 τ b (lane 1 j) * s.2 b j + act P s.1 τ b (lane 0 j) * act P s.1 τ b (lane 2 j)

/-- The hidden state after the step at time `τ`. -/
def hNext (P : Params) (τ : Fin 256) (s : St) (b : Fin 128) (j : Fin 256) : EReal :=
  act P s.1 τ b (lane 3 j) * Ideal.tanh (cNext P τ s b j)

/-- One step. -/
def step (P : Params) (τ : Fin 256) (s : St) : St := (hNext P τ s, cNext P τ s)

/-- The state after `n` steps, from zero. -/
def st (P : Params) : ℕ → St
  | 0 => (fun _ _ => 0, fun _ _ => 0)
  | n + 1 => if hn : n < 256 then step P ⟨n, hn⟩ (st P n) else st P n

theorem st_succ (P : Params) (τ : Fin 256) : st P (τ.val + 1) = step P τ (st P τ.val) := by
  show (if hn : τ.val < 256 then step P ⟨τ.val, hn⟩ (st P τ.val) else st P τ.val) = _
  rw [dif_pos τ.isLt]

/-- The output: the hidden state after step `τ`. -/
def out (P : Params) (τ : Fin 256) (b : Fin 128) (j : Fin 256) : EReal := (st P (τ.val + 1)).1 b j

/-- The recurrence depends on the parameters only through their values. -/
theorem out_congr (P Q : Params) (hX : ∀ τ b k, P.X τ b k = Q.X τ b k) (hWI : ∀ k l, P.WI k l = Q.WI k l)
    (hWH : ∀ k l, P.WH k l = Q.WH k l) (hBI : ∀ l, P.BI l = Q.BI l) (hS : ∀ b l, P.S b l = Q.S b l)
    (hT : ∀ b l, P.T b l = Q.T b l) : out P = out Q := by
  have : P = Q := by
    cases P; cases Q
    simp only [Params.mk.injEq]
    exact ⟨funext fun τ => funext fun b => funext fun k => hX τ b k, funext fun k => funext fun l => hWI k l,
      funext fun k => funext fun l => hWH k l, funext hBI, funext fun b => funext fun l => hS b l,
      funext fun b => funext fun l => hT b l⟩
  rw [this]

end Cert.Lstm

end
-- ==== Proof.KiStepIdx.lean ====
/-
  One step read at an entry, over the extended reals.  The gate slab at (b, l) is tanh(g[b,l] + Σ_k h[b,k]·w[k,l])·S[b,l]
  + T[b,l]; the four gates of hidden unit j are the slab's lanes j, 256+j, 512+j, 768+j; the input projection of a
  chunk at row 128·s + b, lane l is Σ_k x[s,b,k]·W[k,l] + bias[l].  So when h, c, g, w, S, T are the recurrence's
  state and parameters at a time τ, the step's new state is the recurrence's next state.
-/
import proofs.«173986_g2000208858419734_pallasbulk_908_7_alg».proof.Proof.KiStep
import proofs.«173986_g2000208858419734_pallasbulk_908_7_alg».proof.Proof.LibDenseEntry
import proofs.«173986_g2000208858419734_pallasbulk_908_7_alg».proof.Proof.Spec
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

section
variable (S T : FVec Ideal S128x1024 .f32) (h c : FVec Ideal S128x256 .f32) (g : Vec Ideal S128x1024 .f32) (w : Vec Ideal S256x1024 .bf16)

theorem actS_apply (b : Fin 128) (l : Fin 1024) :
    actS S T h g w (ix2 b l)
      = Ideal.tanh (g (ix2 b l) + ∑ k : Fin 256, h (ix2 b k) * w (ix2 k l)) * S (ix2 b l) + T (ix2 b l) := by
  unfold actS
  simp only [shapeCast_self]
  exact congrArg (fun z => Ideal.tanh (g (ix2 b l) + z) * S (ix2 b l) + T (ix2 b l))
    (Cert.LibDenseEntry.matmul_plain_zero_apply (φ₁ := .bf16) (φ₂ := .bf16) dot_S128x256_S256x1024_S128x1024_1_0_0_1_n_n rfl rfl rfl rfl rfl rfl none
      (truncf .bf16 h bitsLt_bf16_f32 : FVec Ideal S128x256 .bf16) (w : FVec Ideal S256x1024 .bf16) b l)

variable (a : FVec Ideal S128x1024 .f32)

theorem gI_apply (b : Fin 128) (j : Fin 256) : gI a (ix2 b j) = a (ix2 b (Cert.Lstm.lane 0 j)) :=
  extractStridedSlice_apply _ a _ (ix2 b j) (ix2 b (Cert.Lstm.lane 0 j)) fun ax => by
    match ax with
    | ⟨0, _⟩ => exact (Nat.zero_add _).symm
    | ⟨1, _⟩ => show 256 * 0 + j.val = 0 + j.val; omega
theorem gF_apply (b : Fin 128) (j : Fin 256) : gF a (ix2 b j) = a (ix2 b (Cert.Lstm.lane 1 j)) :=
  extractStridedSlice_apply _ a _ (ix2 b j) (ix2 b (Cert.Lstm.lane 1 j)) fun ax => by
    match ax with
    | ⟨0, _⟩ => exact (Nat.zero_add _).symm
    | ⟨1, _⟩ => show 256 * 1 + j.val = 256 + j.val; omega
theorem gG_apply (b : Fin 128) (j : Fin 256) : gG a (ix2 b j) = a (ix2 b (Cert.Lstm.lane 2 j)) :=
  extractStridedSlice_apply _ a _ (ix2 b j) (ix2 b (Cert.Lstm.lane 2 j)) fun ax => by
    match ax with
    | ⟨0, _⟩ => exact (Nat.zero_add _).symm
    | ⟨1, _⟩ => show 256 * 2 + j.val = 512 + j.val; omega
theorem gO_apply (b : Fin 128) (j : Fin 256) : gO a (ix2 b j) = a (ix2 b (Cert.Lstm.lane 3 j)) :=
  extractStridedSlice_apply _ a _ (ix2 b j) (ix2 b (Cert.Lstm.lane 3 j)) fun ax => by
    match ax with
    | ⟨0, _⟩ => exact (Nat.zero_add _).symm
    | ⟨1, _⟩ => show 256 * 3 + j.val = 768 + j.val; omega

theorem cOf_apply (b : Fin 128) (j : Fin 256) :
    cOf a c (ix2 b j) = a (ix2 b (Cert.Lstm.lane 1 j)) * c (ix2 b j) + a (ix2 b (Cert.Lstm.lane 0 j)) * a (ix2 b (Cert.Lstm.lane 2 j)) := by
  rw [← gI_apply a b j, ← gF_apply a b j, ← gG_apply a b j]; rfl
theorem hOf_apply (c' : FVec Ideal S128x256 .f32) (b : Fin 128) (j : Fin 256) :
    hOf a c' (ix2 b j) = a (ix2 b (Cert.Lstm.lane 3 j)) * Ideal.tanh (c' (ix2 b j)) := by
  rw [← gO_apply a b j]; rfl

/-- One step is the recurrence's step: if the operands are the recurrence's state and parameters at time τ, entry by
    entry, so is the new state. -/
theorem step_spec (P : Cert.Lstm.Params) (τ : Fin 256) (s : Cert.Lstm.St)
    (hh : ∀ b k, h (ix2 b k) = s.1 b k) (hc : ∀ b j, c (ix2 b j) = s.2 b j)
    (hg : ∀ b l, g (ix2 b l) = (∑ k : Fin 256, P.X τ b k * P.WI k l) + P.BI l)
    (hw : ∀ k l, w (ix2 k l) = P.WH k l) (hSv : ∀ b l, S (ix2 b l) = P.S b l) (hTv : ∀ b l, T (ix2 b l) = P.T b l) :
    (∀ b j, hS S T h c g w (ix2 b j) = (Cert.Lstm.step P τ s).1 b j) ∧ (∀ b j, cS S T h c g w (ix2 b j) = (Cert.Lstm.step P τ s).2 b j) := by
  have hact : ∀ b l, actS S T h g w (ix2 b l) = Cert.Lstm.act P s.1 τ b l := fun b l => by
    rw [actS_apply, hg, hSv, hTv]
    simp only [hh, hw]
    rfl
  have hcn : ∀ b j, cS S T h c g w (ix2 b j) = Cert.Lstm.cNext P τ s b j := fun b j => by
    unfold cS
    rw [cOf_apply, hact, hact, hact, hc]
    rfl
  refine ⟨fun b j => ?_, hcn⟩
  unfold Hand.hS
  rw [hOf_apply, hact]
  show _ * Ideal.tanh (cS S T h c g w (ix2 b j)) = _
  rw [hcn]
  rfl

end

/-- A hidden state cast to one time-step slab reads back as itself. -/
theorem outS_apply (h : FVec Ideal S128x256 .f32) (u : Fin 1) (b : Fin 128) (j : Fin 256) : outS h (ix3 u b j) = h (ix2 b j) :=
  shapeCast_ab_1ab_apply h shapeCasts_S128x256_S1x128x256 u b j

/-- The chunk's input projection at row 128·s + b: the product of time step s's inputs with the input weights, plus
    the bias. -/
theorem pay4_apply (x0 : Vec Ideal S8x128x256 .bf16) (x1 : Vec Ideal S256x1024 .bf16) (x3 : Vec Ideal S1x1024 .f32)
    (s : Fin 8) (b : Fin 128) (l : Fin 1024) (r : Fin 1024) (hr : r.val = 128 * s.val + b.val) :
    k0_pay4 x0 x1 x3 (ix2 r l) = (∑ k : Fin 256, x0 (ix3 s b k) * x1 (ix2 k l)) + x3 (ix2 0 l) := by
  unfold k0_pay4
  simp only [shapeCast_self]
  have hm := Cert.LibDenseEntry.matmul_plain_zero_apply (φ₁ := .bf16) (φ₂ := .bf16) dot_S1024x256_S256x1024_S1024x1024_1_0_0_1_n_n rfl rfl rfl rfl rfl rfl none
    (shapeCast S1024x256 x0 shapeCasts_S8x128x256_S1024x256 : FVec Ideal S1024x256 .bf16) (x1 : FVec Ideal S256x1024 .bf16) r l
  have hx : ∀ k : Fin 256, shapeCast S1024x256 x0 shapeCasts_S8x128x256_S1024x256 (ix2 r k) = x0 (ix3 s b k) := fun k =>
    shapeCast_apply x0 _ (ix2 r k) (ix3 s b k) (by
      rw [Shape.rowMajor_val_three, Shape.rowMajor_val_two]
      show (s.val * 128 + b.val) * 256 + k.val = r.val * 256 + k.val
      rw [hr]; ring)
  simp only [hx] at hm
  exact congrArg₂ (· + ·) hm (broadcastTo_1b_ab_apply x3 broadcasts_S1x1024_S1024x1024 r l)

end Cert.KernelIdeal.Hand

end
-- ==== Proof.KiChunk.lean ====
/-
  One grid point against the recurrence.  If the operand blocks a grid point sees are the recurrence's parameters for
  time steps τ₀ … τ₀+7 and the state it starts from is the recurrence's state after τ₀ steps, then the output block it
  leaves holds the recurrence's hidden states after steps τ₀+1 … τ₀+8, one per time-step slab, and the two state buffers
  hold the recurrence's state after τ₀+8 steps.  The reset case is the same from the zero state at τ₀ = 0.
-/
import proofs.«173986_g2000208858419734_pallasbulk_908_7_alg».proof.Proof.KiFrame
import proofs.«173986_g2000208858419734_pallasbulk_908_7_alg».proof.Proof.KiPiecesA
import proofs.«173986_g2000208858419734_pallasbulk_908_7_alg».proof.Proof.KiStepIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

theorem hz2 : (![0, 0] : Fin 2 → ℕ) = fun _ => 0 := by funext a; fin_cases a <;> rfl
theorem hz3 : (![0, 0, 0] : Fin 3 → ℕ) = fun _ => 0 := by funext a; fin_cases a <;> rfl

/-- A whole-buffer load of a whole buffer reads its contents. -/
theorem readWhole2 {n0 n1 : ℕ} {e : EltTy} (M : Memref sig .tc .vmem ⟨2, ![n0, n1]⟩ e) (hM : M.IsWhole) (x : Vec Ideal ⟨2, ![n0, n1]⟩ e)
    {inb : ∀ a, (![0, 0] : Fin 2 → ℕ) a + (⟨2, ![n0, n1]⟩ : Shape).size a ≤ (⟨2, ![n0, n1]⟩ : Shape).size a} :
    View.readAt (Elt Ideal) M.view (Rect.unit (s := ⟨2, ![n0, n1]⟩) ![0, 0] (⟨2, ![n0, n1]⟩ : Shape).size inb).toLoadRect (hM.unread x) = x := by
  rw [View.readAt_eq_ld, hM.read_unread, View.ld_unit_zero hz2]
theorem readWhole3 {n0 n1 n2 : ℕ} {e : EltTy} (M : Memref sig .tc .vmem ⟨3, ![n0, n1, n2]⟩ e) (hM : M.IsWhole) (x : Vec Ideal ⟨3, ![n0, n1, n2]⟩ e)
    {inb : ∀ a, (![0, 0, 0] : Fin 3 → ℕ) a + (⟨3, ![n0, n1, n2]⟩ : Shape).size a ≤ (⟨3, ![n0, n1, n2]⟩ : Shape).size a} :
    View.readAt (Elt Ideal) M.view (Rect.unit (s := ⟨3, ![n0, n1, n2]⟩) ![0, 0, 0] (⟨3, ![n0, n1, n2]⟩ : Shape).size inb).toLoadRect (hM.unread x) = x := by
  rw [View.readAt_eq_ld, hM.read_unread, View.ld_unit_zero hz3]

/-- A 128-row load at row offset o of a buffer last stored whole reads rows o … o+127 of what was stored. -/
theorem readCov_whole_at (arg8 : Memref sig .tc .vmem S1024x1024 .f32) (P : FVec Ideal S1024x1024 .f32)
    (inb0 : ∀ a, (![0, 0] : Fin 2 → ℕ) a + S1024x1024.size a ≤ S1024x1024.size a) (o : ℕ)
    (inb' : ∀ a, (![o, 0] : Fin 2 → ℕ) a + S128x1024.size a ≤ S1024x1024.size a) (b : Fin 128) (l : Fin 1024) (r : Fin 1024) (hr : r.val = o + b.val) :
    arg8.view.readCov [(⟨Rect.unit (s := S1024x1024) ![0, 0] S1024x1024.size inb0, P⟩ : View.Piece (Elt Ideal) S1024x1024 .f32)]
      (Rect.unit (s := S1024x1024) ![o, 0] S128x1024.size inb').toLoadRect (ix2 b l) = P (ix2 r l) := by
  rw [View.readCov_eq_canon']
  show View.canon _ _ = _
  rw [View.canon_unit_zero hz2]
  refine congrArg P (funext fun a => Fin.ext ?_)
  match a with
  | ⟨0, _⟩ => show o + 1 * b.val = r.val; omega
  | ⟨1, _⟩ => show 0 + 1 * l.val = l.val; omega

/-- Slice s of the input projection as the body loads it back: rows 128·s … 128·s+127 of the chunk's projection. -/
theorem GB_apply (c : Dev nD) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (x0 : Vec Ideal S8x128x256 .bf16) (x1 : Vec Ideal S256x1024 .bf16) (x2 : Vec Ideal S256x1024 .bf16) (x3 : Vec Ideal S1x1024 .f32) (s : Fin 8) (b : Fin 128) (l : Fin 1024) :
    GB c arg1 harg1 arg2 harg2 arg4 harg4 arg8 x0 x1 x3 s.val (ix2 b l) = (∑ k : Fin 256, x0 (ix3 s b k) * x1 (ix2 k l)) + x3 (ix2 0 l) := by
  have key : ∀ (o : ℕ) (inb' : ∀ a, (![o, 0] : Fin 2 → ℕ) a + S128x1024.size a ≤ S1024x1024.size a) (r : Fin 1024) (hr : r.val = o + b.val) (ho : o = 128 * s.val),
      arg8.view.readCov (kernelRun0_B.sl.HS2_1 c arg1 harg1 arg2 harg2 arg4 harg4 x0 x1 x3)
        (Rect.unit (s := S1024x1024) ![o, 0] S128x1024.size inb').toLoadRect (ix2 b l)
        = (∑ k : Fin 256, x0 (ix3 s b k) * x1 (ix2 k l)) + x3 (ix2 0 l) := by
    intro o inb' r hr ho
    unfold kernelRun0_B.sl.HS2_1
    rw [readCov_whole_at arg8 _ _ o inb' b l r hr, readWhole3 arg1 harg1 x0, readWhole2 arg2 harg2 x1, readWhole2 arg4 harg4 x3]
    exact pay4_apply x0 x1 x3 s b l r (by rw [hr, ho])
  fin_cases s
  · exact key 0 _ ⟨0 + b.val, by have := b.isLt; omega⟩ rfl rfl
  · exact key 128 _ ⟨128 + b.val, by have := b.isLt; omega⟩ rfl rfl
  · exact key 256 _ ⟨256 + b.val, by have := b.isLt; omega⟩ rfl rfl
  · exact key 384 _ ⟨384 + b.val, by have := b.isLt; omega⟩ rfl rfl
  · exact key 512 _ ⟨512 + b.val, by have := b.isLt; omega⟩ rfl rfl
  · exact key 640 _ ⟨640 + b.val, by have := b.isLt; omega⟩ rfl rfl
  · exact key 768 _ ⟨768 + b.val, by have := b.isLt; omega⟩ rfl rfl
  · exact key 896 _ ⟨896 + b.val, by have := b.isLt; omega⟩ rfl rfl

/-- Slice s of the input projection as the body loads it back: rows 128·s … 128·s+127 of the chunk's projection. -/
theorem GA_apply (c : Dev nD) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (x0 : Vec Ideal S8x128x256 .bf16) (x1 : Vec Ideal S256x1024 .bf16) (x2 : Vec Ideal S256x1024 .bf16) (x3 : Vec Ideal S1x1024 .f32) (s : Fin 8) (b : Fin 128) (l : Fin 1024) :
    GA c arg1 harg1 arg2 harg2 arg4 harg4 arg8 x0 x1 x3 s.val (ix2 b l) = (∑ k : Fin 256, x0 (ix3 s b k) * x1 (ix2 k l)) + x3 (ix2 0 l) := by
  have key : ∀ (o : ℕ) (inb' : ∀ a, (![o, 0] : Fin 2 → ℕ) a + S128x1024.size a ≤ S1024x1024.size a) (r : Fin 1024) (hr : r.val = o + b.val) (ho : o = 128 * s.val),
      arg8.view.readCov (kernelRun0_A.sl.HS2_1 c arg1 harg1 arg2 harg2 arg4 harg4 x0 x1 x3)
        (Rect.unit (s := S1024x1024) ![o, 0] S128x1024.size inb').toLoadRect (ix2 b l)
        = (∑ k : Fin 256, x0 (ix3 s b k) * x1 (ix2 k l)) + x3 (ix2 0 l) := by
    intro o inb' r hr ho
    unfold kernelRun0_A.sl.HS2_1
    rw [readCov_whole_at arg8 _ _ o inb' b l r hr, readWhole3 arg1 harg1 x0, readWhole2 arg2 harg2 x1, readWhole2 arg4 harg4 x3]
    exact pay4_apply x0 x1 x3 s b l r (by rw [hr, ho])
  fin_cases s
  · exact key 0 _ ⟨0 + b.val, by have := b.isLt; omega⟩ rfl rfl
  · exact key 128 _ ⟨128 + b.val, by have := b.isLt; omega⟩ rfl rfl
  · exact key 256 _ ⟨256 + b.val, by have := b.isLt; omega⟩ rfl rfl
  · exact key 384 _ ⟨384 + b.val, by have := b.isLt; omega⟩ rfl rfl
  · exact key 512 _ ⟨512 + b.val, by have := b.isLt; omega⟩ rfl rfl
  · exact key 640 _ ⟨640 + b.val, by have := b.isLt; omega⟩ rfl rfl
  · exact key 768 _ ⟨768 + b.val, by have := b.isLt; omega⟩ rfl rfl
  · exact key 896 _ ⟨896 + b.val, by have := b.isLt; omega⟩ rfl rfl

/-- Time-step slab s of the output block, at local index (u, b, j), is entry (s, b, j) of the block. -/
theorem emb_slab (s : ℕ) (hs : s < 8) (inb : ∀ a, (![s, 0, 0] : Fin 3 → ℕ) a + S1x128x256.size a ≤ S8x128x256.size a) (u : Fin 1) (b : Fin 128) (j : Fin 256) :
    (Rect.unit (s := S8x128x256) ![s, 0, 0] S1x128x256.size inb).emb (ix3 u b j) = ix3 (⟨s, hs⟩ : Fin 8) b j := by
  funext a; apply Fin.ext
  match a with
  | ⟨0, _⟩ => show s + 1 * u.val = s; omega
  | ⟨1, _⟩ => show 0 + 1 * b.val = b.val; omega
  | ⟨2, _⟩ => show 0 + 1 * j.val = j.val; omega

/-- Eight steps of the body follow the recurrence: from the recurrence's state after τ₀ steps, with the slices, weights
    and lane vectors the recurrence's parameters, the state after n ≤ 8 steps is the recurrence's after τ₀ + n. -/
theorem chain_spec (P : Cert.Lstm.Params) (τ0 : ℕ) (hτ : τ0 + 8 ≤ 256) (S T : FVec Ideal S128x1024 .f32)
    (G : ℕ → Vec Ideal S128x1024 .f32) (w : Vec Ideal S256x1024 .bf16) (h0 c0 : FVec Ideal S128x256 .f32)
    (hSv : ∀ b l, S (ix2 b l) = P.S b l) (hTv : ∀ b l, T (ix2 b l) = P.T b l) (hw : ∀ k l, w (ix2 k l) = P.WH k l)
    (hG : ∀ (s : Fin 8) b l, G s.val (ix2 b l) = (∑ k : Fin 256, P.X ⟨τ0 + s.val, by have := s.isLt; omega⟩ b k * P.WI k l) + P.BI l)
    (hh : ∀ b k, h0 (ix2 b k) = (Cert.Lstm.st P τ0).1 b k) (hc : ∀ b j, c0 (ix2 b j) = (Cert.Lstm.st P τ0).2 b j) :
    ∀ n, n ≤ 8 → (∀ b j, (chain S T G w h0 c0 n).1 (ix2 b j) = (Cert.Lstm.st P (τ0 + n)).1 b j)
      ∧ (∀ b j, (chain S T G w h0 c0 n).2 (ix2 b j) = (Cert.Lstm.st P (τ0 + n)).2 b j) := by
  intro n
  induction n with
  | zero => intro _; exact ⟨hh, hc⟩
  | succ n ih =>
    intro hn
    obtain ⟨ih1, ih2⟩ := ih (by omega)
    have hstep := step_spec S T (chain S T G w h0 c0 n).1 (chain S T G w h0 c0 n).2 (G n) w P ⟨τ0 + n, by omega⟩ (Cert.Lstm.st P (τ0 + n))
      ih1 ih2 (hG ⟨n, by omega⟩) hw hSv hTv
    have hst : Cert.Lstm.st P (τ0 + (n + 1)) = Cert.Lstm.step P ⟨τ0 + n, by omega⟩ (Cert.Lstm.st P (τ0 + n)) :=
      Cert.Lstm.st_succ P ⟨τ0 + n, by omega⟩
    rw [chain_succ, hst]
    exact hstep

/-- The zero state as the reset stores it. -/
theorem pay2_apply (y : S128x256.Idx) : (k0_pay2 (F := Ideal)) y = 0 := by
  unfold k0_pay2; rw [shapeCast_self]; exact Ideal.ofBits_zero_f32
theorem pay3_apply (y : S128x256.Idx) : (k0_pay3 (F := Ideal)) y = 0 := by
  unfold k0_pay3; rw [shapeCast_self]; exact Ideal.ofBits_zero_f32

/-- THE CONTINUING CASE against the recurrence. -/
theorem chunkB_spec (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : ¬cond0_0 i) (x0 : Vec Ideal S8x128x256 .bf16) (x1 : Vec Ideal S256x1024 .bf16) (x2 : Vec Ideal S256x1024 .bf16) (x3 : Vec Ideal S1x1024 .f32) (xs0 : Vec Ideal S128x256 .f32) (xs1 : Vec Ideal S128x256 .f32)
    (P : Cert.Lstm.Params) (τ0 : ℕ) (hτ : τ0 + 8 ≤ 256)
    (hX : ∀ (s : Fin 8) b k, x0 (ix3 s b k) = P.X ⟨τ0 + s.val, by have := s.isLt; omega⟩ b k)
    (hWI : ∀ k l, x1 (ix2 k l) = P.WI k l) (hWH : ∀ k l, x2 (ix2 k l) = P.WH k l) (hBI : ∀ l, x3 (ix2 0 l) = P.BI l)
    (hSv : ∀ b l, (aS : FVec Ideal S128x1024 .f32) (ix2 b l) = P.S b l) (hTv : ∀ b l, (aT : FVec Ideal S128x1024 .f32) (ix2 b l) = P.T b l)
    (hh : ∀ b k, xs0 (ix2 b k) = (Cert.Lstm.st P τ0).1 b k) (hc : ∀ b j, xs1 (ix2 b j) = (Cert.Lstm.st P τ0).2 b j) :
    (∀ (s : Fin 8) b j, out0_B_4 c i arg1 harg1 arg2 harg2 arg3 harg3 arg4 harg4 arg5 harg5 arg6 harg6 arg7 harg7 arg8 harg8 hc0 x0 x1 x2 x3 xs0 xs1 (ix3 s b j) = (Cert.Lstm.st P (τ0 + s.val + 1)).1 b j)
      ∧ (∀ b j, sout0_B_0 c i arg1 harg1 arg2 harg2 arg3 harg3 arg4 harg4 arg5 harg5 arg6 harg6 arg7 harg7 arg8 harg8 hc0 x0 x1 x2 x3 xs0 xs1 (ix2 b j) = (Cert.Lstm.st P (τ0 + 8)).1 b j)
      ∧ (∀ b j, sout0_B_1 c i arg1 harg1 arg2 harg2 arg3 harg3 arg4 harg4 arg5 harg5 arg6 harg6 arg7 harg7 arg8 harg8 hc0 x0 x1 x2 x3 xs0 xs1 (ix2 b j) = (Cert.Lstm.st P (τ0 + 8)).2 b j) := by
  have hch := chain_spec P τ0 hτ aS aT (GB c arg1 harg1 arg2 harg2 arg4 harg4 arg8 x0 x1 x3) (wB arg3 harg3 x2) (h0B arg6 harg6 xs0) (c0B arg7 harg7 xs1) hSv hTv
    (fun k l => by rw [show wB arg3 harg3 x2 = x2 from readWhole2 arg3 harg3 x2]; exact hWH k l)
    (fun s b l => by rw [GB_apply c arg1 harg1 arg2 harg2 arg3 harg3 arg4 harg4 arg5 harg5 arg6 harg6 arg7 harg7 arg8 harg8 x0 x1 x2 x3 s b l]; simp only [hX, hWI, hBI])
    (fun b k => by rw [show h0B arg6 harg6 xs0 = xs0 from readWhole2 arg6 harg6 xs0]; exact hh b k)
    (fun b j => by rw [show c0B arg7 harg7 xs1 = xs1 from readWhole2 arg7 harg7 xs1]; exact hc b j)
  refine ⟨?_, ?_, ?_⟩
  · intro s b j
    unfold out0_B_4
    rw [View.read_writes_eq_canon _ _ _ (cover0_B_4 c i arg1 harg1 arg2 harg2 arg3 harg3 arg4 harg4 arg5 harg5 arg6 harg6 arg7 harg7 arg8 harg8 hc0 x0 x1 x2 x3 xs0 xs1), piecesB_out]
    let G : S8x128x256.Idx → Elt Ideal EltTy.f32 := fun idx => (chB c arg1 harg1 arg2 harg2 arg3 harg3 arg4 harg4 arg6 harg6 arg7 harg7 arg8 x0 x1 x2 x3 xs0 xs1 ((idx 0).val + 1)).1 (ix2 (idx 1) (idx 2))
    refine (View.canon_apply_of_pieces (Val := Elt Ideal) (e := EltTy.f32) G _ ?_ (ix3 s b j) ?_).trans ?_
    · intro p hp x
      simp only [List.mem_cons, List.mem_nil_iff, or_false] at hp
      rcases hp with rfl | rfl | rfl | rfl | rfl | rfl | rfl | rfl
      · obtain ⟨u, b, j, rfl⟩ : ∃ (u : Fin 1) (b : Fin 128) (j : Fin 256), x = ix3 u b j := ⟨x 0, x 1, x 2, eq_ix3 x⟩
        dsimp only
        rw [emb_slab 7 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 6 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 5 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 4 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 3 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 2 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 1 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 0 (by omega) _ u b j]
        exact outS_apply _ u b j
    · have hcov := cover0_B_4 c i arg1 harg1 arg2 harg2 arg3 harg3 arg4 harg4 arg5 harg5 arg6 harg6 arg7 harg7 arg8 harg8 hc0 x0 x1 x2 x3 xs0 xs1 (ix3 s b j)
      rwa [piecesB_out] at hcov
    · exact (hch (s.val + 1) (by have := s.isLt; omega)).1 b j
  · intro b j
    unfold sout0_B_0
    rw [View.read_writes_eq_canon _ _ _ (scover0_B_0 c i arg1 harg1 arg2 harg2 arg3 harg3 arg4 harg4 arg5 harg5 arg6 harg6 arg7 harg7 arg8 harg8 hc0 x0 x1 x2 x3 xs0 xs1), piecesB_h, View.canon_unit_zero hz2, shapeCast_self]
    exact (hch 8 (le_refl _)).1 b j
  · intro b j
    unfold sout0_B_1
    rw [View.read_writes_eq_canon _ _ _ (scover0_B_1 c i arg1 harg1 arg2 harg2 arg3 harg3 arg4 harg4 arg5 harg5 arg6 harg6 arg7 harg7 arg8 harg8 hc0 x0 x1 x2 x3 xs0 xs1), piecesB_c, View.canon_unit_zero hz2, shapeCast_self]
    exact (hch 8 (le_refl _)).2 b j

/-- THE RESET CASE against the recurrence: the same from the zero state, at the first eight time steps. -/
theorem chunkA_spec (c : Dev nD) (i : grid0.Coords) (arg1 : Memref sig .tc .vmem S8x128x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S8x128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1024x1024 .f32) (harg8 : arg8.IsWhole) (hc0 : cond0_0 i) (x0 : Vec Ideal S8x128x256 .bf16) (x1 : Vec Ideal S256x1024 .bf16) (x2 : Vec Ideal S256x1024 .bf16) (x3 : Vec Ideal S1x1024 .f32)
    (P : Cert.Lstm.Params) (τ0 : ℕ) (hτ0 : τ0 = 0)
    (hX : ∀ (s : Fin 8) b k, x0 (ix3 s b k) = P.X ⟨τ0 + s.val, by have := s.isLt; omega⟩ b k)
    (hWI : ∀ k l, x1 (ix2 k l) = P.WI k l) (hWH : ∀ k l, x2 (ix2 k l) = P.WH k l) (hBI : ∀ l, x3 (ix2 0 l) = P.BI l)
    (hSv : ∀ b l, (aS : FVec Ideal S128x1024 .f32) (ix2 b l) = P.S b l) (hTv : ∀ b l, (aT : FVec Ideal S128x1024 .f32) (ix2 b l) = P.T b l) :
    (∀ (s : Fin 8) b j, out0_A_4 c i arg1 harg1 arg2 harg2 arg3 harg3 arg4 harg4 arg5 harg5 arg6 harg6 arg7 harg7 arg8 harg8 hc0 x0 x1 x2 x3 (ix3 s b j) = (Cert.Lstm.st P (τ0 + s.val + 1)).1 b j)
      ∧ (∀ b j, sout0_A_0 c i arg1 harg1 arg2 harg2 arg3 harg3 arg4 harg4 arg5 harg5 arg6 harg6 arg7 harg7 arg8 harg8 hc0 x0 x1 x2 x3 (ix2 b j) = (Cert.Lstm.st P (τ0 + 8)).1 b j)
      ∧ (∀ b j, sout0_A_1 c i arg1 harg1 arg2 harg2 arg3 harg3 arg4 harg4 arg5 harg5 arg6 harg6 arg7 harg7 arg8 harg8 hc0 x0 x1 x2 x3 (ix2 b j) = (Cert.Lstm.st P (τ0 + 8)).2 b j) := by
  subst hτ0
  have hch := chain_spec P 0 (by omega) aS aT (GA c arg1 harg1 arg2 harg2 arg4 harg4 arg8 x0 x1 x3) (wB arg3 harg3 x2) (h0A c arg6) (c0A c arg7) hSv hTv
    (fun k l => by rw [show wB arg3 harg3 x2 = x2 from readWhole2 arg3 harg3 x2]; exact hWH k l)
    (fun s b l => by rw [GA_apply c arg1 harg1 arg2 harg2 arg3 harg3 arg4 harg4 arg5 harg5 arg6 harg6 arg7 harg7 arg8 harg8 x0 x1 x2 x3 s b l]; simp only [hX, hWI, hBI])
    (fun b k => by
      show kernelRun0_A.sl.v49 c arg6 (ix2 b k) = 0
      unfold kernelRun0_A.sl.v49 kernelRun0_A.sl.HS0_1
      rw [View.readCov_unit_zero _ hz2]; exact pay2_apply _)
    (fun b j => by
      show kernelRun0_A.sl.v50 c arg7 (ix2 b j) = 0
      unfold kernelRun0_A.sl.v50 kernelRun0_A.sl.HS1_1
      rw [View.readCov_unit_zero _ hz2]; exact pay3_apply _)
  refine ⟨?_, ?_, ?_⟩
  · intro s b j
    unfold out0_A_4
    rw [View.read_writes_eq_canon _ _ _ (cover0_A_4 c i arg1 harg1 arg2 harg2 arg3 harg3 arg4 harg4 arg5 harg5 arg6 harg6 arg7 harg7 arg8 harg8 hc0 x0 x1 x2 x3), piecesA_out]
    let G : S8x128x256.Idx → Elt Ideal EltTy.f32 := fun idx => (chA c arg1 harg1 arg2 harg2 arg3 harg3 arg4 harg4 arg6 arg7 arg8 x0 x1 x2 x3 ((idx 0).val + 1)).1 (ix2 (idx 1) (idx 2))
    refine (View.canon_apply_of_pieces (Val := Elt Ideal) (e := EltTy.f32) G _ ?_ (ix3 s b j) ?_).trans ?_
    · intro p hp x
      simp only [List.mem_cons, List.mem_nil_iff, or_false] at hp
      rcases hp with rfl | rfl | rfl | rfl | rfl | rfl | rfl | rfl
      · obtain ⟨u, b, j, rfl⟩ : ∃ (u : Fin 1) (b : Fin 128) (j : Fin 256), x = ix3 u b j := ⟨x 0, x 1, x 2, eq_ix3 x⟩
        dsimp only
        rw [emb_slab 7 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 6 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 5 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 4 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 3 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 2 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 1 (by omega) _ u b j]
        exact outS_apply _ u b j
      · obtain ⟨u, b, j, rfl⟩ : ∃ (u : Fin 1) (b : Fin 128) (j : Fin 256), x = ix3 u b j := ⟨x 0, x 1, x 2, eq_ix3 x⟩
        dsimp only
        rw [emb_slab 0 (by omega) _ u b j]
        exact outS_apply _ u b j
    · have hcov := cover0_A_4 c i arg1 harg1 arg2 harg2 arg3 harg3 arg4 harg4 arg5 harg5 arg6 harg6 arg7 harg7 arg8 harg8 hc0 x0 x1 x2 x3 (ix3 s b j)
      rwa [piecesA_out] at hcov
    · exact (hch (s.val + 1) (by have := s.isLt; omega)).1 b j
  · intro b j
    unfold sout0_A_0
    rw [View.read_writes_eq_canon _ _ _ (scover0_A_0 c i arg1 harg1 arg2 harg2 arg3 harg3 arg4 harg4 arg5 harg5 arg6 harg6 arg7 harg7 arg8 harg8 hc0 x0 x1 x2 x3), piecesA_h, View.canon_cons_unit_zero hz2, shapeCast_self]
    exact (hch 8 (le_refl _)).1 b j
  · intro b j
    unfold sout0_A_1
    rw [View.read_writes_eq_canon _ _ _ (scover0_A_1 c i arg1 harg1 arg2 harg2 arg3 harg3 arg4 harg4 arg5 harg5 arg6 harg6 arg7 harg7 arg8 harg8 hc0 x0 x1 x2 x3), piecesA_c, View.canon_cons_unit_zero hz2, shapeCast_self]
    exact (hch 8 (le_refl _)).2 b j

end Cert.KernelIdeal.Hand

end
-- ==== Proof.ParamsK.lean ====
/-
  The kernel's parameters: its launch operands as the host lines leave them — the rounded input sequence, the two
  gate-scaled rounded weight matrices, the gate-scaled bias row — read at coordinates, and the two lane vectors the
  body computes from the lane number.
-/
import proofs.«173986_g2000208858419734_pallasbulk_908_7_alg».proof.Proof.KiRuns
import proofs.«173986_g2000208858419734_pallasbulk_908_7_alg».proof.Proof.Spec
import Idealize.ShloMosaic.Lib.ValueIdx

noncomputable section

namespace Cert.Bridge

open Idealize.ShloMosaic Idealize.ShloMosaic.TcCoe Idealize.ShloMosaic.ValueIdx Idealize.SL.Sem

/-- The recurrence's parameters as the kernel's launch on core `c` finds them. -/
def PK (m : (ℓ : Loc Cert.KernelIdeal.nD Cert.KernelIdeal.τ Cert.KernelIdeal.sig) → Buf (Elt Ideal) ℓ) (c : Dev Cert.KernelIdeal.nD) : Cert.Lstm.Params where
  X τ b k := (show (⟨3, ![256, 128, 256]⟩ : Shape).Idx → EReal from Cert.KernelIdeal.Hand.V m c Cert.KernelIdeal.main_v12) (ix3 τ b k)
  WI k l := (show (⟨2, ![256, 1024]⟩ : Shape).Idx → EReal from Cert.KernelIdeal.Hand.V m c Cert.KernelIdeal.main_v7) (ix2 k l)
  WH k l := (show (⟨2, ![256, 1024]⟩ : Shape).Idx → EReal from Cert.KernelIdeal.Hand.V m c Cert.KernelIdeal.main_v10) (ix2 k l)
  BI l := (show (⟨2, ![1, 1024]⟩ : Shape).Idx → EReal from Cert.KernelIdeal.Hand.V m c Cert.KernelIdeal.main_v11) (ix2 0 l)
  S b l := (show (⟨2, ![128, 1024]⟩ : Shape).Idx → EReal from
    Cert.KernelIdeal.Gen.k0_pay8 (F := Ideal) Cert.KernelIdeal.Gen.k0_pay5 Cert.KernelIdeal.Gen.k0_pay6 1#32) (ix2 b l)
  T b l := (show (⟨2, ![128, 1024]⟩ : Shape).Idx → EReal from
    Cert.KernelIdeal.Gen.k0_pay9 (F := Ideal) Cert.KernelIdeal.Gen.k0_pay5 Cert.KernelIdeal.Gen.k0_pay6 1#32) (ix2 b l)

end Cert.Bridge

end
-- ==== Proof.KiBlocks.lean ====
/-
  Where each grid point's operand blocks sit in their arrays.  Grid point t sees rows 8t … 8t+7 of the input sequence
  and the whole of the two weight matrices and of the bias row: read at coordinates, a block entry is the array's entry
  at block index × block size + the coordinate inside the block.
-/
import proofs.«173986_g2000208858419734_pallasbulk_908_7_alg».proof.Proof.KiChunk
import proofs.«173986_g2000208858419734_pallasbulk_908_7_alg».proof.Proof.ParamsK

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Bridge (PK)

variable (m : (ℓ : Loc nD τ sig) → Buf (Elt Ideal) ℓ)

/-- Where each operand's block sits: the sequence and the output move one block per grid point along time; the
    weights and the bias are one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem iblk0_apply (c : Dev nD) (t : Fin cfg0.N) (s : Fin 8) (b : Fin 128) (k : Fin 256) (r : Fin 256) (hr : r.val = 8 * t.val + s.val) :
    (show (⟨3, ![8, 128, 256]⟩ : Shape).Idx → EReal from iblk m c 0 t) (ix3 s b k) = (PK m c).X r b k := by
  obtain ⟨e0, e1, e2, -⟩ := idx_facts t
  have hidx : ((cfg0.win 0).blk t).view.emb (ix3 s b k) = (ix3 r b k : S256x128x256.Idx) := by
    funext a; apply Fin.ext
    match a with
    | ⟨0, _⟩ => show win0_0.index t (0 : Fin 3) * 8 + 1 * s.val = r.val; omega
    | ⟨1, _⟩ => show win0_0.index t (1 : Fin 3) * 128 + 1 * b.val = b.val; omega
    | ⟨2, _⟩ => show win0_0.index t (2 : Fin 3) * 256 + 1 * k.val = k.val; omega
  show (show S256x128x256.Idx → EReal from V m c main_v12) (((cfg0.win 0).blk t).view.emb (ix3 s b k)) = (show S256x128x256.Idx → EReal from V m c main_v12) (ix3 r b k)
  rw [hidx]

theorem iblk1_apply (c : Dev nD) (t : Fin cfg0.N) (k : Fin 256) (l : Fin 1024) :
    (show (⟨2, ![256, 1024]⟩ : Shape).Idx → EReal from iblk m c 1 t) (ix2 k l) = (PK m c).WI k l := by
  obtain ⟨-, -, -, e0, e1, -⟩ := idx_facts t
  have hidx : ((cfg0.win 1).blk t).view.emb (ix2 k l) = (ix2 k l : S256x1024.Idx) := by
    funext a; apply Fin.ext
    match a with
    | ⟨0, _⟩ => show win0_1.index t (0 : Fin 2) * 256 + 1 * k.val = k.val; omega
    | ⟨1, _⟩ => show win0_1.index t (1 : Fin 2) * 1024 + 1 * l.val = l.val; omega
  show (show S256x1024.Idx → EReal from V m c main_v7) (((cfg0.win 1).blk t).view.emb (ix2 k l)) = (show S256x1024.Idx → EReal from V m c main_v7) (ix2 k l)
  rw [hidx]

theorem iblk2_apply (c : Dev nD) (t : Fin cfg0.N) (k : Fin 256) (l : Fin 1024) :
    (show (⟨2, ![256, 1024]⟩ : Shape).Idx → EReal from iblk m c 2 t) (ix2 k l) = (PK m c).WH k l := by
  obtain ⟨-, -, -, -, -, e0, e1, -⟩ := idx_facts t
  have hidx : ((cfg0.win 2).blk t).view.emb (ix2 k l) = (ix2 k l : S256x1024.Idx) := by
    funext a; apply Fin.ext
    match a with
    | ⟨0, _⟩ => show win0_2.index t (0 : Fin 2) * 256 + 1 * k.val = k.val; omega
    | ⟨1, _⟩ => show win0_2.index t (1 : Fin 2) * 1024 + 1 * l.val = l.val; omega
  show (show S256x1024.Idx → EReal from V m c main_v10) (((cfg0.win 2).blk t).view.emb (ix2 k l)) = (show S256x1024.Idx → EReal from V m c main_v10) (ix2 k l)
  rw [hidx]

theorem iblk3_apply (c : Dev nD) (t : Fin cfg0.N) (l : Fin 1024) :
    (show (⟨2, ![1, 1024]⟩ : Shape).Idx → EReal from iblk m c 3 t) (ix2 0 l) = (PK m c).BI l := by
  obtain ⟨-, -, -, -, -, -, -, e0, e1, -⟩ := idx_facts t
  have hidx : ((cfg0.win 3).blk t).view.emb (ix2 0 l) = (ix2 0 l : S1x1024.Idx) := by
    funext a; apply Fin.ext
    match a with
    | ⟨0, _⟩ => show win0_3.index t (0 : Fin 2) * 1 + 1 * 0 = 0; omega
    | ⟨1, _⟩ => show win0_3.index t (1 : Fin 2) * 1024 + 1 * l.val = l.val; omega
  show (show S1x1024.Idx → EReal from V m c main_v11) (((cfg0.win 3).blk t).view.emb (ix2 0 l)) = (show S1x1024.Idx → EReal from V m c main_v11) (ix2 0 l)
  rw [hidx]

end Cert.KernelIdeal.Hand

end
-- ==== Proof.KiInduct.lean ====
/-
  All grid points against the recurrence.  A grid point's operand blocks are the recurrence's parameters for its eight
  time steps, and the state it starts from is what the point before left.  By induction on the point n: after point n
  the output block holds the hidden states after steps 8n+1 … 8n+8 and the state buffers the state after 8n+8 steps.
-/
import proofs.«173986_g2000208858419734_pallasbulk_908_7_alg».proof.Proof.KiBlocks

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Bridge (PK)

variable (m : (ℓ : Loc nD τ sig) → Buf (Elt Ideal) ℓ)

/-- After grid point n: the output block at the hidden states after steps 8n+1 … 8n+8, the state buffers at the state
    after 8n+8 steps. -/
theorem outsAt0_spec (c : Dev nD) : ∀ (n : ℕ) (hn : n < cfg0.N),
    (∀ (s : Fin 8) (b : Fin 128) (j : Fin 256), (show (⟨3, ![8, 128, 256]⟩ : Shape).Idx → EReal from (outsAt0 m c n hn).1) (ix3 s b j) = (Cert.Lstm.st (PK m c) (8 * n + s.val + 1)).1 b j)
      ∧ (∀ (b : Fin 128) (j : Fin 256), (show (⟨2, ![128, 256]⟩ : Shape).Idx → EReal from (outsAt0 m c n hn).2.1) (ix2 b j) = (Cert.Lstm.st (PK m c) (8 * n + 8)).1 b j)
      ∧ (∀ (b : Fin 128) (j : Fin 256), (show (⟨2, ![128, 256]⟩ : Shape).Idx → EReal from (outsAt0 m c n hn).2.2) (ix2 b j) = (Cert.Lstm.st (PK m c) (8 * n + 8)).2 b j)
  | 0, hn => by
    have h := outsAt0_A m c ⟨0, hn⟩ (Nat.zero_mod 32)
    have hA := chunkA_spec c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) scM0_1 (Memref.isWhole_whole _) scM0_2 (Memref.isWhole_whole _) ((hcond0_0 ⟨0, hn⟩).mpr (Nat.zero_mod 32)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (PK m c) (8 * 0) rfl
      (fun s b k => iblk0_apply m c ⟨0, hn⟩ s b k _ rfl)
      (fun k l => iblk1_apply m c ⟨0, hn⟩ k l) (fun k l => iblk2_apply m c ⟨0, hn⟩ k l) (fun l => iblk3_apply m c ⟨0, hn⟩ l)
      (fun _ _ => rfl) (fun _ _ => rfl)
    rw [show outsAt0 m c 0 hn = _ from h]
    refine ⟨fun s b j => ?_, fun b j => ?_, fun b j => ?_⟩
    · dsimp only; exact hA.1 s b j
    · dsimp only; exact hA.2.1 b j
    · dsimp only; exact hA.2.2 b j
  | n + 1, hn => by
    have hN : cfg0.N = 32 := N_0
    have ih := outsAt0_spec c n (Nat.lt_of_succ_lt hn)
    have h0 : ¬(n + 1) % 32 = 0 := by omega
    have h := outsAt0_B m c ⟨n + 1, hn⟩ h0
    have hB := chunkB_spec c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) (fun h => h0 ((hcond0_0 ⟨n + 1, hn⟩).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N))
      (outsAt0 m c n (Nat.lt_of_succ_lt hn)).2.1 (outsAt0 m c n (Nat.lt_of_succ_lt hn)).2.2 (PK m c) (8 * (n + 1)) (by omega)
      (fun s b k => iblk0_apply m c ⟨n + 1, hn⟩ s b k _ rfl)
      (fun k l => iblk1_apply m c ⟨n + 1, hn⟩ k l) (fun k l => iblk2_apply m c ⟨n + 1, hn⟩ k l) (fun l => iblk3_apply m c ⟨n + 1, hn⟩ l)
      (fun _ _ => rfl) (fun _ _ => rfl)
      (fun b k => by have := ih.2.1 b k; rwa [show 8 * n + 8 = 8 * (n + 1) from by ring] at this)
      (fun b j => by have := ih.2.2 b j; rwa [show 8 * n + 8 = 8 * (n + 1) from by ring] at this)
    rw [show outsAt0 m c (n + 1) hn = _ from h]
    refine ⟨fun s b j => ?_, fun b j => ?_, fun b j => ?_⟩
    · dsimp only; exact hB.1 s b j
    · dsimp only; exact hB.2.1 b j
    · dsimp only; exact hB.2.2 b j

end Cert.KernelIdeal.Hand

end
-- ==== Proof.KernelValue.lean ====
/-
  The kernel's output array is the recurrence's output at the kernel's parameters: block n of the array is what grid
  point n wrote, the hidden states of steps 8n … 8n+7, and the state the body carries into point n is the recurrence's
  state after 8n steps.  Every flushed block is the block of ONE function of the array index — entry (τ, b, j) ↦ the
  hidden state after step τ —, and the 32 blocks of eight time steps tile the 256 steps.
-/
import proofs.«173986_g2000208858419734_pallasbulk_908_7_alg».proof.Proof.KiInduct

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

/-- The whole output as one function of the array index. -/
def GoutK (m : (ℓ : Loc Cert.KernelIdeal.nD Cert.KernelIdeal.τ Cert.KernelIdeal.sig) → Buf (Elt Ideal) ℓ) (c : Dev Cert.KernelIdeal.nD) : (⟨3, ![256, 128, 256]⟩ : Shape).Idx → EReal :=
  fun i => Cert.Lstm.out (PK m c) (i 0) (i 1) (i 2)

/-- What grid point t writes back is block t of that function. -/
theorem flushedK_eq (m : (ℓ : Loc Cert.KernelIdeal.nD Cert.KernelIdeal.τ Cert.KernelIdeal.sig) → Buf (Elt Ideal) ℓ) (c : Dev nD) (t : Fin cfg0.N) :
    (dats (F := Ideal) m 0 c).flushed 4 t = ((cfg0.win 4).blk t).view.read (Elt Ideal) (GoutK m c) := by
  show (cfg0.win 4).cut (grid0.coords t) ((dats m 0 c).after 4 t) = _
  rw [after0_4]
  funext y
  obtain ⟨s, b, j, rfl⟩ : ∃ (s : Fin 8) (b : Fin 128) (j : Fin 256), y = ix3 s b j := ⟨y 0, y 1, y 2, eq_ix3 y⟩
  obtain ⟨-, -, -, -, -, -, -, -, -, e0, e1, e2⟩ := idx_facts t
  have hN : cfg0.N = 32 := N_0
  have hidx : ((cfg0.win 4).blk t).view.emb (ix3 s b j) = (ix3 (⟨8 * t.val + s.val, by have := t.isLt; have := s.isLt; omega⟩ : Fin 256) b j : S256x128x256.Idx) := by
    funext a; apply Fin.ext
    match a with
    | ⟨0, _⟩ => show win0_4.index t (0 : Fin 3) * 8 + 1 * s.val = 8 * t.val + s.val; omega
    | ⟨1, _⟩ => show win0_4.index t (1 : Fin 3) * 128 + 1 * b.val = b.val; omega
    | ⟨2, _⟩ => show win0_4.index t (2 : Fin 3) * 256 + 1 * j.val = j.val; omega
  show (show (⟨3, ![8, 128, 256]⟩ : Shape).Idx → EReal from (outsAt0 m c t.val t.isLt).1) (ix3 s b j) = GoutK m c (((cfg0.win 4).blk t).view.emb (ix3 s b j))
  rw [(outsAt0_spec m c t.val t.isLt).1 s b j, hidx]
  rfl

/-- The 32 blocks of eight time steps cover the 256 steps. -/
theorem coverK (i : S256x128x256.Idx) : ∃ t : Fin cfg0.N, (cfg0.win 4).flush t = true ∧ i ∈ ((cfg0.win 4).blk t).view.set := by
  have hN : cfg0.N = 32 := N_0
  have hi0 : (i 0).val < 256 := (i 0).isLt
  have hi1 : (i 1).val < 128 := (i 1).isLt
  have hi2 : (i 2).val < 256 := (i 2).isLt
  have ht : (i 0).val / 8 < cfg0.N := by omega
  obtain ⟨t, htv⟩ : ∃ t : Fin cfg0.N, t.val = (i 0).val / 8 := ⟨⟨(i 0).val / 8, ht⟩, rfl⟩
  refine ⟨t, flush0_4 t, ?_⟩
  obtain ⟨-, -, -, -, -, -, -, -, -, e0, e1, e2⟩ := idx_facts t
  show i ∈ ((View.whole main_v13).slice (win0_4.rect t)).set
  rw [View.set_slice_whole, Rect.mem_set_unit]
  intro a
  match a with
  | ⟨0, _⟩ => show win0_4.index t (0 : Fin 3) * 8 ≤ (i 0).val ∧ (i 0).val < win0_4.index t (0 : Fin 3) * 8 + 8; rw [e0, htv]; omega
  | ⟨1, _⟩ => show win0_4.index t (1 : Fin 3) * 128 ≤ (i 1).val ∧ (i 1).val < win0_4.index t (1 : Fin 3) * 128 + 128; rw [e1]; omega
  | ⟨2, _⟩ => show win0_4.index t (2 : Fin 3) * 256 ≤ (i 2).val ∧ (i 2).val < win0_4.index t (2 : Fin 3) * 256 + 256; rw [e2]; omega

theorem kernel_final (m : (ℓ : Loc Cert.KernelIdeal.nD Cert.KernelIdeal.τ Cert.KernelIdeal.sig) → Buf (Elt Ideal) ℓ) (c : Dev Cert.KernelIdeal.nD) (τ : Fin 256) (b : Fin 128) (j : Fin 256) :
    (show (⟨3, ![256, 128, 256]⟩ : Shape).Idx → EReal from (Cert.KernelIdeal.Hand.dats (F := Ideal) m 0 c).arrAt 4 Cert.KernelIdeal.cfg0.N) (ix3 τ b j)
      = Cert.Lstm.out (PK m c) τ b j := by
  have h := (dats (F := Ideal) m 0 c).arrAt_eq_of_cover 4 (GoutK m c) (fun t _ => flushedK_eq m c t) coverK
  rw [h]
  rfl

end Cert.Bridge

end
-- ==== Proof.ParamsR.lean ====
/-
  The reference's parameters: its launch operands as the host lines leave them — the input sequence flattened to
  32768 rows (row 128·τ + b), the packed input weights, rows 256…511 of the packed 1024×1024 recurrent weights (the
  rows that meet the hidden state's lanes), the packed bias row — read at coordinates, and the two lane vectors its
  body computes from the lane number.
-/
import proofs.«173986_g2000208858419734_pallasbulk_908_7_alg».proof.Proof.Gen.ReferenceIdeal.Frame.Runs
import proofs.«173986_g2000208858419734_pallasbulk_908_7_alg».proof.Proof.Spec
import Idealize.ShloMosaic.Lib.ValueIdx

noncomputable section

namespace Cert.Bridge

open Idealize.ShloMosaic Idealize.ShloMosaic.TcCoe Idealize.ShloMosaic.ValueIdx Idealize.SL.Sem

/-- Row 128·τ + b of the flattened sequence. -/
def seqRow (τ : Fin 256) (b : Fin 128) : Fin 32768 := ⟨128 * τ.val + b.val, by have := τ.isLt; have := b.isLt; omega⟩
/-- Row 256 + k of the packed recurrent weights. -/
def hidRow (k : Fin 256) : Fin 1024 := ⟨256 + k.val, by have := k.isLt; omega⟩

/-- The recurrence's parameters as the reference's launch on core `c` finds them. -/
def PR (m' : (ℓ : Loc Cert.ReferenceIdeal.nD Cert.ReferenceIdeal.τ Cert.ReferenceIdeal.sig) → Buf (Elt Ideal) ℓ) (c : Dev Cert.ReferenceIdeal.nD) : Cert.Lstm.Params where
  X τ b k := (show (⟨2, ![32768, 256]⟩ : Shape).Idx → EReal from Cert.ReferenceIdeal.Gen.V m' c Cert.ReferenceIdeal.main_v3) (ix2 (seqRow τ b) k)
  WI k l := (show (⟨2, ![256, 1024]⟩ : Shape).Idx → EReal from Cert.ReferenceIdeal.Gen.V m' c Cert.ReferenceIdeal.main_v75) (ix2 k l)
  WH k l := (show (⟨2, ![1024, 1024]⟩ : Shape).Idx → EReal from Cert.ReferenceIdeal.Gen.V m' c Cert.ReferenceIdeal.main_v76) (ix2 (hidRow k) l)
  BI l := (show (⟨2, ![1, 1024]⟩ : Shape).Idx → EReal from Cert.ReferenceIdeal.Gen.V m' c Cert.ReferenceIdeal.main_v74) (ix2 0 l)
  S b l := (show (⟨2, ![128, 1024]⟩ : Shape).Idx → EReal from
    Cert.ReferenceIdeal.Gen.k0_pay14 (F := Ideal) Cert.ReferenceIdeal.Gen.k0_pay10 Cert.ReferenceIdeal.Gen.k0_pay11 Cert.ReferenceIdeal.Gen.k0_pay12) (ix2 b l)
  T b l := (show (⟨2, ![128, 1024]⟩ : Shape).Idx → EReal from
    Cert.ReferenceIdeal.Gen.k0_pay15 (F := Ideal) Cert.ReferenceIdeal.Gen.k0_pay10 Cert.ReferenceIdeal.Gen.k0_pay11 Cert.ReferenceIdeal.Gen.k0_pay12) (ix2 b l)

/-- The packed recurrent weights vanish outside rows 256…511. -/
def WhhZeroRows (m' : (ℓ : Loc Cert.ReferenceIdeal.nD Cert.ReferenceIdeal.τ Cert.ReferenceIdeal.sig) → Buf (Elt Ideal) ℓ) (c : Dev Cert.ReferenceIdeal.nD) : Prop :=
  ∀ (r : Fin 1024) (l : Fin 1024), (r.val < 256 ∨ 512 ≤ r.val) →
    (show (⟨2, ![1024, 1024]⟩ : Shape).Idx → EReal from Cert.ReferenceIdeal.Gen.V m' c Cert.ReferenceIdeal.main_v76) (ix2 r l) = 0

end Cert.Bridge

end
-- ==== Proof.RefDot.lean ====
/-
  The two matrix products of the recurrence's body read at an index over the extended reals: a product into the zero
  accumulator is the sum, over the contracted coordinate, of the products of the entries; and a sum over the 1024 rows
  of terms that vanish outside rows 256…511 is the sum over those 256 rows.
-/
import proofs.«173986_g2000208858419734_pallasbulk_908_7_alg».proof.Proof.ParamsR
import Idealize.ShloMosaic.Lib.Pipeline.Value
import Idealize.ShloMosaic.PureOps.Ideal.Laws

noncomputable section

namespace Cert.Bridge

open Idealize.ShloMosaic Idealize.ShloMosaic.ValueIdx
open Cert.ReferenceIdeal
open scoped BigOperators

/-! ## The recurrent product: [128,1024] by [1024,1024] -/

theorem dh_lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem dh_lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem dh_rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem dh_rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- The state's product with the recurrent weights, entry (b, l): the sum over all 1024 rows. -/
theorem matmulH_apply (hb : FVec Ideal S128x1024 .bf16) (W : FVec Ideal S1024x1024 .bf16) (b : Fin 128) (l : Fin 1024) :
    matmul dot_S128x1024_S1024x1024_S128x1024_1_0_0_1_n_n none hb W (constant (F := Ideal) S128x1024 .f32 0x00000000#32) (ix2 b l)
      = ∑ r : Fin 1024, hb (ix2 b r) * W (ix2 r l) := by
  show FloatOps.matmul dot_S128x1024_S1024x1024_S128x1024_1_0_0_1_n_n none hb W _ (ix2 b l) = _
  rw [Ideal.matmul_constant_zero_apply,
    ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 b l)
      ((contrEquiv1 dot_S128x1024_S1024x1024_S128x1024_1_0_0_1_n_n 1024 rfl rfl).symm k) = ix2 b k :=
    funext fun a => Fin.ext (by
      match a with
      | ⟨0, _⟩ => exact dh_lhs_0 _ _
      | ⟨1, _⟩ => exact (dh_lhs_1 _ _).trans hk)
  have er : dot_S128x1024_S1024x1024_S128x1024_1_0_0_1_n_n.rhsIdx (ix2 b l)
      ((contrEquiv1 dot_S128x1024_S1024x1024_S128x1024_1_0_0_1_n_n 1024 rfl rfl).symm k) = ix2 k l :=
    funext fun a => Fin.ext (by
      match a with
      | ⟨0, _⟩ => exact (dh_rhs_0 _ _).trans hk
      | ⟨1, _⟩ => exact dh_rhs_1 _ _)
  rw [el, er]

/-! ## The input projection: [256,256] by [256,1024] -/

theorem dx_lhs_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl
theorem dx_lhs_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem dx_rhs_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem dx_rhs_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- The chunk's input rows times the input weights, entry (r, l): the sum over the 256 features. -/
theorem matmulX_apply (x : FVec Ideal S256x256 .bf16) (w : FVec Ideal S256x1024 .bf16) (r : Fin 256) (l : Fin 1024) :
    matmul dot_S256x256_S256x1024_S256x1024_1_0_0_1_n_n none x w (constant (F := Ideal) S256x1024 .f32 0x00000000#32) (ix2 r l)
      = ∑ k : Fin 256, x (ix2 r k) * w (ix2 k l) := by
  show FloatOps.matmul dot_S256x256_S256x1024_S256x1024_1_0_0_1_n_n none x w _ (ix2 r l) = _
  rw [Ideal.matmul_constant_zero_apply,
    ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 r l)
      ((contrEquiv1 dot_S256x256_S256x1024_S256x1024_1_0_0_1_n_n 256 rfl rfl).symm k) = ix2 r k :=
    funext fun a => Fin.ext (by
      match a with
      | ⟨0, _⟩ => exact dx_lhs_0 _ _
      | ⟨1, _⟩ => exact (dx_lhs_1 _ _).trans hk)
  have er : dot_S256x256_S256x1024_S256x1024_1_0_0_1_n_n.rhsIdx (ix2 r l)
      ((contrEquiv1 dot_S256x256_S256x1024_S256x1024_1_0_0_1_n_n 256 rfl rfl).symm k) = ix2 k l :=
    funext fun a => Fin.ext (by
      match a with
      | ⟨0, _⟩ => exact (dx_rhs_0 _ _).trans hk
      | ⟨1, _⟩ => exact dx_rhs_1 _ _)
  rw [el, er]

/-! ## A sum over 1024 rows whose terms vanish outside rows 256…511 -/

theorem hidRow_injective : Function.Injective hidRow := fun a b h => by
  have := congrArg Fin.val h
  exact Fin.ext (by simp only [hidRow] at this; omega)

/-- Only the 256 rows 256…511 contribute. -/
theorem sum_rows_eq (f : Fin 1024 → EReal) (h0 : ∀ r : Fin 1024, (r.val < 256 ∨ 512 ≤ r.val) → f r = 0) :
    ∑ r : Fin 1024, f r = ∑ k : Fin 256, f (hidRow k) := by
  refine ((Finset.sum_map Finset.univ ⟨hidRow, hidRow_injective⟩ f).symm.trans
    (Finset.sum_subset (Finset.subset_univ _) fun r _ hr => h0 r ?_)).symm
  by_contra hcon
  refine hr (Finset.mem_map.mpr ⟨⟨r.val - 256, by omega⟩, Finset.mem_univ _, Fin.ext ?_⟩)
  show 256 + (r.val - 256) = r.val
  omega

end Cert.Bridge

end
-- ==== Proof.RefStep.lean ====
/-
  One time step of the reference's body over the extended reals, entry by entry.  The body keeps the state in lanes
  256…511 of 1024-lane rows.  Its gate vector is act = tanh(gx + h·W)·S + T; rotating act by 512 lanes puts the o gate
  under the state's lanes and the g gate under the i gate's lanes, and rotating act·r2 by 256 lanes puts i·g under the
  state's lanes: on lanes 256…511 the new cell is f·c + i·g and the new hidden value o·tanh of it.  Because the
  recurrent weights vanish outside rows 256…511, h·W only reads the state's lanes.
-/
import proofs.«173986_g2000208858419734_pallasbulk_908_7_alg».proof.Proof.RefDot
import Idealize.ShloMosaic.Lib.KernelVsHost

noncomputable section

namespace Cert.Bridge

open Idealize.ShloMosaic Idealize.ShloMosaic.ValueIdx
open Cert.ReferenceIdeal Cert.ReferenceIdeal.Gen Cert.Lstm
open scoped BigOperators

theorem lane0_val (j : Fin 256) : (lane 0 j).val = j.val := by show 256 * 0 + j.val = j.val; omega
theorem lane1_val (j : Fin 256) : (lane 1 j).val = 256 + j.val := by show 256 * 1 + j.val = _; omega
theorem lane2_val (j : Fin 256) : (lane 2 j).val = 512 + j.val := by show 256 * 2 + j.val = _; omega
theorem lane3_val (j : Fin 256) : (lane 3 j).val = 768 + j.val := by show 256 * 3 + j.val = _; omega
/-- The state's lane 256 + k is row 256 + k of the recurrent weights. -/
theorem hidRow_eq_lane (k : Fin 256) : hidRow k = lane 1 k := Fin.ext (by rw [lane1_val]; rfl)

section Step

variable (S T c : FVec Ideal S128x1024 .f32) (gx : Vec Ideal S128x1024 .f32) (hb : FVec Ideal S128x1024 .bf16)
  (W : Vec Ideal S1024x1024 .bf16)

/-- The gate vector at (b, l). -/
theorem pay1_apply (b : Fin 128) (l : Fin 1024) :
    k0_pay1 S T gx hb W (ix2 b l)
      = Ideal.tanh (gx (ix2 b l) + ∑ r : Fin 1024, hb (ix2 b r) * W (ix2 r l)) * S (ix2 b l) + T (ix2 b l) := by
  have e : matmul dot_S128x1024_S1024x1024_S128x1024_1_0_0_1_n_n none hb
      (shapeCast S1024x1024 W shapeCasts_S1024x1024_S1024x1024 : FVec Ideal S1024x1024 .bf16) (constant (F := Ideal) S128x1024 .f32 0x00000000#32) (ix2 b l)
        = ∑ r : Fin 1024, hb (ix2 b r) * W (ix2 r l) := by
    rw [shapeCast_self]; exact matmulH_apply hb W b l
  unfold k0_pay1
  exact congrArg (fun z => Ideal.tanh (gx (ix2 b l) + z) * S (ix2 b l) + T (ix2 b l)) e

/-- The gate vector rotated by half the lanes. -/
theorem pay2_apply (b : Fin 128) (l k : Fin 1024) (hk : k.val = (l.val + 512) % 1024) :
    k0_pay2 S T gx hb W (ix2 b l) = k0_pay1 S T gx hb W (ix2 b k) := by
  unfold k0_pay2
  exact dynamicRotate_apply (1 : Fin 2) 512#32 _ rotates_S128x1024_d1 (ix2 b l) (ix2 b k) (by
    intro a
    match a with
    | ⟨0, _⟩ => rfl
    | ⟨1, _⟩ => show k.val = (l.val + 1024 - 512 % 1024) % 1024; omega)

/-- The new cell on the state's lanes: f·c + i·g. -/
theorem pay3_apply (b : Fin 128) (j : Fin 256) :
    k0_pay3 S T c gx hb W (ix2 b (lane 1 j))
      = k0_pay1 S T gx hb W (ix2 b (lane 1 j)) * c (ix2 b (lane 1 j))
        + k0_pay1 S T gx hb W (ix2 b (lane 0 j)) * k0_pay1 S T gx hb W (ix2 b (lane 2 j)) := by
  have e : dynamicRotate 1 256#32 none (mulf (k0_pay1 S T gx hb W) (k0_pay2 S T gx hb W)) rotates_S128x1024_d1 (ix2 b (lane 1 j))
      = k0_pay1 S T gx hb W (ix2 b (lane 0 j)) * k0_pay1 S T gx hb W (ix2 b (lane 2 j)) := by
    refine (dynamicRotate_apply (1 : Fin 2) 256#32 _ rotates_S128x1024_d1 (ix2 b (lane 1 j)) (ix2 b (lane 0 j)) (by
      intro a
      match a with
      | ⟨0, _⟩ => rfl
      | ⟨1, _⟩ => show (lane 0 j).val = ((lane 1 j).val + 1024 - 256 % 1024) % 1024
                  rw [lane0_val, lane1_val]; have := j.isLt; omega)).trans ?_
    exact congrArg (fun z => k0_pay1 S T gx hb W (ix2 b (lane 0 j)) * z)
      (pay2_apply S T gx hb W b (lane 0 j) (lane 2 j) (by rw [lane0_val, lane2_val]; have := j.isLt; omega))
  unfold k0_pay3
  exact congrArg (fun z => k0_pay1 S T gx hb W (ix2 b (lane 1 j)) * c (ix2 b (lane 1 j)) + z) e

/-- The new hidden value on the state's lanes: o·tanh of the new cell. -/
theorem pay4_apply (b : Fin 128) (j : Fin 256) :
    k0_pay4 S T c gx hb W (ix2 b (lane 1 j))
      = k0_pay1 S T gx hb W (ix2 b (lane 3 j)) * Ideal.tanh (k0_pay3 S T c gx hb W (ix2 b (lane 1 j))) := by
  unfold k0_pay4
  exact congrArg (fun z => z * Ideal.tanh (k0_pay3 S T c gx hb W (ix2 b (lane 1 j))))
    (pay2_apply S T gx hb W b (lane 1 j) (lane 3 j) (by rw [lane1_val, lane3_val]; have := j.isLt; omega))

/-! ### Against the recurrence -/

variable (P : Params) (τ : Fin 256) (s : St)
  (hS : ∀ b l, S (ix2 b l) = P.S b l) (hT : ∀ b l, T (ix2 b l) = P.T b l)
  (hgx : ∀ b l, gx (ix2 b l) = (∑ k : Fin 256, P.X τ b k * P.WI k l) + P.BI l)
  (hW0 : ∀ (r l : Fin 1024), (r.val < 256 ∨ 512 ≤ r.val) → W (ix2 r l) = 0)
  (hWH : ∀ (k : Fin 256) (l : Fin 1024), W (ix2 (hidRow k) l) = P.WH k l)
  (hh : ∀ (b : Fin 128) (k : Fin 256), hb (ix2 b (lane 1 k)) = s.1 b k)
  (hc : ∀ (b : Fin 128) (j : Fin 256), c (ix2 b (lane 1 j)) = s.2 b j)

include hS hT hgx hW0 hWH hh in
/-- The body's gate vector is the recurrence's, on every lane. -/
theorem pay1_spec (b : Fin 128) (l : Fin 1024) : k0_pay1 S T gx hb W (ix2 b l) = act P s.1 τ b l := by
  rw [pay1_apply, sum_rows_eq (fun r => hb (ix2 b r) * W (ix2 r l)) (fun r hr => by
    show hb (ix2 b r) * W (ix2 r l) = 0
    rw [hW0 r l hr, mul_zero])]
  unfold act pre
  rw [hgx, hS, hT]
  refine congrArg (fun z => Ideal.tanh ((∑ k : Fin 256, P.X τ b k * P.WI k l) + P.BI l + z) * P.S b l + P.T b l) ?_
  exact Finset.sum_congr rfl fun k _ => by
    show hb (ix2 b (hidRow k)) * W (ix2 (hidRow k) l) = _
    rw [hWH, hidRow_eq_lane, hh]

include hS hT hgx hW0 hWH hh hc in
/-- The body's new cell, on the state's lanes, is the recurrence's. -/
theorem pay3_spec (b : Fin 128) (j : Fin 256) : k0_pay3 S T c gx hb W (ix2 b (lane 1 j)) = cNext P τ s b j := by
  rw [pay3_apply, pay1_spec S T gx hb W P τ s hS hT hgx hW0 hWH hh, pay1_spec S T gx hb W P τ s hS hT hgx hW0 hWH hh,
    pay1_spec S T gx hb W P τ s hS hT hgx hW0 hWH hh, hc]
  rfl

include hS hT hgx hW0 hWH hh hc in
/-- The body's new hidden value, on the state's lanes, is the recurrence's. -/
theorem pay4_spec (b : Fin 128) (j : Fin 256) : k0_pay4 S T c gx hb W (ix2 b (lane 1 j)) = hNext P τ s b j := by
  rw [pay4_apply, pay1_spec S T gx hb W P τ s hS hT hgx hW0 hWH hh,
    pay3_spec S T c gx hb W P τ s hS hT hgx hW0 hWH hh hc]
  rfl

end Step

/-! ## The input projection -/

/-- The chunk's projected inputs at (r, l): the row's features against the input weights, plus the bias. -/
theorem pay9_apply (x0 : Vec Ideal S256x256 .bf16) (x1 : Vec Ideal S256x1024 .bf16) (x3 : Vec Ideal S1x1024 .f32)
    (r : Fin 256) (l : Fin 1024) :
    k0_pay9 x0 x1 x3 (ix2 r l) = (∑ k : Fin 256, x0 (ix2 r k) * x1 (ix2 k l)) + x3 (ix2 (0 : Fin 1) l) := by
  have e1 : matmul dot_S256x256_S256x1024_S256x1024_1_0_0_1_n_n none (shapeCast S256x256 x0 shapeCasts_S256x256_S256x256 : FVec Ideal S256x256 .bf16)
      (shapeCast S256x1024 x1 shapeCasts_S256x1024_S256x1024 : FVec Ideal S256x1024 .bf16) (constant (F := Ideal) S256x1024 .f32 0x00000000#32) (ix2 r l)
        = ∑ k : Fin 256, x0 (ix2 r k) * x1 (ix2 k l) := by
    rw [shapeCast_self, shapeCast_self]; exact matmulX_apply x0 x1 r l
  have e2 : broadcastTo S256x1024 (shapeCast S1x1024 x3 shapeCasts_S1x1024_S1x1024 : FVec Ideal S1x1024 .f32) broadcasts_S1x1024_S256x1024 (ix2 r l)
      = x3 (ix2 (0 : Fin 1) l) := by
    rw [shapeCast_self]
    exact broadcastTo_apply x3 broadcasts_S1x1024_S256x1024 (ix2 r l) (ix2 (0 : Fin 1) l) (by
      intro a
      match a with
      | ⟨0, _⟩ => rfl
      | ⟨1, _⟩ => rfl)
  unfold k0_pay9
  rw [shapeCast_self]
  exact (congrArg (fun z => z + _) e1).trans (congrArg (fun z => _ + z) e2)

end Cert.Bridge

end
-- ==== Proof.RefPieces.lean ====
/-
  What one grid point of the reference's body leaves, read off the pieces its run found: the chunk's projected inputs
  gx are stored whole and read back half by half; step one runs on the carried state (zero at the first point), step
  two on what step one produced; the output block holds step one's hidden rows above step two's, and the carried state
  is step two's.  Stated for every float instance: the arithmetic stays inside the payload terms.
-/
import proofs.«173986_g2000208858419734_pallasbulk_908_7_alg».proof.Proof.Gen.ReferenceIdeal.Frame
import Idealize.ShloMosaic.Lib.Pipeline.Value
import Idealize.ShloMosaic.Lib.ValueIdx
import Idealize.ShloMosaic.Lib.Tactic

noncomputable section

namespace Cert.Bridge

open Idealize.ShloMosaic Idealize.ShloMosaic.TcCoe Idealize.ShloMosaic.ValueIdx Idealize.SL.Sem
open Cert.ReferenceIdeal Cert.ReferenceIdeal.Gen

variable {F : FTy → Type} [FloatOps F]

theorem hz2 : (![0, 0] : Fin 2 → Nat) = fun _ => 0 := funext fun a => by fin_cases a <;> rfl

theorem inbLo : ∀ a : Fin 2, (![0, 0] : Fin 2 → Nat) a + S128x1024.size a ≤ S256x1024.size a := by decide
theorem inbHi : ∀ a : Fin 2, (![128, 0] : Fin 2 → Nat) a + S128x1024.size a ≤ S256x1024.size a := by decide

/-- Rows 0…127 of the chunk's projected inputs: the first step's. -/
def gxLo (x0 : Vec F S256x256 .bf16) (x1 : Vec F S256x1024 .bf16) (x3 : Vec F S1x1024 .f32) : Vec F S128x1024 .f32 :=
  fun j => k0_pay9 x0 x1 x3 ((Rect.unit (s := S256x1024) ![0, 0] S128x1024.size inbLo).idx j)
/-- Rows 128…255: the second step's. -/
def gxHi (x0 : Vec F S256x256 .bf16) (x1 : Vec F S256x1024 .bf16) (x3 : Vec F S1x1024 .f32) : Vec F S128x1024 .f32 :=
  fun j => k0_pay9 x0 x1 x3 ((Rect.unit (s := S256x1024) ![128, 0] S128x1024.size inbHi).idx j)

/-- The two lane vectors of the gate's affine map. -/
abbrev laneS : FVec F S128x1024 .f32 := k0_pay14 (F := F) k0_pay10 k0_pay11 k0_pay12
abbrev laneT : FVec F S128x1024 .f32 := k0_pay15 (F := F) k0_pay10 k0_pay11 k0_pay12

/-- The output block a point leaves: step two's hidden rows stored at rows 128…255 over step one's at rows 0…127. -/
def outBlock (w1 w0 : Vec F S128x1024 .f32) : Vec F S256x1024 .f32 :=
  View.canon [(⟨Rect.unit (s := S256x1024) ![128, 0] S128x1024.size inbHi, w1⟩ : View.Piece (Elt F) S256x1024 .f32),
    ⟨Rect.unit (s := S256x1024) ![0, 0] S128x1024.size inbLo, w0⟩]

theorem embHi (b : Fin 128) (l : Fin 1024) (r : Fin 256) (hr : r.val = 128 + b.val) :
    (Rect.unit (s := S256x1024) ![128, 0] S128x1024.size inbHi).emb (ix2 b l) = ix2 r l :=
  funext fun a => Fin.ext (by
    match a with
    | ⟨0, _⟩ => show 128 + 1 * b.val = r.val; omega
    | ⟨1, _⟩ => show 0 + 1 * l.val = l.val; omega)

theorem embLo (b : Fin 128) (l : Fin 1024) (r : Fin 256) (hr : r.val = b.val) :
    (Rect.unit (s := S256x1024) ![0, 0] S128x1024.size inbLo).emb (ix2 b l) = ix2 r l :=
  funext fun a => Fin.ext (by
    match a with
    | ⟨0, _⟩ => show 0 + 1 * b.val = r.val; omega
    | ⟨1, _⟩ => show 0 + 1 * l.val = l.val; omega)

theorem outBlock_emb_hi (w1 w0 : Vec F S128x1024 .f32) (b : Fin 128) (l : Fin 1024) :
    outBlock w1 w0 ((Rect.unit (s := S256x1024) ![128, 0] S128x1024.size inbHi).emb (ix2 b l)) = w1 (ix2 b l) := by
  unfold outBlock
  exact View.canon_cons_emb (Rect.unit (s := S256x1024) ![128, 0] S128x1024.size inbHi) w1 _ (ix2 b l)

theorem outBlock_emb_lo (w1 w0 : Vec F S128x1024 .f32) (b : Fin 128) (l : Fin 1024) :
    outBlock w1 w0 ((Rect.unit (s := S256x1024) ![0, 0] S128x1024.size inbLo).emb (ix2 b l)) = w0 (ix2 b l) := by
  unfold outBlock
  refine (View.canon_cons_of_not_mem
    (⟨Rect.unit (s := S256x1024) ![128, 0] S128x1024.size inbHi, w1⟩ : View.Piece (Elt F) S256x1024 .f32)
    [(⟨Rect.unit (s := S256x1024) ![0, 0] S128x1024.size inbLo, w0⟩ : View.Piece (Elt F) S256x1024 .f32)] (fun h => ?_)).trans
    (View.canon_cons_emb (Rect.unit (s := S256x1024) ![0, 0] S128x1024.size inbLo) w0 [] (ix2 b l))
  have h0 : (128 : Nat) ≤ 0 + 1 * b.val :=
    ((Rect.mem_set_unit (s := S256x1024) (off := ![128, 0]) (size := S128x1024.size) (inb := inbHi)).mp h 0).1
  have := b.isLt
  omega

/-- Rows 128…255 of the block are the later store's. -/
theorem outBlock_hi (w1 w0 : Vec F S128x1024 .f32) (b : Fin 128) (l : Fin 1024) (r : Fin 256) (hr : r.val = 128 + b.val) :
    outBlock w1 w0 (ix2 r l) = w1 (ix2 b l) :=
  (congrArg (outBlock w1 w0) (embHi b l r hr).symm).trans (outBlock_emb_hi w1 w0 b l)

/-- Rows 0…127 are the earlier store's. -/
theorem outBlock_lo (w1 w0 : Vec F S128x1024 .f32) (b : Fin 128) (l : Fin 1024) (r : Fin 256) (hr : r.val = b.val) :
    outBlock w1 w0 (ix2 r l) = w0 (ix2 b l) :=
  (congrArg (outBlock w1 w0) (embLo b l r hr).symm).trans (outBlock_emb_lo w1 w0 b l)

/-- The carried state's stores cast their value to its own shape. -/
theorem pay5_eq (v44 v47 v66 : FVec F S128x1024 .f32) (v74 : Vec F S128x1024 .f32) (v75 : FVec F S128x1024 .bf16)
    (v76 : Vec F S1024x1024 .bf16) : k0_pay5 v44 v47 v66 v74 v75 v76 = k0_pay4 v44 v47 v66 v74 v75 v76 := by
  unfold k0_pay5; exact shapeCast_self _ _
theorem pay6_eq (v44 v47 v66 : FVec F S128x1024 .f32) (v74 : Vec F S128x1024 .f32) (v75 : FVec F S128x1024 .bf16)
    (v76 : Vec F S1024x1024 .bf16) : k0_pay6 v44 v47 v66 v74 v75 v76 = k0_pay3 v44 v47 v66 v74 v75 v76 := by
  unfold k0_pay6; exact shapeCast_self _ _

/-! ## A point after the first: the state is what the point before left -/

theorem sout_B_0 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : ¬cond0_0 i)
    (x0 : Vec F S256x256 .bf16) (x1 : Vec F S256x1024 .bf16) (x2 : Vec F S1024x1024 .bf16) (x3 : Vec F S1x1024 .f32) (xs0 : Vec F S128x1024 .f32) (xs1 : Vec F S128x1024 .f32) :
    sout0_B_0 c i arg1 harg1 arg2 harg2 arg3 harg3 arg4 harg4 arg5 harg5 arg6 harg6 arg7 harg7 arg8 harg8 hc0 x0 x1 x2 x3 xs0 xs1
      = k0_pay5 laneS laneT (k0_pay18 k0_pay10 k0_pay11 k0_pay12 xs0 xs1 (gxLo x0 x1 x3) x2) (gxHi x0 x1 x3)
          (k0_pay20 k0_pay10 k0_pay11 k0_pay12 xs0 xs1 (gxLo x0 x1 x3) x2) x2 := by
  unfold sout0_B_0
  rw [View.read_writes_eq_canon _ _ _ (scover0_B_0 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero (S := S128x1024) hz2]
  simp only [View.readCov_unit_zero (S := S128x1024) _ hz2, View.readCov_eq_canon', View.canon_unit_zero (S := S256x1024) hz2,
    View.readAt_eq_ld, harg1.read_unread, harg2.read_unread, harg3.read_unread, harg4.read_unread, harg6.read_unread,
    harg7.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

theorem sout_B_1 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : ¬cond0_0 i)
    (x0 : Vec F S256x256 .bf16) (x1 : Vec F S256x1024 .bf16) (x2 : Vec F S1024x1024 .bf16) (x3 : Vec F S1x1024 .f32) (xs0 : Vec F S128x1024 .f32) (xs1 : Vec F S128x1024 .f32) :
    sout0_B_1 c i arg1 harg1 arg2 harg2 arg3 harg3 arg4 harg4 arg5 harg5 arg6 harg6 arg7 harg7 arg8 harg8 hc0 x0 x1 x2 x3 xs0 xs1
      = k0_pay6 laneS laneT (k0_pay18 k0_pay10 k0_pay11 k0_pay12 xs0 xs1 (gxLo x0 x1 x3) x2) (gxHi x0 x1 x3)
          (k0_pay20 k0_pay10 k0_pay11 k0_pay12 xs0 xs1 (gxLo x0 x1 x3) x2) x2 := by
  unfold sout0_B_1
  rw [View.read_writes_eq_canon _ _ _ (scover0_B_1 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero (S := S128x1024) hz2]
  simp only [View.readCov_unit_zero (S := S128x1024) _ hz2, View.readCov_eq_canon', View.canon_unit_zero (S := S256x1024) hz2,
    View.readAt_eq_ld, harg1.read_unread, harg2.read_unread, harg3.read_unread, harg4.read_unread, harg6.read_unread,
    harg7.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

theorem out_B_4 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : ¬cond0_0 i)
    (x0 : Vec F S256x256 .bf16) (x1 : Vec F S256x1024 .bf16) (x2 : Vec F S1024x1024 .bf16) (x3 : Vec F S1x1024 .f32) (xs0 : Vec F S128x1024 .f32) (xs1 : Vec F S128x1024 .f32) :
    out0_B_4 c i arg1 harg1 arg2 harg2 arg3 harg3 arg4 harg4 arg5 harg5 arg6 harg6 arg7 harg7 arg8 harg8 hc0 x0 x1 x2 x3 xs0 xs1
      = outBlock (k0_pay4 laneS laneT (k0_pay18 k0_pay10 k0_pay11 k0_pay12 xs0 xs1 (gxLo x0 x1 x3) x2) (gxHi x0 x1 x3)
          (k0_pay20 k0_pay10 k0_pay11 k0_pay12 xs0 xs1 (gxLo x0 x1 x3) x2) x2)
          (k0_pay19 k0_pay10 k0_pay11 k0_pay12 xs0 xs1 (gxLo x0 x1 x3) x2) := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1)]
  unfold kernelRun0_B
  dsimp only
  sl_unfold_words
  simp only [View.readCov_unit_zero (S := S128x1024) _ hz2, View.readCov_eq_canon', View.canon_unit_zero (S := S256x1024) hz2,
    View.readAt_eq_ld, harg1.read_unread, harg2.read_unread, harg3.read_unread, harg4.read_unread, harg6.read_unread,
    harg7.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

/-! ## The first point: the state is reset to zero first -/

theorem sout_A_0 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : cond0_0 i)
    (x0 : Vec F S256x256 .bf16) (x1 : Vec F S256x1024 .bf16) (x2 : Vec F S1024x1024 .bf16) (x3 : Vec F S1x1024 .f32) :
    sout0_A_0 c i arg1 harg1 arg2 harg2 arg3 harg3 arg4 harg4 arg5 harg5 arg6 harg6 arg7 harg7 arg8 harg8 hc0 x0 x1 x2 x3
      = k0_pay5 laneS laneT (k0_pay18 k0_pay10 k0_pay11 k0_pay12 k0_pay7 k0_pay8 (gxLo x0 x1 x3) x2) (gxHi x0 x1 x3)
          (k0_pay20 k0_pay10 k0_pay11 k0_pay12 k0_pay7 k0_pay8 (gxLo x0 x1 x3) x2) x2 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S128x1024) hz2]
  simp only [View.readCov_unit_zero (S := S128x1024) _ hz2, View.readCov_eq_canon', View.canon_unit_zero (S := S256x1024) hz2,
    View.readAt_eq_ld, harg1.read_unread, harg2.read_unread, harg3.read_unread, harg4.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

theorem sout_A_1 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : cond0_0 i)
    (x0 : Vec F S256x256 .bf16) (x1 : Vec F S256x1024 .bf16) (x2 : Vec F S1024x1024 .bf16) (x3 : Vec F S1x1024 .f32) :
    sout0_A_1 c i arg1 harg1 arg2 harg2 arg3 harg3 arg4 harg4 arg5 harg5 arg6 harg6 arg7 harg7 arg8 harg8 hc0 x0 x1 x2 x3
      = k0_pay6 laneS laneT (k0_pay18 k0_pay10 k0_pay11 k0_pay12 k0_pay7 k0_pay8 (gxLo x0 x1 x3) x2) (gxHi x0 x1 x3)
          (k0_pay20 k0_pay10 k0_pay11 k0_pay12 k0_pay7 k0_pay8 (gxLo x0 x1 x3) x2) x2 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S128x1024) hz2]
  simp only [View.readCov_unit_zero (S := S128x1024) _ hz2, View.readCov_eq_canon', View.canon_unit_zero (S := S256x1024) hz2,
    View.readAt_eq_ld, harg1.read_unread, harg2.read_unread, harg3.read_unread, harg4.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

theorem out_A_4 (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S256x1024 .f32) (harg8 : arg8.IsWhole) (hc0 : cond0_0 i)
    (x0 : Vec F S256x256 .bf16) (x1 : Vec F S256x1024 .bf16) (x2 : Vec F S1024x1024 .bf16) (x3 : Vec F S1x1024 .f32) :
    out0_A_4 c i arg1 harg1 arg2 harg2 arg3 harg3 arg4 harg4 arg5 harg5 arg6 harg6 arg7 harg7 arg8 harg8 hc0 x0 x1 x2 x3
      = outBlock (k0_pay4 laneS laneT (k0_pay18 k0_pay10 k0_pay11 k0_pay12 k0_pay7 k0_pay8 (gxLo x0 x1 x3) x2) (gxHi x0 x1 x3)
          (k0_pay20 k0_pay10 k0_pay11 k0_pay12 k0_pay7 k0_pay8 (gxLo x0 x1 x3) x2) x2)
          (k0_pay19 k0_pay10 k0_pay11 k0_pay12 k0_pay7 k0_pay8 (gxLo x0 x1 x3) x2) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  simp only [View.readCov_unit_zero (S := S128x1024) _ hz2, View.readCov_eq_canon', View.canon_unit_zero (S := S256x1024) hz2,
    View.readAt_eq_ld, harg1.read_unread, harg2.read_unread, harg3.read_unread, harg4.read_unread, View.ld_unit_zero (S := S256x256) hz2, View.ld_unit_zero (S := S256x1024) hz2,
    View.ld_unit_zero (S := S1024x1024) hz2, View.ld_unit_zero (S := S1x1024) hz2, View.ld_unit_zero (S := S128x1024) hz2]
  rfl

end Cert.Bridge

end
-- ==== Proof.RefBlocks.lean ====
/-
  The windows' blocks at a grid point, entry by entry: block n of the flattened input sequence is its rows
  256n … 256n+255 (row 128·s + b of the block is time step 2n+s, batch b), and the packed weights and bias are staged
  whole.  So the projected inputs the body stores are, row by row, the recurrence's input terms.
-/
import proofs.«173986_g2000208858419734_pallasbulk_908_7_alg».proof.Proof.RefStep
import proofs.«173986_g2000208858419734_pallasbulk_908_7_alg».proof.Proof.RefPieces

noncomputable section

namespace Cert.Bridge

open Idealize.ShloMosaic Idealize.ShloMosaic.TcCoe Idealize.ShloMosaic.ValueIdx Idealize.SL.Sem
open Cert.ReferenceIdeal Cert.ReferenceIdeal.Gen Cert.Lstm
open scoped BigOperators

variable (m' : (ℓ : Loc nD τ sig) → Buf (Elt Ideal) ℓ) (c : Dev nD)

/-- The windows' block indices over the grid: the sequence and the output move with the point, the rest stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! The block reads are stated over any contents of the array, and only then read at the region-entry contents. -/

theorem read0 (A : Buf (Elt Ideal) ((c : Thread nD τ).loc (Pipeline.arrRef spec0 0))) (t : Fin cfg0.N) (r k : Fin 256)
    (R : Fin 32768) (hR : R.val = 256 * t.val + r.val) :
    (((cfg0.win 0).blk t).view.read (Elt Ideal) A : Vec Ideal S256x256 .bf16) (ix2 r k)
      = (show (⟨2, ![32768, 256]⟩ : Shape).Idx → EReal from A) (ix2 R k) := by
  obtain ⟨e0, e1, -⟩ := idx_facts t
  rw [View.read_apply]
  show A _ = A _
  refine congrArg A (funext fun a => Fin.ext ?_)
  match a with
  | ⟨0, _⟩ => show win0_0.index t (0 : Fin 2) * 256 + 1 * r.val = R.val; rw [e0, hR]; omega
  | ⟨1, _⟩ => show win0_0.index t (1 : Fin 2) * 256 + 1 * k.val = k.val; rw [e1]; omega

theorem read1 (A : Buf (Elt Ideal) ((c : Thread nD τ).loc (Pipeline.arrRef spec0 1))) (t : Fin cfg0.N) (k : Fin 256) (l : Fin 1024) :
    (((cfg0.win 1).blk t).view.read (Elt Ideal) A : Vec Ideal S256x1024 .bf16) (ix2 k l)
      = (show (⟨2, ![256, 1024]⟩ : Shape).Idx → EReal from A) (ix2 k l) := by
  obtain ⟨-, -, e0, e1, -⟩ := idx_facts t
  rw [View.read_apply]
  show A _ = A _
  refine congrArg A (funext fun a => Fin.ext ?_)
  match a with
  | ⟨0, _⟩ => show win0_1.index t (0 : Fin 2) * 256 + 1 * k.val = k.val; rw [e0]; omega
  | ⟨1, _⟩ => show win0_1.index t (1 : Fin 2) * 1024 + 1 * l.val = l.val; rw [e1]; omega

theorem read2 (A : Buf (Elt Ideal) ((c : Thread nD τ).loc (Pipeline.arrRef spec0 2))) (t : Fin cfg0.N) (r l : Fin 1024) :
    (((cfg0.win 2).blk t).view.read (Elt Ideal) A : Vec Ideal S1024x1024 .bf16) (ix2 r l)
      = (show (⟨2, ![1024, 1024]⟩ : Shape).Idx → EReal from A) (ix2 r l) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1024 + 1 * r.val = r.val; rw [e0]; omega
  | ⟨1, _⟩ => show win0_2.index t (1 : Fin 2) * 1024 + 1 * l.val = l.val; rw [e1]; omega

theorem read3 (A : Buf (Elt Ideal) ((c : Thread nD τ).loc (Pipeline.arrRef spec0 3))) (t : Fin cfg0.N) (l : Fin 1024) :
    (((cfg0.win 3).blk t).view.read (Elt Ideal) A : Vec Ideal S1x1024 .f32) (ix2 (0 : Fin 1) l)
      = (show (⟨2, ![1, 1024]⟩ : Shape).Idx → EReal from A) (ix2 (0 : Fin 1) l) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 1024 + 1 * l.val = l.val; rw [e1]; omega

/-- Row r of the sequence's block at point t is row 256t + r of the flattened sequence. -/
theorem iblk0_apply (t : Fin cfg0.N) (r k : Fin 256) (R : Fin 32768) (hR : R.val = 256 * t.val + r.val) :
    (iblk m' c 0 t : Vec Ideal S256x256 .bf16) (ix2 r k)
      = (show (⟨2, ![32768, 256]⟩ : Shape).Idx → EReal from V m' c main_v3) (ix2 R k) :=
  read0 c (V m' c (Pipeline.arrRef spec0 0)) t r k R hR

/-- The input weights are staged whole. -/
theorem iblk1_apply (t : Fin cfg0.N) (k : Fin 256) (l : Fin 1024) :
    (iblk m' c 1 t : Vec Ideal S256x1024 .bf16) (ix2 k l)
      = (show (⟨2, ![256, 1024]⟩ : Shape).Idx → EReal from V m' c main_v75) (ix2 k l) :=
  read1 c (V m' c (Pipeline.arrRef spec0 1)) t k l

/-- The recurrent weights are staged whole. -/
theorem iblk2_apply (t : Fin cfg0.N) (r l : Fin 1024) :
    (iblk m' c 2 t : Vec Ideal S1024x1024 .bf16) (ix2 r l)
      = (show (⟨2, ![1024, 1024]⟩ : Shape).Idx → EReal from V m' c main_v76) (ix2 r l) :=
  read2 c (V m' c (Pipeline.arrRef spec0 2)) t r l

/-- The bias row is staged whole. -/
theorem iblk3_apply (t : Fin cfg0.N) (l : Fin 1024) :
    (iblk m' c 3 t : Vec Ideal S1x1024 .f32) (ix2 (0 : Fin 1) l)
      = (show (⟨2, ![1, 1024]⟩ : Shape).Idx → EReal from V m' c main_v74) (ix2 (0 : Fin 1) l) :=
  read3 c (V m' c (Pipeline.arrRef spec0 3)) t l

/-! ## The recurrence's parameters, field by field -/

theorem PR_X (u : Fin 256) (b : Fin 128) (k : Fin 256) :
    (PR m' c).X u b k = (show (⟨2, ![32768, 256]⟩ : Shape).Idx → EReal from V m' c main_v3) (ix2 (seqRow u b) k) := by
  dsimp only [PR]
theorem PR_WI (k : Fin 256) (l : Fin 1024) :
    (PR m' c).WI k l = (show (⟨2, ![256, 1024]⟩ : Shape).Idx → EReal from V m' c main_v75) (ix2 k l) := by
  dsimp only [PR]
theorem PR_WH (k : Fin 256) (l : Fin 1024) :
    (PR m' c).WH k l = (show (⟨2, ![1024, 1024]⟩ : Shape).Idx → EReal from V m' c main_v76) (ix2 (hidRow k) l) := by
  dsimp only [PR]
theorem PR_BI (l : Fin 1024) :
    (PR m' c).BI l = (show (⟨2, ![1, 1024]⟩ : Shape).Idx → EReal from V m' c main_v74) (ix2 (0 : Fin 1) l) := by
  dsimp only [PR]
theorem PR_S (b : Fin 128) (l : Fin 1024) :
    (PR m' c).S b l = k0_pay14 (F := Ideal) k0_pay10 k0_pay11 k0_pay12 (ix2 b l) := by
  dsimp only [PR]
theorem PR_T (b : Fin 128) (l : Fin 1024) :
    (PR m' c).T b l = k0_pay15 (F := Ideal) k0_pay10 k0_pay11 k0_pay12 (ix2 b l) := by
  dsimp only [PR]

/-! ## The projected inputs -/

/-- A row of the projected inputs, from the row's features, the weights' column and the bias entry. -/
theorem gx_row (x0 : Vec Ideal S256x256 .bf16) (x1 : Vec Ideal S256x1024 .bf16) (x3 : Vec Ideal S1x1024 .f32)
    (X WI : Fin 256 → EReal) (BI : EReal) (r : Fin 256) (l : Fin 1024)
    (h0 : ∀ k, x0 (ix2 r k) = X k) (h1 : ∀ k, x1 (ix2 k l) = WI k) (h3 : x3 (ix2 (0 : Fin 1) l) = BI) :
    k0_pay9 x0 x1 x3 (ix2 r l) = (∑ k : Fin 256, X k * WI k) + BI := by
  rw [pay9_apply, h3]
  exact congrArg (· + BI) (Finset.sum_congr rfl fun k _ => by rw [h0, h1])

theorem idxLo (b : Fin 128) (l : Fin 1024) (r : Fin 256) (hr : r.val = b.val) :
    (Rect.unit (s := S256x1024) ![0, 0] S128x1024.size inbLo).idx (ix2 b l) = ix2 r l :=
  funext fun a => Fin.ext (by
    match a with
    | ⟨0, _⟩ => show 0 + 1 * b.val = r.val; omega
    | ⟨1, _⟩ => show 0 + 1 * l.val = l.val; omega)

theorem idxHi (b : Fin 128) (l : Fin 1024) (r : Fin 256) (hr : r.val = 128 + b.val) :
    (Rect.unit (s := S256x1024) ![128, 0] S128x1024.size inbHi).idx (ix2 b l) = ix2 r l :=
  funext fun a => Fin.ext (by
    match a with
    | ⟨0, _⟩ => show 128 + 1 * b.val = r.val; omega
    | ⟨1, _⟩ => show 0 + 1 * l.val = l.val; omega)

theorem gxLo_apply (x0 : Vec Ideal S256x256 .bf16) (x1 : Vec Ideal S256x1024 .bf16) (x3 : Vec Ideal S1x1024 .f32)
    (b : Fin 128) (l : Fin 1024) (r : Fin 256) (hr : r.val = b.val) :
    gxLo x0 x1 x3 (ix2 b l) = k0_pay9 x0 x1 x3 (ix2 r l) :=
  congrArg (k0_pay9 x0 x1 x3) (idxLo b l r hr)

theorem gxHi_apply (x0 : Vec Ideal S256x256 .bf16) (x1 : Vec Ideal S256x1024 .bf16) (x3 : Vec Ideal S1x1024 .f32)
    (b : Fin 128) (l : Fin 1024) (r : Fin 256) (hr : r.val = 128 + b.val) :
    gxHi x0 x1 x3 (ix2 b l) = k0_pay9 x0 x1 x3 (ix2 r l) :=
  congrArg (k0_pay9 x0 x1 x3) (idxHi b l r hr)

/-- The projected inputs of the point's first step are the recurrence's input term at time 2t. -/
theorem gxLo_spec (t : Fin cfg0.N) (u : Fin 256) (hu : u.val = 2 * t.val) (b : Fin 128) (l : Fin 1024) :
    gxLo (iblk m' c 0 t) (iblk m' c 1 t) (iblk m' c 3 t) (ix2 b l)
      = (∑ k : Fin 256, (PR m' c).X u b k * (PR m' c).WI k l) + (PR m' c).BI l := by
  have hb := b.isLt
  refine (gxLo_apply (iblk m' c 0 t) (iblk m' c 1 t) (iblk m' c 3 t) b l (⟨b.val, by omega⟩ : Fin 256) rfl).trans ?_
  exact gx_row (iblk m' c 0 t) (iblk m' c 1 t) (iblk m' c 3 t) (fun k => (PR m' c).X u b k) (fun k => (PR m' c).WI k l)
    ((PR m' c).BI l) (⟨b.val, by omega⟩ : Fin 256) l
    (fun k => (iblk0_apply m' c t (⟨b.val, by omega⟩ : Fin 256) k (seqRow u b)
      (by show 128 * u.val + b.val = 256 * t.val + b.val; omega)).trans (PR_X m' c u b k).symm)
    (fun k => (iblk1_apply m' c t k l).trans (PR_WI m' c k l).symm)
    ((iblk3_apply m' c t l).trans (PR_BI m' c l).symm)

/-- The projected inputs of the point's second step are the recurrence's input term at time 2t + 1. -/
theorem gxHi_spec (t : Fin cfg0.N) (u : Fin 256) (hu : u.val = 2 * t.val + 1) (b : Fin 128) (l : Fin 1024) :
    gxHi (iblk m' c 0 t) (iblk m' c 1 t) (iblk m' c 3 t) (ix2 b l)
      = (∑ k : Fin 256, (PR m' c).X u b k * (PR m' c).WI k l) + (PR m' c).BI l := by
  have hb := b.isLt
  refine (gxHi_apply (iblk m' c 0 t) (iblk m' c 1 t) (iblk m' c 3 t) b l (⟨128 + b.val, by omega⟩ : Fin 256) rfl).trans ?_
  exact gx_row (iblk m' c 0 t) (iblk m' c 1 t) (iblk m' c 3 t) (fun k => (PR m' c).X u b k) (fun k => (PR m' c).WI k l)
    ((PR m' c).BI l) (⟨128 + b.val, by omega⟩ : Fin 256) l
    (fun k => (iblk0_apply m' c t (⟨128 + b.val, by omega⟩ : Fin 256) k (seqRow u b)
      (by show 128 * u.val + b.val = 256 * t.val + (128 + b.val); omega)).trans (PR_X m' c u b k).symm)
    (fun k => (iblk1_apply m' c t k l).trans (PR_WI m' c k l).symm)
    ((iblk3_apply m' c t l).trans (PR_BI m' c l).symm)

end Cert.Bridge

end
-- ==== Proof.RefFinal.lean ====
/-
  From the blocks to the packed output array: grid point n writes back rows 256n … 256n+255, so the array ends holding,
  at row R, row R mod 256 of what point R div 256 left in its output block.
-/
import proofs.«173986_g2000208858419734_pallasbulk_908_7_alg».proof.Proof.RefBlocks

noncomputable section

namespace Cert.Bridge

open Idealize.ShloMosaic Idealize.ShloMosaic.TcCoe Idealize.ShloMosaic.ValueIdx Idealize.SL.Sem
open Idealize.ShloMosaic.Pipeline (Dat)
open Cert.ReferenceIdeal Cert.ReferenceIdeal.Gen Cert.Lstm

variable (m' : (ℓ : Loc nD τ sig) → Buf (Elt Ideal) ℓ) (c : Dev nD)

/-- The output block point n leaves (zero past the grid, where it is never read). -/
def blkAt (n : ℕ) : Vec Ideal S256x1024 .f32 :=
  if h : n < cfg0.N then (outsAt0 m' c n h).1 else fun _ => 0

theorem blkAt_eq (n : ℕ) (hn : n < cfg0.N) : blkAt m' c n = (outsAt0 m' c n hn).1 := dif_pos hn

/-- The packed output array, row by row. -/
def packed : S32768x1024.Idx → Elt Ideal .f32 := fun i =>
  blkAt m' c ((i 0).val / 256) (ix2 (⟨(i 0).val % 256, Nat.mod_lt _ (by decide)⟩ : Fin 256) (⟨(i 1).val, idx2_lt1 i⟩ : Fin 1024))

/-- The packed array at an index of point n's block. -/
theorem packed_apply (i : S32768x1024.Idx) (n : ℕ) (hn : n < cfg0.N) (y : S256x1024.Idx)
    (h0 : (i 0).val = 256 * n + (y 0).val) (h1 : (i 1).val = (y 1).val) :
    packed m' c i = (outsAt0 m' c n hn).1 y := by
  have hy0 : (y 0).val < 256 := idx2_lt0 y
  have hq : (i 0).val / 256 = n := by omega
  have hb : blkAt m' c ((i 0).val / 256) = (outsAt0 m' c n hn).1 := by rw [hq]; exact blkAt_eq m' c n hn
  unfold packed
  rw [hb]
  refine congrArg (outsAt0 m' c n hn).1 (funext fun a => Fin.ext ?_)
  match a with
  | ⟨0, _⟩ => show (i 0).val % 256 = (y 0).val; omega
  | ⟨1, _⟩ => exact h1

/-- What point t writes back is its block of the packed array. -/
theorem flushed_eq (t : Fin cfg0.N) :
    (dats m' 0 c).flushed 4 t = ((cfg0.win 4).blk t).view.read (Elt Ideal) (packed m' c) := by
  show (cfg0.win 4).cut (grid0.coords t) ((dats m' 0 c).after 4 t) = _
  rw [after0_4]
  obtain ⟨-, -, -, -, -, -, -, -, e0, e1⟩ := idx_facts t
  funext y
  show (outsAt0 m' c t.val t.isLt).1 y = packed m' c (((cfg0.win 4).blk t).view.emb y)
  refine (packed_apply m' c _ t.val t.isLt y ?_ ?_).symm
  · show win0_4.index t (0 : Fin 2) * 256 + 1 * (y 0).val = 256 * t.val + (y 0).val
    rw [e0]; omega
  · show win0_4.index t (1 : Fin 2) * 1024 + 1 * (y 1).val = (y 1).val
    rw [e1]; omega

/-- An index is in point t's block iff each coordinate is in the block's range. -/
theorem mem_blk4 (t : Fin cfg0.N) (i : S32768x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v77).slice (win0_4.rect t)).set ↔ _
  rw [View.set_slice_whole, Rect.mem_set_unit]
  exact Iff.rfl

/-- The blocks cover the array: row R is in point R div 256's block. -/
theorem covered (i : S32768x1024.Idx) :
    ∃ t : Fin cfg0.N, (cfg0.win 4).flush t = true ∧ i ∈ ((cfg0.win 4).blk t).view.set := by
  have hN : cfg0.N = 128 := N_0
  have hi0 : (i 0).val < 32768 := idx2_lt0 i
  have hi1 : (i 1).val < 1024 := idx2_lt1 i
  refine ⟨⟨(i 0).val / 256, by omega⟩, flush0_4 _, ?_⟩
  obtain ⟨-, -, -, -, -, -, -, -, e0, e1⟩ := idx_facts (⟨(i 0).val / 256, by omega⟩ : Fin cfg0.N)
  rw [mem_blk4]
  intro a
  match a with
  | ⟨0, _⟩ =>
    show win0_4.index _ (0 : Fin 2) * 256 ≤ (i 0).val ∧ (i 0).val < win0_4.index _ (0 : Fin 2) * 256 + 256
    rw [e0]; show (i 0).val / 256 * 256 ≤ (i 0).val ∧ (i 0).val < (i 0).val / 256 * 256 + 256; omega
  | ⟨1, _⟩ =>
    show win0_4.index _ (1 : Fin 2) * 1024 ≤ (i 1).val ∧ (i 1).val < win0_4.index _ (1 : Fin 2) * 1024 + 1024
    rw [e1]; omega

/-- The packed output array after the run. -/
theorem final4 : (dats m' 0 c).arrAt 4 cfg0.N = packed m' c :=
  (dats m' 0 c).arrAt_eq_of_cover 4 (packed m' c) (fun t _ => flushed_eq m' c t) covered

end Cert.Bridge

end
-- ==== Proof.RefTail.lean ====
/-
  After the launch the host reshapes the packed [32768, 1024] output to [256, 128, 1024] and keeps lanes 256…511: entry
  (u, b, j) of the result is row 128·u + b, lane 256 + j of the packed array.
-/
import proofs.«173986_g2000208858419734_pallasbulk_908_7_alg».proof.Proof.RefFinal
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen Cert.Lstm

variable (m' : (ℓ : Loc nD τ sig) → Buf (Elt Ideal) ℓ) (c : Dev nD)

/-- The host lines after the launch, applied to the packed array. -/
theorem tail_eq :
    Pipeline.afterTail₀ cfgs (dats (F := Ideal) m') 0 (V0 m') [hostOps1] c main_v79
      = extractStridedSlice S256x128x256 ![0, 0, 256]
          (shapeCast S256x128x1024 (packed m' c) shapeCasts_S32768x1024_S256x128x1024)
          slices_S256x128x1024_S256x128x256_0_0_256 := by
  unfold Pipeline.afterTail₀
  show StableHlo.after hostOps1 _ (Proc.devRef .tc main_v79) = _
  after_results
  have hw := (Pipeline.withArrays_arr spec0 launch0.win.arr_inj c (V0 m' c)
    (fun w => (dats m' 0 c).arrAt w (cfgs 0).N) 4).trans (final4 m' c)
  rw [hw]
  rfl

/-- The same, with the result buffer's contents as a function of its index. -/
theorem tail_fun :
    (show (⟨3, ![256, 128, 256]⟩ : Shape).Idx → EReal from
        Pipeline.afterTail₀ cfgs (dats (F := Ideal) m') 0 (V0 m') [hostOps1] c main_v79)
      = extractStridedSlice S256x128x256 ![0, 0, 256]
          (shapeCast S256x128x1024 (packed m' c) shapeCasts_S32768x1024_S256x128x1024)
          slices_S256x128x1024_S256x128x256_0_0_256 :=
  tail_eq m' c

/-- The slice of lanes 256…511 at (u, b, j) is its operand at (u, b, 256 + j). -/
theorem slice_apply (Y : S256x128x1024.Idx → Elt Ideal .f32) (u : Fin 256) (b : Fin 128) (j : Fin 256) :
    extractStridedSlice S256x128x256 ![0, 0, 256] Y slices_S256x128x1024_S256x128x256_0_0_256 (ix3 u b j)
      = Y (ix3 u b (lane 1 j)) := by
  unfold extractStridedSlice
  refine congrArg Y (funext fun a => Fin.ext ?_)
  match a with
  | ⟨0, _⟩ => show 0 + u.val = u.val; omega
  | ⟨1, _⟩ => show 0 + b.val = b.val; omega
  | ⟨2, _⟩ => show 256 + j.val = (lane 1 j).val; exact (lane1_val j).symm

/-- The reshape reads (u, b, l) at row 128·u + b, lane l. -/
theorem reshape_apply (G : S32768x1024.Idx → Elt Ideal .f32) (u : Fin 256) (b : Fin 128) (l : Fin 1024) :
    shapeCast S256x128x1024 G shapeCasts_S32768x1024_S256x128x1024 (ix3 u b l) = G (ix2 (seqRow u b) l) :=
  shapeCast_apply G shapeCasts_S32768x1024_S256x128x1024 (ix3 u b l) (ix2 (seqRow u b) l) (by
    rw [Shape.rowMajor_val_two, Shape.rowMajor_val_three]
    show (128 * u.val + b.val) * 1024 + l.val = (u.val * 128 + b.val) * 1024 + l.val
    omega)

/-- The sliced result at (u, b, j) is the packed array at row 128·u + b, lane 256 + j. -/
theorem tail_apply (u : Fin 256) (b : Fin 128) (j : Fin 256) :
    (show (⟨3, ![256, 128, 256]⟩ : Shape).Idx → EReal from
        Pipeline.afterTail₀ cfgs (dats (F := Ideal) m') 0 (V0 m') [hostOps1] c main_v79) (ix3 u b j)
      = packed m' c (ix2 (seqRow u b) (lane 1 j)) := by
  rw [tail_fun]
  exact (slice_apply (shapeCast S256x128x1024 (packed m' c) shapeCasts_S32768x1024_S256x128x1024) u b j).trans
    (reshape_apply (packed m' c) u b (lane 1 j))

end Cert.Bridge

end
-- ==== Proof.RefPoint.lean ====
/-
  One grid point of the reference's body is two steps of the recurrence: from a carried state that agrees with the
  recurrence's on lanes 256…511, step one (on rows 0…127 of the projected inputs) gives the next state there, and step
  two (on rows 128…255, from step one's results) the state after.  The zero state the first point stores is the
  recurrence's start.
-/
import proofs.«173986_g2000208858419734_pallasbulk_908_7_alg».proof.Proof.RefStep

noncomputable section

namespace Cert.Bridge

open Idealize.ShloMosaic Idealize.ShloMosaic.ValueIdx
open Cert.ReferenceIdeal Cert.ReferenceIdeal.Gen Cert.Lstm
open scoped BigOperators

section Point

variable (p10 : IVec S128x1024 32) (p11 : IVec S128x1024 1) (p12 : IVec S128x1024 32)
  (xs0 xs1 gx0 gx1 : Vec Ideal S128x1024 .f32) (W : Vec Ideal S1024x1024 .bf16)
  (P : Params) (u0 u1 : Fin 256) (s : St)
  (hS : ∀ b l, k0_pay14 (F := Ideal) p10 p11 p12 (ix2 b l) = P.S b l)
  (hT : ∀ b l, k0_pay15 (F := Ideal) p10 p11 p12 (ix2 b l) = P.T b l)
  (hgx0 : ∀ b l, gx0 (ix2 b l) = (∑ k : Fin 256, P.X u0 b k * P.WI k l) + P.BI l)
  (hgx1 : ∀ b l, gx1 (ix2 b l) = (∑ k : Fin 256, P.X u1 b k * P.WI k l) + P.BI l)
  (hW0 : ∀ (r l : Fin 1024), (r.val < 256 ∨ 512 ≤ r.val) → W (ix2 r l) = 0)
  (hWH : ∀ (k : Fin 256) (l : Fin 1024), W (ix2 (hidRow k) l) = P.WH k l)
  (hh : ∀ (b : Fin 128) (k : Fin 256), xs0 (ix2 b (lane 1 k)) = s.1 b k)
  (hc : ∀ (b : Fin 128) (j : Fin 256), xs1 (ix2 b (lane 1 j)) = s.2 b j)

include hS hT hgx0 hW0 hWH hh hc in
/-- Step one's hidden value on the state's lanes. -/
theorem point_h1 (b : Fin 128) (j : Fin 256) :
    k0_pay19 p10 p11 p12 xs0 xs1 gx0 W (ix2 b (lane 1 j)) = hNext P u0 s b j := by
  show k0_pay4 (k0_pay14 (F := Ideal) p10 p11 p12) (k0_pay15 (F := Ideal) p10 p11 p12) xs1 gx0
    (truncf .bf16 xs0 bitsLt_bf16_f32) W (ix2 b (lane 1 j)) = _
  exact pay4_spec (k0_pay14 (F := Ideal) p10 p11 p12) (k0_pay15 (F := Ideal) p10 p11 p12) xs1 gx0
    (truncf .bf16 xs0 bitsLt_bf16_f32) W P u0 s hS hT hgx0 hW0 hWH hh hc b j

include hS hT hgx0 hW0 hWH hh hc in
/-- Step one's cell on the state's lanes. -/
theorem point_c1 (b : Fin 128) (j : Fin 256) :
    k0_pay18 p10 p11 p12 xs0 xs1 gx0 W (ix2 b (lane 1 j)) = cNext P u0 s b j := by
  show k0_pay3 (k0_pay14 (F := Ideal) p10 p11 p12) (k0_pay15 (F := Ideal) p10 p11 p12) xs1 gx0
    (truncf .bf16 xs0 bitsLt_bf16_f32) W (ix2 b (lane 1 j)) = _
  exact pay3_spec (k0_pay14 (F := Ideal) p10 p11 p12) (k0_pay15 (F := Ideal) p10 p11 p12) xs1 gx0
    (truncf .bf16 xs0 bitsLt_bf16_f32) W P u0 s hS hT hgx0 hW0 hWH hh hc b j

include hS hT hgx0 hgx1 hW0 hWH hh hc in
/-- Step two's hidden value on the state's lanes. -/
theorem point_h2 (b : Fin 128) (j : Fin 256) :
    k0_pay4 (k0_pay14 (F := Ideal) p10 p11 p12) (k0_pay15 (F := Ideal) p10 p11 p12) (k0_pay18 p10 p11 p12 xs0 xs1 gx0 W) gx1
      (k0_pay20 p10 p11 p12 xs0 xs1 gx0 W) W (ix2 b (lane 1 j)) = hNext P u1 (step P u0 s) b j :=
  pay4_spec (k0_pay14 (F := Ideal) p10 p11 p12) (k0_pay15 (F := Ideal) p10 p11 p12) (k0_pay18 p10 p11 p12 xs0 xs1 gx0 W) gx1
    (k0_pay20 p10 p11 p12 xs0 xs1 gx0 W) W P u1 (step P u0 s) hS hT hgx1 hW0 hWH
    (fun b k => point_h1 p10 p11 p12 xs0 xs1 gx0 W P u0 s hS hT hgx0 hW0 hWH hh hc b k)
    (fun b k => point_c1 p10 p11 p12 xs0 xs1 gx0 W P u0 s hS hT hgx0 hW0 hWH hh hc b k) b j

include hS hT hgx0 hgx1 hW0 hWH hh hc in
/-- Step two's cell on the state's lanes. -/
theorem point_c2 (b : Fin 128) (j : Fin 256) :
    k0_pay3 (k0_pay14 (F := Ideal) p10 p11 p12) (k0_pay15 (F := Ideal) p10 p11 p12) (k0_pay18 p10 p11 p12 xs0 xs1 gx0 W) gx1
      (k0_pay20 p10 p11 p12 xs0 xs1 gx0 W) W (ix2 b (lane 1 j)) = cNext P u1 (step P u0 s) b j :=
  pay3_spec (k0_pay14 (F := Ideal) p10 p11 p12) (k0_pay15 (F := Ideal) p10 p11 p12) (k0_pay18 p10 p11 p12 xs0 xs1 gx0 W) gx1
    (k0_pay20 p10 p11 p12 xs0 xs1 gx0 W) W P u1 (step P u0 s) hS hT hgx1 hW0 hWH
    (fun b k => point_h1 p10 p11 p12 xs0 xs1 gx0 W P u0 s hS hT hgx0 hW0 hWH hh hc b k)
    (fun b k => point_c1 p10 p11 p12 xs0 xs1 gx0 W P u0 s hS hT hgx0 hW0 hWH hh hc b k) b j

end Point

/-- The state the first point stores is zero everywhere. -/
theorem pay7_apply (i : S128x1024.Idx) : k0_pay7 (F := Ideal) i = 0 := by
  unfold k0_pay7
  rw [shapeCast_self]
  exact Ideal.ofBits_zero_f32
theorem pay8_apply (i : S128x1024.Idx) : k0_pay8 (F := Ideal) i = 0 := by
  unfold k0_pay8
  rw [shapeCast_self]
  exact Ideal.ofBits_zero_f32

/-- One grid point, from a carried state that agrees with the recurrence's after N2 steps on the state's lanes: step
    one's hidden rows are the output at time N2, step two's the output at time N2 + 1 and the next carried hidden state,
    and step two's cell rows the next carried cell state. -/
theorem point_all (p10 : IVec S128x1024 32) (p11 : IVec S128x1024 1) (p12 : IVec S128x1024 32)
    (xs0 xs1 gx0 gx1 : Vec Ideal S128x1024 .f32) (W : Vec Ideal S1024x1024 .bf16)
    (P : Params) (N2 : ℕ) (u0 u1 : Fin 256) (hu0 : u0.val = N2) (hu1 : u1.val = N2 + 1)
    (hS : ∀ b l, k0_pay14 (F := Ideal) p10 p11 p12 (ix2 b l) = P.S b l)
    (hT : ∀ b l, k0_pay15 (F := Ideal) p10 p11 p12 (ix2 b l) = P.T b l)
    (hgx0 : ∀ b l, gx0 (ix2 b l) = (∑ k : Fin 256, P.X u0 b k * P.WI k l) + P.BI l)
    (hgx1 : ∀ b l, gx1 (ix2 b l) = (∑ k : Fin 256, P.X u1 b k * P.WI k l) + P.BI l)
    (hW0 : ∀ (r l : Fin 1024), (r.val < 256 ∨ 512 ≤ r.val) → W (ix2 r l) = 0)
    (hWH : ∀ (k : Fin 256) (l : Fin 1024), W (ix2 (hidRow k) l) = P.WH k l)
    (hh : ∀ (b : Fin 128) (k : Fin 256), xs0 (ix2 b (lane 1 k)) = (st P N2).1 b k)
    (hc : ∀ (b : Fin 128) (j : Fin 256), xs1 (ix2 b (lane 1 j)) = (st P N2).2 b j) :
    (∀ (b : Fin 128) (j : Fin 256), k0_pay19 p10 p11 p12 xs0 xs1 gx0 W (ix2 b (lane 1 j)) = out P u0 b j)
    ∧ (∀ (b : Fin 128) (j : Fin 256),
        k0_pay4 (k0_pay14 (F := Ideal) p10 p11 p12) (k0_pay15 (F := Ideal) p10 p11 p12) (k0_pay18 p10 p11 p12 xs0 xs1 gx0 W) gx1
          (k0_pay20 p10 p11 p12 xs0 xs1 gx0 W) W (ix2 b (lane 1 j)) = out P u1 b j)
    ∧ (∀ (b : Fin 128) (j : Fin 256),
        k0_pay4 (k0_pay14 (F := Ideal) p10 p11 p12) (k0_pay15 (F := Ideal) p10 p11 p12) (k0_pay18 p10 p11 p12 xs0 xs1 gx0 W) gx1
          (k0_pay20 p10 p11 p12 xs0 xs1 gx0 W) W (ix2 b (lane 1 j)) = (st P (N2 + 2)).1 b j)
    ∧ (∀ (b : Fin 128) (j : Fin 256),
        k0_pay3 (k0_pay14 (F := Ideal) p10 p11 p12) (k0_pay15 (F := Ideal) p10 p11 p12) (k0_pay18 p10 p11 p12 xs0 xs1 gx0 W) gx1
          (k0_pay20 p10 p11 p12 xs0 xs1 gx0 W) W (ix2 b (lane 1 j)) = (st P (N2 + 2)).2 b j) := by
  have e1 : st P (N2 + 1) = step P u0 (st P N2) := by rw [← hu0]; exact st_succ P u0
  have e2 : st P (N2 + 2) = step P u1 (step P u0 (st P N2)) := by
    rw [← e1, show N2 + 2 = N2 + 1 + 1 from rfl, ← hu1]; exact st_succ P u1
  have o0 : ∀ b j, out P u0 b j = hNext P u0 (st P N2) b j := fun b j => by
    show (st P (u0.val + 1)).1 b j = _
    rw [hu0, e1]; rfl
  have o1 : ∀ b j, out P u1 b j = hNext P u1 (step P u0 (st P N2)) b j := fun b j => by
    show (st P (u1.val + 1)).1 b j = _
    rw [hu1, show N2 + 1 + 1 = N2 + 2 from rfl, e2]; rfl
  refine ⟨fun b j => ?_, fun b j => ?_, fun b j => ?_, fun b j => ?_⟩
  · rw [o0]; exact point_h1 p10 p11 p12 xs0 xs1 gx0 W P u0 (st P N2) hS hT hgx0 hW0 hWH hh hc b j
  · rw [o1]; exact point_h2 p10 p11 p12 xs0 xs1 gx0 gx1 W P u0 u1 (st P N2) hS hT hgx0 hgx1 hW0 hWH hh hc b j
  · rw [e2]; exact point_h2 p10 p11 p12 xs0 xs1 gx0 gx1 W P u0 u1 (st P N2) hS hT hgx0 hgx1 hW0 hWH hh hc b j
  · rw [e2]; exact point_c2 p10 p11 p12 xs0 xs1 gx0 gx1 W P u0 u1 (st P N2) hS hT hgx0 hgx1 hW0 hWH hh hc b j

end Cert.Bridge

end
-- ==== Proof.RefInv.lean ====
/-
  What every grid point leaves, by induction on the point: on lanes 256…511 the carried hidden and cell states after
  point n are the recurrence's state after 2n + 2 steps, and rows 128·s + b of the point's output block hold, on those
  lanes, the recurrence's output at time 2n + s.  Nothing is said of the other lanes: the recurrent weights vanish on
  their rows, so they never reach a later step.
-/
import proofs.«173986_g2000208858419734_pallasbulk_908_7_alg».proof.Proof.RefBlocks
import proofs.«173986_g2000208858419734_pallasbulk_908_7_alg».proof.Proof.RefPoint

noncomputable section

namespace Cert.Bridge

open Idealize.ShloMosaic Idealize.ShloMosaic.TcCoe Idealize.ShloMosaic.ValueIdx Idealize.SL.Sem
open Cert.ReferenceIdeal Cert.ReferenceIdeal.Gen Cert.Lstm
open scoped BigOperators

variable (m' : (ℓ : Loc nD τ sig) → Buf (Elt Ideal) ℓ) (c : Dev nD)

/-- Step one's hidden rows at point t, from the carried state (xs0, xs1). -/
abbrev ptH1 (t : Fin cfg0.N) (xs0 xs1 : Vec Ideal S128x1024 .f32) : Vec Ideal S128x1024 .f32 :=
  k0_pay19 k0_pay10 k0_pay11 k0_pay12 xs0 xs1 (gxLo (iblk m' c 0 t) (iblk m' c 1 t) (iblk m' c 3 t)) (iblk m' c 2 t)
/-- Step two's hidden rows. -/
abbrev ptH2 (t : Fin cfg0.N) (xs0 xs1 : Vec Ideal S128x1024 .f32) : Vec Ideal S128x1024 .f32 :=
  k0_pay4 (k0_pay14 (F := Ideal) k0_pay10 k0_pay11 k0_pay12) (k0_pay15 (F := Ideal) k0_pay10 k0_pay11 k0_pay12)
    (k0_pay18 k0_pay10 k0_pay11 k0_pay12 xs0 xs1 (gxLo (iblk m' c 0 t) (iblk m' c 1 t) (iblk m' c 3 t)) (iblk m' c 2 t))
    (gxHi (iblk m' c 0 t) (iblk m' c 1 t) (iblk m' c 3 t))
    (k0_pay20 k0_pay10 k0_pay11 k0_pay12 xs0 xs1 (gxLo (iblk m' c 0 t) (iblk m' c 1 t) (iblk m' c 3 t)) (iblk m' c 2 t))
    (iblk m' c 2 t)
/-- Step two's cell rows. -/
abbrev ptC2 (t : Fin cfg0.N) (xs0 xs1 : Vec Ideal S128x1024 .f32) : Vec Ideal S128x1024 .f32 :=
  k0_pay3 (k0_pay14 (F := Ideal) k0_pay10 k0_pay11 k0_pay12) (k0_pay15 (F := Ideal) k0_pay10 k0_pay11 k0_pay12)
    (k0_pay18 k0_pay10 k0_pay11 k0_pay12 xs0 xs1 (gxLo (iblk m' c 0 t) (iblk m' c 1 t) (iblk m' c 3 t)) (iblk m' c 2 t))
    (gxHi (iblk m' c 0 t) (iblk m' c 1 t) (iblk m' c 3 t))
    (k0_pay20 k0_pay10 k0_pay11 k0_pay12 xs0 xs1 (gxLo (iblk m' c 0 t) (iblk m' c 1 t) (iblk m' c 3 t)) (iblk m' c 2 t))
    (iblk m' c 2 t)

/-- The zero state. -/
abbrev zeroH : Vec Ideal S128x1024 .f32 := k0_pay7 (F := Ideal)
abbrev zeroC : Vec Ideal S128x1024 .f32 := k0_pay8 (F := Ideal)

/-- The first point: from the zero state. -/
theorem outs_A (t : Fin cfg0.N) (h0 : t.val % 128 = 0) :
    (outsAt0 m' c t.val t.isLt).1 = outBlock (F := Ideal) (ptH2 m' c t zeroH zeroC) (ptH1 m' c t zeroH zeroC)
    ∧ (outsAt0 m' c t.val t.isLt).2.1 = ptH2 m' c t zeroH zeroC
    ∧ (outsAt0 m' c t.val t.isLt).2.2 = ptC2 m' c t zeroH zeroC := by
  rw [outsAt0_A m' c t h0]
  dsimp only
  exact ⟨out_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m' c 0 t) (iblk m' c 1 t) (iblk m' c 2 t) (iblk m' c 3 t),
    (sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m' c 0 t) (iblk m' c 1 t) (iblk m' c 2 t) (iblk m' c 3 t)).trans (pay5_eq _ _ _ _ _ _),
    (sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m' c 0 t) (iblk m' c 1 t) (iblk m' c 2 t) (iblk m' c 3 t)).trans (pay6_eq _ _ _ _ _ _)⟩

/-- A later point: from what the point before left. -/
theorem outs_B (t : Fin cfg0.N) (h0 : ¬t.val % 128 = 0) :
    (outsAt0 m' c t.val t.isLt).1 = outBlock (F := Ideal) (ptH2 m' c t (outsAt0 m' c (t.val - 1) (Nat.lt_of_le_of_lt (Nat.sub_le _ _) t.isLt)).2.1 (outsAt0 m' c (t.val - 1) (Nat.lt_of_le_of_lt (Nat.sub_le _ _) t.isLt)).2.2) (ptH1 m' c t (outsAt0 m' c (t.val - 1) (Nat.lt_of_le_of_lt (Nat.sub_le _ _) t.isLt)).2.1 (outsAt0 m' c (t.val - 1) (Nat.lt_of_le_of_lt (Nat.sub_le _ _) t.isLt)).2.2)
    ∧ (outsAt0 m' c t.val t.isLt).2.1 = ptH2 m' c t (outsAt0 m' c (t.val - 1) (Nat.lt_of_le_of_lt (Nat.sub_le _ _) t.isLt)).2.1 (outsAt0 m' c (t.val - 1) (Nat.lt_of_le_of_lt (Nat.sub_le _ _) t.isLt)).2.2
    ∧ (outsAt0 m' c t.val t.isLt).2.2 = ptC2 m' c t (outsAt0 m' c (t.val - 1) (Nat.lt_of_le_of_lt (Nat.sub_le _ _) t.isLt)).2.1 (outsAt0 m' c (t.val - 1) (Nat.lt_of_le_of_lt (Nat.sub_le _ _) t.isLt)).2.2 := by
  rw [outsAt0_B m' c t h0]
  dsimp only
  exact ⟨out_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m' c 0 t) (iblk m' c 1 t) (iblk m' c 2 t) (iblk m' c 3 t) (outsAt0 m' c (t.val - 1) (Nat.lt_of_le_of_lt (Nat.sub_le _ _) t.isLt)).2.1 (outsAt0 m' c (t.val - 1) (Nat.lt_of_le_of_lt (Nat.sub_le _ _) t.isLt)).2.2,
    (sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m' c 0 t) (iblk m' c 1 t) (iblk m' c 2 t) (iblk m' c 3 t) (outsAt0 m' c (t.val - 1) (Nat.lt_of_le_of_lt (Nat.sub_le _ _) t.isLt)).2.1 (outsAt0 m' c (t.val - 1) (Nat.lt_of_le_of_lt (Nat.sub_le _ _) t.isLt)).2.2).trans (pay5_eq _ _ _ _ _ _),
    (sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m' c 0 t) (iblk m' c 1 t) (iblk m' c 2 t) (iblk m' c 3 t) (outsAt0 m' c (t.val - 1) (Nat.lt_of_le_of_lt (Nat.sub_le _ _) t.isLt)).2.1 (outsAt0 m' c (t.val - 1) (Nat.lt_of_le_of_lt (Nat.sub_le _ _) t.isLt)).2.2).trans (pay6_eq _ _ _ _ _ _)⟩

variable (hz : WhhZeroRows m' c)

include hz in
/-- One point is two steps of the recurrence, on the state's lanes. -/
theorem point_spec (t : Fin cfg0.N) (u0 u1 : Fin 256) (hu0 : u0.val = 2 * t.val) (hu1 : u1.val = 2 * t.val + 1)
    (xs0 xs1 : Vec Ideal S128x1024 .f32)
    (hh : ∀ (b : Fin 128) (k : Fin 256), xs0 (ix2 b (lane 1 k)) = (st (PR m' c) (2 * t.val)).1 b k)
    (hc : ∀ (b : Fin 128) (j : Fin 256), xs1 (ix2 b (lane 1 j)) = (st (PR m' c) (2 * t.val)).2 b j) :
    (∀ (b : Fin 128) (j : Fin 256), ptH1 m' c t xs0 xs1 (ix2 b (lane 1 j)) = out (PR m' c) u0 b j)
    ∧ (∀ (b : Fin 128) (j : Fin 256), ptH2 m' c t xs0 xs1 (ix2 b (lane 1 j)) = out (PR m' c) u1 b j)
    ∧ (∀ (b : Fin 128) (j : Fin 256), ptH2 m' c t xs0 xs1 (ix2 b (lane 1 j)) = (st (PR m' c) (2 * t.val + 2)).1 b j)
    ∧ (∀ (b : Fin 128) (j : Fin 256), ptC2 m' c t xs0 xs1 (ix2 b (lane 1 j)) = (st (PR m' c) (2 * t.val + 2)).2 b j) :=
  point_all k0_pay10 k0_pay11 k0_pay12 xs0 xs1 (gxLo (iblk m' c 0 t) (iblk m' c 1 t) (iblk m' c 3 t))
    (gxHi (iblk m' c 0 t) (iblk m' c 1 t) (iblk m' c 3 t)) (iblk m' c 2 t) (PR m' c) (2 * t.val) u0 u1 hu0 hu1
    (fun b l => (PR_S m' c b l).symm) (fun b l => (PR_T m' c b l).symm) (gxLo_spec m' c t u0 hu0) (gxHi_spec m' c t u1 hu1)
    (fun r l h => (iblk2_apply m' c t r l).trans (hz r l h))
    (fun k l => (iblk2_apply m' c t (hidRow k) l).trans (PR_WH m' c k l).symm) hh hc

/-- The statement carried from point to point. -/
def Inv (n : ℕ) (hn : n < cfg0.N) : Prop :=
  (∀ (b : Fin 128) (k : Fin 256), (outsAt0 m' c n hn).2.1 (ix2 b (lane 1 k)) = (st (PR m' c) (2 * n + 2)).1 b k)
  ∧ (∀ (b : Fin 128) (j : Fin 256), (outsAt0 m' c n hn).2.2 (ix2 b (lane 1 j)) = (st (PR m' c) (2 * n + 2)).2 b j)
  ∧ (∀ (b : Fin 128) (j : Fin 256) (r : Fin 256), r.val = b.val → ∀ u : Fin 256, u.val = 2 * n →
      (outsAt0 m' c n hn).1 (ix2 r (lane 1 j)) = out (PR m' c) u b j)
  ∧ (∀ (b : Fin 128) (j : Fin 256) (r : Fin 256), r.val = 128 + b.val → ∀ u : Fin 256, u.val = 2 * n + 1 →
      (outsAt0 m' c n hn).1 (ix2 r (lane 1 j)) = out (PR m' c) u b j)

include hz in
/-- From a carried state that agrees with the recurrence's after 2n steps, point n leaves the invariant. -/
theorem inv_of_point (t : Fin cfg0.N) (xs0 xs1 : Vec Ideal S128x1024 .f32)
    (e1 : (outsAt0 m' c t.val t.isLt).1 = outBlock (F := Ideal) (ptH2 m' c t xs0 xs1) (ptH1 m' c t xs0 xs1))
    (e2 : (outsAt0 m' c t.val t.isLt).2.1 = ptH2 m' c t xs0 xs1)
    (e3 : (outsAt0 m' c t.val t.isLt).2.2 = ptC2 m' c t xs0 xs1)
    (hh : ∀ (b : Fin 128) (k : Fin 256), xs0 (ix2 b (lane 1 k)) = (st (PR m' c) (2 * t.val)).1 b k)
    (hc : ∀ (b : Fin 128) (j : Fin 256), xs1 (ix2 b (lane 1 j)) = (st (PR m' c) (2 * t.val)).2 b j) :
    Inv m' c t.val t.isLt := by
  have hN : cfg0.N = 128 := N_0
  have ht := t.isLt
  have l0 : 2 * t.val < 256 := by omega
  have l1 : 2 * t.val + 1 < 256 := by omega
  have ps := fun (u0 u1 : Fin 256) (h0 : u0.val = 2 * t.val) (h1 : u1.val = 2 * t.val + 1) =>
    point_spec m' c hz t u0 u1 h0 h1 xs0 xs1 hh hc
  unfold Inv
  refine ⟨fun b k => ?_, fun b j => ?_, fun b j r hr u hu => ?_, fun b j r hr u hu => ?_⟩
  · exact (congrFun e2 (ix2 b (lane 1 k))).trans ((ps ⟨2 * t.val, l0⟩ ⟨2 * t.val + 1, l1⟩ rfl rfl).2.2.1 b k)
  · exact (congrFun e3 (ix2 b (lane 1 j))).trans ((ps ⟨2 * t.val, l0⟩ ⟨2 * t.val + 1, l1⟩ rfl rfl).2.2.2 b j)
  · exact (congrFun e1 (ix2 r (lane 1 j))).trans
      ((outBlock_lo (F := Ideal) (ptH2 m' c t xs0 xs1) (ptH1 m' c t xs0 xs1) b (lane 1 j) r hr).trans
        ((ps u ⟨2 * t.val + 1, l1⟩ hu rfl).1 b j))
  · exact (congrFun e1 (ix2 r (lane 1 j))).trans
      ((outBlock_hi (F := Ideal) (ptH2 m' c t xs0 xs1) (ptH1 m' c t xs0 xs1) b (lane 1 j) r hr).trans
        ((ps ⟨2 * t.val, l0⟩ u rfl hu).2.1 b j))

include hz in
/-- The invariant at every point. -/
theorem inv_all : ∀ (n : ℕ) (hn : n < cfg0.N), Inv m' c n hn
  | 0, hn =>
    inv_of_point m' c hz ⟨0, hn⟩ zeroH zeroC (outs_A m' c ⟨0, hn⟩ rfl).1 (outs_A m' c ⟨0, hn⟩ rfl).2.1
      (outs_A m' c ⟨0, hn⟩ rfl).2.2 (fun b k => pay7_apply (ix2 b (lane 1 k))) (fun b j => pay8_apply (ix2 b (lane 1 j)))
  | n + 1, hn => by
    have hN : cfg0.N = 128 := N_0
    have ih := inv_all n (Nat.lt_of_succ_lt hn)
    have hB : ¬(⟨n + 1, hn⟩ : Fin cfg0.N).val % 128 = 0 := by
      show ¬(n + 1) % 128 = 0
      omega
    have oB := outs_B m' c ⟨n + 1, hn⟩ hB
    exact inv_of_point m' c hz ⟨n + 1, hn⟩ _ _ oB.1 oB.2.1 oB.2.2 (fun b k => ih.1 b k) (fun b j => ih.2.1 b j)

end Cert.Bridge

end
-- ==== Proof.RefOut.lean ====
/-
  The reference's result is the recurrence's output: entry (u, b, j) is row 128·u + b, lane 256 + j of the packed
  array, which point u div 2 wrote from its step u mod 2.
-/
import proofs.«173986_g2000208858419734_pallasbulk_908_7_alg».proof.Proof.RefTail
import proofs.«173986_g2000208858419734_pallasbulk_908_7_alg».proof.Proof.RefInv

noncomputable section

namespace Cert.Bridge

open Idealize.ShloMosaic Idealize.ShloMosaic.TcCoe Idealize.ShloMosaic.ValueIdx Idealize.SL.Sem
open Cert.ReferenceIdeal Cert.ReferenceIdeal.Gen Cert.Lstm

variable (m' : (ℓ : Loc nD τ sig) → Buf (Elt Ideal) ℓ) (c : Dev nD)

/-- The reference's sliced result is the recurrence's output. -/
theorem reference_out (hz : WhhZeroRows m' c) (u : Fin 256) (b : Fin 128) (j : Fin 256) :
    (show (⟨3, ![256, 128, 256]⟩ : Shape).Idx → EReal from
        Pipeline.afterTail₀ cfgs (dats (F := Ideal) m') 0 (V0 m') [hostOps1] c main_v79) (ix3 u b j)
      = out (PR m' c) u b j := by
  refine (tail_apply m' c u b j).trans ?_
  have hN : cfg0.N = 128 := N_0
  have hu := u.isLt
  have hb := b.isLt
  have hn : u.val / 2 < cfg0.N := by omega
  have inv := inv_all m' c hz (u.val / 2) hn
  by_cases hpar : u.val % 2 = 0
  · refine (packed_apply m' c (ix2 (seqRow u b) (lane 1 j)) (u.val / 2) hn
      (ix2 (⟨b.val, by omega⟩ : Fin 256) (lane 1 j)) ?_ rfl).trans ?_
    · show 128 * u.val + b.val = 256 * (u.val / 2) + b.val
      omega
    · exact inv.2.2.1 b j (⟨b.val, by omega⟩ : Fin 256) rfl u (by omega)
  · refine (packed_apply m' c (ix2 (seqRow u b) (lane 1 j)) (u.val / 2) hn
      (ix2 (⟨128 + b.val, by omega⟩ : Fin 256) (lane 1 j)) ?_ rfl).trans ?_
    · show 128 * u.val + b.val = 256 * (u.val / 2) + (128 + b.val)
      omega
    · exact inv.2.2.2 b j (⟨128 + b.val, by omega⟩ : Fin 256) rfl u (by omega)

end Cert.Bridge

end
-- ==== Proof.RefValue.lean ====
/-
  The reference's sliced result is the recurrence's output at the reference's parameters: grid point n writes rows
  256n … 256n+255 of the packed output, the hidden states of steps 2n and 2n+1 in lanes 256…511; the state it carries
  agrees with the recurrence's on those lanes, and the other lanes never matter because the recurrent weights vanish on
  their rows; the final reshape and slice pick lanes 256…511 of row 128·τ + b.
-/
import proofs.«173986_g2000208858419734_pallasbulk_908_7_alg».proof.Proof.Gen.ReferenceIdeal.Frame
import proofs.«173986_g2000208858419734_pallasbulk_908_7_alg».proof.Proof.ParamsR
import proofs.«173986_g2000208858419734_pallasbulk_908_7_alg».proof.Proof.RefOut

noncomputable section

namespace Cert.Bridge

open Idealize.ShloMosaic Idealize.ShloMosaic.TcCoe Idealize.ShloMosaic.ValueIdx Idealize.SL.Sem

theorem reference_final (m' : (ℓ : Loc Cert.ReferenceIdeal.nD Cert.ReferenceIdeal.τ Cert.ReferenceIdeal.sig) → Buf (Elt Ideal) ℓ) (c : Dev Cert.ReferenceIdeal.nD) (hz : WhhZeroRows m' c) (τ : Fin 256) (b : Fin 128) (j : Fin 256) :
    (show (⟨3, ![256, 128, 256]⟩ : Shape).Idx → EReal from
        Pipeline.afterTail₀ Cert.ReferenceIdeal.cfgs (Cert.ReferenceIdeal.Gen.dats (F := Ideal) m') 0 (Cert.ReferenceIdeal.Gen.V0 m') [Cert.ReferenceIdeal.Gen.hostOps1] c Cert.ReferenceIdeal.main_v79) (ix3 τ b j)
      = Cert.Lstm.out (PR m' c) τ b j :=
  reference_out m' c hz τ b j

end Cert.Bridge

end
-- ==== Proof.HostLanes.lean ====
/-
  The two lane vectors.  Both bodies compute them from the lane number alone, by the same chain of integer operations
  (the lane number floor-divided by 256, compared with 2) followed by the same selection between two constants, so the
  two terms are one term: the lane arithmetic is never evaluated.
-/
import proofs.«173986_g2000208858419734_pallasbulk_908_7_alg».proof.Proof.ParamsK
import proofs.«173986_g2000208858419734_pallasbulk_908_7_alg».proof.Proof.ParamsR

noncomputable section

namespace Cert.Bridge

open Idealize.ShloMosaic Idealize.ShloMosaic.TcCoe Idealize.ShloMosaic.ValueIdx Idealize.SL.Sem

/-- The multiplicative lane vector (1 on the lanes of gate 2, ½ elsewhere) is the same term in both bodies. -/
theorem laneScale_eq :
    (Cert.KernelIdeal.Gen.k0_pay8 (F := Ideal) Cert.KernelIdeal.Gen.k0_pay5 Cert.KernelIdeal.Gen.k0_pay6 1#32 : (⟨2, ![128, 1024]⟩ : Shape).Idx → EReal)
      = Cert.ReferenceIdeal.Gen.k0_pay14 (F := Ideal) Cert.ReferenceIdeal.Gen.k0_pay10 Cert.ReferenceIdeal.Gen.k0_pay11 Cert.ReferenceIdeal.Gen.k0_pay12 := by
  unfold Cert.KernelIdeal.Gen.k0_pay8 Cert.ReferenceIdeal.Gen.k0_pay14 Cert.KernelIdeal.Gen.k0_pay7 Cert.ReferenceIdeal.Gen.k0_pay13
    Cert.ReferenceIdeal.Gen.k0_pay12 Cert.KernelIdeal.Gen.k0_pay5 Cert.ReferenceIdeal.Gen.k0_pay10 Cert.KernelIdeal.Gen.k0_pay6 Cert.ReferenceIdeal.Gen.k0_pay11
  rfl

/-- The additive lane vector (0 on the lanes of gate 2, ½ elsewhere) is the same term in both bodies. -/
theorem laneShift_eq :
    (Cert.KernelIdeal.Gen.k0_pay9 (F := Ideal) Cert.KernelIdeal.Gen.k0_pay5 Cert.KernelIdeal.Gen.k0_pay6 1#32 : (⟨2, ![128, 1024]⟩ : Shape).Idx → EReal)
      = Cert.ReferenceIdeal.Gen.k0_pay15 (F := Ideal) Cert.ReferenceIdeal.Gen.k0_pay10 Cert.ReferenceIdeal.Gen.k0_pay11 Cert.ReferenceIdeal.Gen.k0_pay12 := by
  unfold Cert.KernelIdeal.Gen.k0_pay9 Cert.ReferenceIdeal.Gen.k0_pay15 Cert.KernelIdeal.Gen.k0_pay7 Cert.ReferenceIdeal.Gen.k0_pay13
    Cert.ReferenceIdeal.Gen.k0_pay12 Cert.KernelIdeal.Gen.k0_pay5 Cert.ReferenceIdeal.Gen.k0_pay10 Cert.KernelIdeal.Gen.k0_pay6 Cert.ReferenceIdeal.Gen.k0_pay11
  rfl

end Cert.Bridge

end
-- ==== Proof.HostScale.lean ====
/-
  The gate scale factors.  Both programs multiply the columns of gate g (of the two weight matrices and of the bias)
  by s_g: one half for the three logistic gates i, f, o (the inner half of σ(x) = ½·tanh(x/2) + ½) and one for the
  tanh gate g.  Every one of the 1024 gate lanes is lane j of exactly one gate.
-/
import proofs.«173986_g2000208858419734_pallasbulk_908_7_alg».proof.Proof.Spec

noncomputable section

namespace Cert.Bridge

open Idealize.ShloMosaic

/-- The scale factor of gate `g`, as the float words the programs spell: ½, ½, 1, ½. -/
def gateScale : Fin 4 → EReal
  | ⟨2, _⟩ => Ideal.ofBits .f32 0x3F800000#32
  | _ => Ideal.ofBits .f32 0x3F000000#32

/-- Lane `l` is lane `l % 256` of gate `l / 256`. -/
theorem exists_lane (l : Fin 1024) : ∃ (g : Fin 4) (j : Fin 256), l = Cert.Lstm.lane g j :=
  ⟨⟨l.val / 256, by have := l.isLt; omega⟩, ⟨l.val % 256, Nat.mod_lt _ (by decide)⟩,
    Fin.ext (by show l.val = 256 * (l.val / 256) + l.val % 256; omega)⟩

theorem lane_val (g : Fin 4) (j : Fin 256) : (Cert.Lstm.lane g j).val = 256 * g.val + j.val := rfl

end Cert.Bridge

end
-- ==== Proof.LibConcatFour.lean ====
/-
  A concatenation of FOUR pieces of one shape along an axis, read at an index: the entry whose coordinate on
  the joined axis is g · K + a (K the pieces' extent on that axis, a < K) is piece g's entry at the same other
  coordinates and at a on the axis.
-/
import Idealize.ShloMosaic.Lib.Pipeline.Value

noncomputable section

namespace ConcatFour

open Idealize.ShloMosaic

variable {α : Type}

/-- Piece `g` of four, read through the concatenation. -/
theorem apply {t s : Shape} (a : Fin t.rank) (x : Fin 4 → s.Idx → α)
    (h : Shape.Concatenates [s, s, s, s] t a) (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, x 0⟩, ⟨s, x 1⟩, ⟨s, x 2⟩, ⟨s, x 3⟩] h j = x g i := by
  have hl : ∀ k, k < 4 → k < ([⟨s, x 0⟩, ⟨s, x 1⟩, ⟨s, x 2⟩, ⟨s, x 3⟩] : List ((s : Shape) × (s.Idx → α))).length := fun k hk => hk
  match g, ha with
  | ⟨0, _⟩, ha =>
    exact concatenate_apply_piece a [⟨s, x 0⟩, ⟨s, x 1⟩, ⟨s, x 2⟩, ⟨s, x 3⟩] h j 0 (hl 0 (by omega)) s (x 0) rfl hr 0 (by simp) i hi (by simpa using ha)
  | ⟨1, _⟩, ha =>
    exact concatenate_apply_piece a [⟨s, x 0⟩, ⟨s, x 1⟩, ⟨s, x 2⟩, ⟨s, x 3⟩] h j 1 (hl 1 (by omega)) s (x 1) rfl hr K (by simp [dif_pos hr, hK]) i hi (by simpa using ha)
  | ⟨2, _⟩, ha =>
    exact concatenate_apply_piece a [⟨s, x 0⟩, ⟨s, x 1⟩, ⟨s, x 2⟩, ⟨s, x 3⟩] h j 2 (hl 2 (by omega)) s (x 2) rfl hr (K + K) (by simp [dif_pos hr, hK]) i hi (by simp at ha; omega)
  | ⟨3, _⟩, ha =>
    exact concatenate_apply_piece a [⟨s, x 0⟩, ⟨s, x 1⟩, ⟨s, x 2⟩, ⟨s, x 3⟩] h j 3 (hl 3 (by omega)) s (x 3) rfl hr (K + K + K) (by simp [dif_pos hr, hK, Nat.add_assoc]) i hi (by simp at ha; omega)

end ConcatFour

end
-- ==== Proof.HostK.lean ====
/-
  The kernel's four launch operands read at coordinates.  The host lines before the launch build one row of 1024 scale
  factors by joining four constant rows of 256 (½, ½, 1, ½), broadcast it down the 256 rows of each weight matrix and
  multiply; the bias row is multiplied by the row itself; the input sequence is only rounded, which is the identity
  on the extended reals.  So the entry at row k and lane j of gate g is the argument's entry times s_g.
-/
import proofs.«173986_g2000208858419734_pallasbulk_908_7_alg».proof.Proof.ParamsK
import proofs.«173986_g2000208858419734_pallasbulk_908_7_alg».proof.Proof.HostScale
import proofs.«173986_g2000208858419734_pallasbulk_908_7_alg».proof.Proof.LibConcatFour
import Idealize.ShloMosaic.Lib.IdealHost
import Idealize.ShloMosaic.Lib.Pipeline.Value

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Hand

variable (m : (ℓ : Loc Cert.KernelIdeal.nD Cert.KernelIdeal.τ Cert.KernelIdeal.sig) → Buf (Elt Ideal) ℓ) (c : Dev Cert.KernelIdeal.nD)

/-- The row of 1024 scale factors: four constant rows of 256 joined along the lanes. -/
def scaleRowK : FVec Ideal S1x1024 .f32 :=
  concatenate S1x1024 1
    [⟨S1x256, broadcastInDim S1x256 ![] bcast_S_S1x256 (constant (F := Ideal) S_ .f32 0x3F000000#32)⟩,
     ⟨S1x256, broadcastInDim S1x256 ![] bcast_S_S1x256 (constant (F := Ideal) S_ .f32 0x3F000000#32)⟩,
     ⟨S1x256, broadcastInDim S1x256 ![] bcast_S_S1x256 (constant (F := Ideal) S_ .f32 0x3F800000#32)⟩,
     ⟨S1x256, broadcastInDim S1x256 ![] bcast_S_S1x256 (constant (F := Ideal) S_ .f32 0x3F000000#32)⟩]
    concatenates_S1x256_S1x256_S1x256_S1x256_S1x1024_d1

/-- A weight matrix times the scale row broadcast down its rows, then rounded. -/
def scaledK (arg : FVec Ideal S256x1024 .f32) : FVec Ideal S256x1024 .bf16 :=
  truncf .bf16 (mulf arg (broadcastInDim S256x1024 ![0, 1] bcast_S1x1024_S256x1024_0_1 scaleRowK)) bitsLt_bf16_f32

/-- The four argument arrays as the launch memory holds them. -/
def kArg0 : FVec Ideal S256x128x256 .f32 := m ((c.tc : Thread nD τ).loc main_arg0)
def kArg1 : FVec Ideal S256x1024 .f32 := m ((c.tc : Thread nD τ).loc main_arg1)
def kArg2 : FVec Ideal S256x1024 .f32 := m ((c.tc : Thread nD τ).loc main_arg2)
def kArg3 : FVec Ideal S1x1024 .f32 := m ((c.tc : Thread nD τ).loc main_arg3)

/-- The rounded input sequence. -/
def roundedK (arg : FVec Ideal S256x128x256 .f32) : FVec Ideal S256x128x256 .bf16 := truncf .bf16 arg bitsLt_bf16_f32
/-- The bias row times the scale row. -/
def scaledRowK (arg : FVec Ideal S1x1024 .f32) : FVec Ideal S1x1024 .f32 := mulf arg scaleRowK

theorem V_main_v12 : Hand.V m c main_v12 = roundedK (kArg0 m c) := by
  dsimp only [Hand.V]
  after_results
  try rfl

theorem V_main_v7 : Hand.V m c main_v7 = scaledK (kArg1 m c) := by
  dsimp only [Hand.V]
  after_results
  rfl

theorem V_main_v10 : Hand.V m c main_v10 = scaledK (kArg2 m c) := by
  dsimp only [Hand.V]
  after_results
  rfl

theorem V_main_v11 : Hand.V m c main_v11 = scaledRowK (kArg3 m c) := by
  dsimp only [Hand.V]
  after_results
  rfl

/-- The scale row at lane `j` of gate `g` is `s_g`. -/
theorem scaleRowK_apply (g : Fin 4) (j : Fin 256) : scaleRowK (ix2 0 (Cert.Lstm.lane g j)) = gateScale g := by
  unfold scaleRowK
  match g with
  | ⟨0, hg⟩ =>
    refine (ConcatFour.apply (t := S1x1024) (s := S1x256) 1
      ![(broadcastInDim S1x256 ![] bcast_S_S1x256 (constant (F := Ideal) S_ .f32 0x3F000000#32) : S1x256.Idx → EReal), (broadcastInDim S1x256 ![] bcast_S_S1x256 (constant (F := Ideal) S_ .f32 0x3F000000#32) : S1x256.Idx → EReal), (broadcastInDim S1x256 ![] bcast_S_S1x256 (constant (F := Ideal) S_ .f32 0x3F800000#32) : S1x256.Idx → EReal), (broadcastInDim S1x256 ![] bcast_S_S1x256 (constant (F := Ideal) S_ .f32 0x3F000000#32) : S1x256.Idx → EReal)]
      concatenates_S1x256_S1x256_S1x256_S1x256_S1x1024_d1 rfl 256 rfl (ix2 0 (Cert.Lstm.lane ⟨0, hg⟩ j)) 0 (ix2 0 j) ?_ ?_).trans ?_
    · intro b hb
      match b, hb with
      | ⟨0, _⟩, _ => rfl
      | ⟨1, _⟩, hb => exact absurd (Fin.ext rfl) hb
    · show 0 * 256 + j.val = 256 * 0 + j.val
      omega
    · show (broadcastInDim S1x256 ![] bcast_S_S1x256 (constant (F := Ideal) S_ .f32 0x3F000000#32) : S1x256.Idx → EReal) (ix2 0 j) = _
      rw [broadcastInDim_scalar_apply, constant_apply]
      rfl
  | ⟨1, hg⟩ =>
    refine (ConcatFour.apply (t := S1x1024) (s := S1x256) 1
      ![(broadcastInDim S1x256 ![] bcast_S_S1x256 (constant (F := Ideal) S_ .f32 0x3F000000#32) : S1x256.Idx → EReal), (broadcastInDim S1x256 ![] bcast_S_S1x256 (constant (F := Ideal) S_ .f32 0x3F000000#32) : S1x256.Idx → EReal), (broadcastInDim S1x256 ![] bcast_S_S1x256 (constant (F := Ideal) S_ .f32 0x3F800000#32) : S1x256.Idx → EReal), (broadcastInDim S1x256 ![] bcast_S_S1x256 (constant (F := Ideal) S_ .f32 0x3F000000#32) : S1x256.Idx → EReal)]
      concatenates_S1x256_S1x256_S1x256_S1x256_S1x1024_d1 rfl 256 rfl (ix2 0 (Cert.Lstm.lane ⟨1, hg⟩ j)) 1 (ix2 0 j) ?_ ?_).trans ?_
    · intro b hb
      match b, hb with
      | ⟨0, _⟩, _ => rfl
      | ⟨1, _⟩, hb => exact absurd (Fin.ext rfl) hb
    · show 1 * 256 + j.val = 256 * 1 + j.val
      omega
    · show (broadcastInDim S1x256 ![] bcast_S_S1x256 (constant (F := Ideal) S_ .f32 0x3F000000#32) : S1x256.Idx → EReal) (ix2 0 j) = _
      rw [broadcastInDim_scalar_apply, constant_apply]
      rfl
  | ⟨2, hg⟩ =>
    refine (ConcatFour.apply (t := S1x1024) (s := S1x256) 1
      ![(broadcastInDim S1x256 ![] bcast_S_S1x256 (constant (F := Ideal) S_ .f32 0x3F000000#32) : S1x256.Idx → EReal), (broadcastInDim S1x256 ![] bcast_S_S1x256 (constant (F := Ideal) S_ .f32 0x3F000000#32) : S1x256.Idx → EReal), (broadcastInDim S1x256 ![] bcast_S_S1x256 (constant (F := Ideal) S_ .f32 0x3F800000#32) : S1x256.Idx → EReal), (broadcastInDim S1x256 ![] bcast_S_S1x256 (constant (F := Ideal) S_ .f32 0x3F000000#32) : S1x256.Idx → EReal)]
      concatenates_S1x256_S1x256_S1x256_S1x256_S1x1024_d1 rfl 256 rfl (ix2 0 (Cert.Lstm.lane ⟨2, hg⟩ j)) 2 (ix2 0 j) ?_ ?_).trans ?_
    · intro b hb
      match b, hb with
      | ⟨0, _⟩, _ => rfl
      | ⟨1, _⟩, hb => exact absurd (Fin.ext rfl) hb
    · show 2 * 256 + j.val = 256 * 2 + j.val
      omega
    · show (broadcastInDim S1x256 ![] bcast_S_S1x256 (constant (F := Ideal) S_ .f32 0x3F800000#32) : S1x256.Idx → EReal) (ix2 0 j) = _
      rw [broadcastInDim_scalar_apply, constant_apply]
      rfl
  | ⟨3, hg⟩ =>
    refine (ConcatFour.apply (t := S1x1024) (s := S1x256) 1
      ![(broadcastInDim S1x256 ![] bcast_S_S1x256 (constant (F := Ideal) S_ .f32 0x3F000000#32) : S1x256.Idx → EReal), (broadcastInDim S1x256 ![] bcast_S_S1x256 (constant (F := Ideal) S_ .f32 0x3F000000#32) : S1x256.Idx → EReal), (broadcastInDim S1x256 ![] bcast_S_S1x256 (constant (F := Ideal) S_ .f32 0x3F800000#32) : S1x256.Idx → EReal), (broadcastInDim S1x256 ![] bcast_S_S1x256 (constant (F := Ideal) S_ .f32 0x3F000000#32) : S1x256.Idx → EReal)]
      concatenates_S1x256_S1x256_S1x256_S1x256_S1x1024_d1 rfl 256 rfl (ix2 0 (Cert.Lstm.lane ⟨3, hg⟩ j)) 3 (ix2 0 j) ?_ ?_).trans ?_
    · intro b hb
      match b, hb with
      | ⟨0, _⟩, _ => rfl
      | ⟨1, _⟩, hb => exact absurd (Fin.ext rfl) hb
    · show 3 * 256 + j.val = 256 * 3 + j.val
      omega
    · show (broadcastInDim S1x256 ![] bcast_S_S1x256 (constant (F := Ideal) S_ .f32 0x3F000000#32) : S1x256.Idx → EReal) (ix2 0 j) = _
      rw [broadcastInDim_scalar_apply, constant_apply]
      rfl

/-- A scaled weight matrix at row `k`, lane `j` of gate `g`. -/
theorem scaledK_apply (arg : FVec Ideal S256x1024 .f32) (k : Fin 256) (g : Fin 4) (j : Fin 256) :
    scaledK arg (ix2 k (Cert.Lstm.lane g j)) = arg (ix2 k (Cert.Lstm.lane g j)) * gateScale g := by
  unfold scaledK
  rw [truncf_apply, mulf_apply,
    broadcastInDim_apply _ _ _ _ (ix2 0 (Cert.Lstm.lane g j)) (fun a => match a with | ⟨0, _⟩ => rfl | ⟨1, _⟩ => rfl),
    scaleRowK_apply]

/-- The kernel's input sequence is its argument. -/
theorem PK_X (τ' : Fin 256) (b : Fin 128) (k : Fin 256) : (PK m c).X τ' b k = kArg0 m c (ix3 τ' b k) := by
  have e : (PK m c).X τ' b k = (Hand.V m c main_v12 : FVec Ideal S256x128x256 .bf16) (ix3 τ' b k) := rfl
  rw [e, V_main_v12]
  rfl

/-- The kernel's input weights are its argument's, gate `g`'s columns scaled by `s_g`. -/
theorem PK_WI (k : Fin 256) (g : Fin 4) (j : Fin 256) :
    (PK m c).WI k (Cert.Lstm.lane g j) = kArg1 m c (ix2 k (Cert.Lstm.lane g j)) * gateScale g := by
  have e : (PK m c).WI k (Cert.Lstm.lane g j) = (Hand.V m c main_v7 : FVec Ideal S256x1024 .bf16) (ix2 k (Cert.Lstm.lane g j)) := rfl
  rw [e, V_main_v7]
  exact scaledK_apply _ k g j

/-- The kernel's recurrent weights likewise. -/
theorem PK_WH (k : Fin 256) (g : Fin 4) (j : Fin 256) :
    (PK m c).WH k (Cert.Lstm.lane g j) = kArg2 m c (ix2 k (Cert.Lstm.lane g j)) * gateScale g := by
  have e : (PK m c).WH k (Cert.Lstm.lane g j) = (Hand.V m c main_v10 : FVec Ideal S256x1024 .bf16) (ix2 k (Cert.Lstm.lane g j)) := rfl
  rw [e, V_main_v10]
  exact scaledK_apply _ k g j

/-- The kernel's bias row likewise. -/
theorem PK_BI (g : Fin 4) (j : Fin 256) :
    (PK m c).BI (Cert.Lstm.lane g j) = kArg3 m c (ix2 0 (Cert.Lstm.lane g j)) * gateScale g := by
  have e : (PK m c).BI (Cert.Lstm.lane g j) = (Hand.V m c main_v11 : FVec Ideal S1x1024 .f32) (ix2 0 (Cert.Lstm.lane g j)) := rfl
  rw [e, V_main_v11]
  unfold scaledRowK
  rw [mulf_apply, scaleRowK_apply]

end Cert.Bridge

end
-- ==== Proof.LibScatterSet.lean ====
/-
  A host scatter whose combiner keeps the update ("set"), read at an index.  The scatter is a left fold over the
  update's indices: each update index that lands inside the operand overwrites the operand's entry there.  So an
  entry of the result is a value c as soon as every update index landing on it carries c and either some update
  index does land on it or the operand already holds c there.  An update index j lands on the operand index i
  exactly when, on every axis, the window's start plus j's window coordinate is i's coordinate.  For a
  two-dimensional operand and a two-dimensional update all of whose axes are window axes, with the start of the
  window at row r0 and column c0, this says: inside the window the result is the update (shifted by the start),
  outside it the operand.
-/
import Idealize.ShloMosaic.PureOps.ShapeOps
import Idealize.ShloMosaic.Lib.ValueIdx

noncomputable section

namespace ScatterSet

open Idealize.ShloMosaic Idealize.ShloMosaic.ValueIdx

variable {α : Type}

/-- A left fold of overwriting steps, read at one index `i'`: if every step that writes `i'` writes `c`, and either
    the start holds `c` at `i'` or some step writes `i'`, the fold holds `c` at `i'`. -/
theorem foldl_set_apply {ι κ : Type} [DecidableEq ι] (step : (ι → α) → κ → (ι → α)) (g : κ → Option ι) (v : κ → α)
    (hsome : ∀ r n i, g n = some i → step r n = fun i' => if i' = i then v n else r i')
    (hnone : ∀ r n, g n = none → step r n = r) (i' : ι) (c : α) :
    ∀ (L : List κ) (x : ι → α), (∀ n ∈ L, g n = some i' → v n = c) → (x i' = c ∨ ∃ n ∈ L, g n = some i') →
      L.foldl step x i' = c
  | [], x, _, h => by
    rcases h with h | ⟨n, hn, _⟩
    · exact h
    · cases hn
  | n :: L, x, hv, h => by
    rw [List.foldl_cons]
    refine foldl_set_apply step g v hsome hnone i' c L (step x n) (fun n' hn' => hv n' (List.mem_cons_of_mem _ hn')) ?_
    cases hg : g n with
    | none =>
      rw [hnone _ _ hg]
      rcases h with h | ⟨n', hn', hgn'⟩
      · exact Or.inl h
      · rcases List.mem_cons.1 hn' with rfl | hn'
        · rw [hg] at hgn'; cases hgn'
        · exact Or.inr ⟨n', hn', hgn'⟩
    | some i =>
      rw [hsome _ _ _ hg]
      by_cases hi : i' = i
      · left
        show (if i' = i then v n else x i') = c
        rw [if_pos hi]
        exact hv n List.mem_cons_self (by rw [hg, hi])
      · rcases h with h | ⟨n', hn', hgn'⟩
        · left
          show (if i' = i then v n else x i') = c
          rw [if_neg hi]; exact h
        · rcases List.mem_cons.1 hn' with rfl | hn'
          · rw [hg] at hgn'; exact absurd (Option.some.inj hgn').symm hi
          · exact Or.inr ⟨n', hn', hgn'⟩

variable {s si u : Shape} {w : Nat}

/-- An update index lands on an operand index exactly when start plus window coordinate is that index's
    coordinate on every axis. -/
theorem resultIdx?_eq_some_iff (d : ScatterDims s si u) (j : u.Idx) (idx : IVec si w) (i : s.Idx) :
    d.resultIdx? j idx = some i ↔ ∀ a, d.start j idx a + d.window j a = ((i a).val : Int) := by
  unfold ScatterDims.resultIdx?
  by_cases h : ∀ a, 0 ≤ d.start j idx a + d.window j a ∧ d.start j idx a + d.window j a < s.size a
  · rw [dif_pos h]
    constructor
    · intro hi a
      have := congrFun (Option.some.inj hi) a
      rw [← this]
      show d.start j idx a + d.window j a = (((d.start j idx a + d.window j a).toNat : Nat) : Int)
      rw [Int.toNat_of_nonneg (h a).1]
    · intro hi
      refine congrArg some (funext fun a => Fin.ext ?_)
      show (d.start j idx a + d.window j a).toNat = (i a).val
      rw [hi a]; exact Int.toNat_natCast _
  · rw [dif_neg h]
    constructor
    · intro hi; cases hi
    · intro hi
      exact absurd (fun a => by rw [hi a]; exact ⟨Int.natCast_nonneg _, by exact_mod_cast (i a).isLt⟩) h

/-- The "set" scatter at one operand index. -/
theorem scatter_set_eq (d : ScatterDims s si u) (x : s.Idx → α) (idx : IVec si w) (upd : u.Idx → α) (i' : s.Idx) (c : α)
    (hv : ∀ j, d.resultIdx? j idx = some i' → upd j = c)
    (h : x i' = c ∨ ∃ j, d.resultIdx? j idx = some i') :
    Host.scatter d (fun _ b => b) x idx upd i' = c := by
  unfold Host.scatter
  refine foldl_set_apply _ (fun n => d.resultIdx? (u.rowMajor.symm n) idx) (fun n => upd (u.rowMajor.symm n)) ?_ ?_ i' c _ x
    (fun n _ hn => hv _ hn) ?_
  · intro r n i hg
    simp only [hg]
  · intro r n hg
    simp only [hg]
  · rcases h with h | ⟨j, hj⟩
    · exact Or.inl h
    · exact Or.inr ⟨u.rowMajor j, List.mem_finRange _, by simpa using hj⟩

/-! ## Two-dimensional operand, two-dimensional window -/

section TwoD

variable {A B P Q : Nat} (d : ScatterDims ⟨2, ![A, B]⟩ si ⟨2, ![P, Q]⟩) (idx : IVec si w) (r0 c0 : Nat)

/-- Inside the window: the update, shifted by the window's start. -/
theorem scatter2_hit
    (hs0 : ∀ j, d.start j idx 0 = (r0 : Int)) (hs1 : ∀ j, d.start j idx 1 = (c0 : Int))
    (hw0 : ∀ j, d.window j 0 = (j 0).val) (hw1 : ∀ j, d.window j 1 = (j 1).val)
    (x : (⟨2, ![A, B]⟩ : Shape).Idx → α) (upd : (⟨2, ![P, Q]⟩ : Shape).Idx → α)
    (k : Fin A) (l : Fin B) (p : Fin P) (q : Fin Q) (hk : k.val = r0 + p.val) (hl : l.val = c0 + q.val) :
    Host.scatter d (fun _ b => b) x idx upd (ix2 k l) = upd (ix2 p q) := by
  refine scatter_set_eq d x idx upd (ix2 k l) _ ?_ (Or.inr ⟨ix2 p q, ?_⟩)
  · intro j hj
    rw [resultIdx?_eq_some_iff] at hj
    have h0 := hj 0
    have h1 := hj 1
    rw [hs0, hw0] at h0
    rw [hs1, hw1] at h1
    replace h0 : (r0 : Int) + (((j 0).val : Nat) : Int) = (k.val : Int) := h0
    replace h1 : (c0 : Int) + (((j 1).val : Nat) : Int) = (l.val : Int) := h1
    have a0 : j 0 = p := Fin.ext (by omega)
    have a1 : j 1 = q := Fin.ext (by omega)
    have hjpq : j = ix2 p q := funext fun a => match a with | ⟨0, _⟩ => a0 | ⟨1, _⟩ => a1
    rw [hjpq]
  · rw [resultIdx?_eq_some_iff]
    intro a
    match a with
    | ⟨0, _⟩ =>
      show d.start (ix2 p q) idx 0 + d.window (ix2 p q) 0 = (k.val : Int)
      rw [hs0, hw0]; show (r0 : Int) + ((p.val : Nat) : Int) = _; omega
    | ⟨1, _⟩ =>
      show d.start (ix2 p q) idx 1 + d.window (ix2 p q) 1 = (l.val : Int)
      rw [hs1, hw1]; show (c0 : Int) + ((q.val : Nat) : Int) = _; omega

/-- Outside the window: the operand. -/
theorem scatter2_miss
    (hs0 : ∀ j, d.start j idx 0 = (r0 : Int)) (hs1 : ∀ j, d.start j idx 1 = (c0 : Int))
    (hw0 : ∀ j, d.window j 0 = (j 0).val) (hw1 : ∀ j, d.window j 1 = (j 1).val)
    (x : (⟨2, ![A, B]⟩ : Shape).Idx → α) (upd : (⟨2, ![P, Q]⟩ : Shape).Idx → α)
    (k : Fin A) (l : Fin B) (h : k.val < r0 ∨ r0 + P ≤ k.val ∨ l.val < c0 ∨ c0 + Q ≤ l.val) :
    Host.scatter d (fun _ b => b) x idx upd (ix2 k l) = x (ix2 k l) := by
  refine scatter_set_eq d x idx upd (ix2 k l) _ ?_ (Or.inl rfl)
  intro j hj
  exfalso
  rw [resultIdx?_eq_some_iff] at hj
  have h0 := hj 0
  have h1 := hj 1
  rw [hs0, hw0] at h0
  rw [hs1, hw1] at h1
  replace h0 : (r0 : Int) + (((j 0).val : Nat) : Int) = (k.val : Int) := h0
  replace h1 : (c0 : Int) + (((j 1).val : Nat) : Int) = (l.val : Int) := h1
  have b0 := idx2_lt0 j
  have b1 := idx2_lt1 j
  omega

end TwoD

end ScatterSet

end
-- ==== Proof.HostRX.lean ====
/-
  The reference's input sequence read at coordinates.  The host lines flatten the [256, 128, 256] argument row-major
  to 32768 rows of 256 (row 128·τ + b is time step τ, batch row b), round it, and write it over a zero array by a
  scatter with an empty index vector: the window is the whole array at offset (0, 0), so every entry is overwritten.
-/
import proofs.«173986_g2000208858419734_pallasbulk_908_7_alg».proof.Proof.ParamsR
import proofs.«173986_g2000208858419734_pallasbulk_908_7_alg».proof.Proof.LibScatterSet
import Idealize.ShloMosaic.Lib.Pipeline.Value

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen

variable (m' : (ℓ : Loc Cert.ReferenceIdeal.nD Cert.ReferenceIdeal.τ Cert.ReferenceIdeal.sig) → Buf (Elt Ideal) ℓ) (c : Dev Cert.ReferenceIdeal.nD)

/-- The input sequence as the launch memory holds it. -/
def rArg0 : FVec Ideal S256x128x256 .f32 := m' ((c.tc : Thread nD τ).loc main_arg0)

/-- The flattened, rounded sequence written over the zero array. -/
def seqR (arg : FVec Ideal S256x128x256 .f32) : FVec Ideal S32768x256 .bf16 :=
  Host.scatter scatter_S32768x256_S0_S32768x256_01_n_n_0 (fun _ b => b)
    (broadcastInDim S32768x256 ![] bcast_S_S32768x256 (constant (F := Ideal) S_ .bf16 0x0000#16))
    (emptyVec S0 hz_S0 : IVec S0 32)
    (truncf .bf16 (shapeCast S32768x256 arg shapeCasts_S256x128x256_S32768x256) bitsLt_bf16_f32)

theorem V_main_v3 : Gen.V m' c main_v3 = seqR (rArg0 m' c) := by
  show StableHlo.after hostOps0 (fun b => m' (c, b)) (Proc.devRef .tc main_v3) = _
  after_results_simp
  rfl

/-- Row 128·τ + b of the flattened sequence is row (τ, b) of the argument. -/
theorem seqR_apply (arg : FVec Ideal S256x128x256 .f32) (τ' : Fin 256) (b : Fin 128) (k : Fin 256) :
    seqR arg (ix2 (seqRow τ' b) k) = arg (ix3 τ' b k) := by
  unfold seqR
  refine (ScatterSet.scatter2_hit scatter_S32768x256_S0_S32768x256_01_n_n_0 (emptyVec S0 hz_S0 : IVec S0 32) 0 0
    (fun _ => rfl) (fun _ => rfl) (fun _ => rfl) (fun _ => rfl) _ _ (seqRow τ' b) k (seqRow τ' b) k (Nat.zero_add _).symm (Nat.zero_add _).symm).trans ?_
  rw [truncf_apply]
  refine shapeCast_apply arg shapeCasts_S256x128x256_S32768x256 (ix2 (seqRow τ' b) k) (ix3 τ' b k) ?_
  rw [Shape.rowMajor_val_three, Shape.rowMajor_val_two]
  show (τ'.val * 128 + b.val) * 256 + k.val = (128 * τ'.val + b.val) * 256 + k.val
  omega

/-- The reference's input sequence is its argument. -/
theorem PR_X_arg (τ' : Fin 256) (b : Fin 128) (k : Fin 256) : (PR m' c).X τ' b k = rArg0 m' c (ix3 τ' b k) := by
  unfold PR
  dsimp only
  rw [V_main_v3]
  exact seqR_apply _ τ' b k

end Cert.Bridge

end
-- ==== Proof.LibScatterFour.lean ====
/-
  Four "set" scatters in a row, each writing a window of 256 columns into a two-dimensional array of 1024 columns,
  at column offsets 0, 256, 512, 768 and all at the same row offset r0: the packing of four blocks side by side.
  Later windows do not meet earlier ones, so the entry at row r0 + p and column 256·g + q is block g's entry at
  (p, q), and an entry on a row outside r0 … r0 + P − 1 is the entry of the array the first scatter started from.
-/
import proofs.«173986_g2000208858419734_pallasbulk_908_7_alg».proof.Proof.LibScatterSet

noncomputable section

namespace ScatterSet

open Idealize.ShloMosaic Idealize.ShloMosaic.ValueIdx

variable {α : Type} {si : Shape} {w A P : Nat} (d : ScatterDims ⟨2, ![A, 1024]⟩ si ⟨2, ![P, 256]⟩)
  (i0 i1 i2 i3 : IVec si w) (r0 : Nat)

/-- The four scatters, innermost first. -/
def pack4 (x : (⟨2, ![A, 1024]⟩ : Shape).Idx → α) (u0 u1 u2 u3 : (⟨2, ![P, 256]⟩ : Shape).Idx → α) :
    (⟨2, ![A, 1024]⟩ : Shape).Idx → α :=
  Host.scatter d (fun _ b => b) (Host.scatter d (fun _ b => b) (Host.scatter d (fun _ b => b)
    (Host.scatter d (fun _ b => b) x i0 u0) i1 u1) i2 u2) i3 u3

variable (hr0 : ∀ j, d.start j i0 0 = (r0 : Int)) (hr1 : ∀ j, d.start j i1 0 = (r0 : Int))
  (hr2 : ∀ j, d.start j i2 0 = (r0 : Int)) (hr3 : ∀ j, d.start j i3 0 = (r0 : Int))
  (hc0 : ∀ j, d.start j i0 1 = ((0 : Nat) : Int)) (hc1 : ∀ j, d.start j i1 1 = ((256 : Nat) : Int))
  (hc2 : ∀ j, d.start j i2 1 = ((512 : Nat) : Int)) (hc3 : ∀ j, d.start j i3 1 = ((768 : Nat) : Int))
  (hw0 : ∀ j, d.window j 0 = (j 0).val) (hw1 : ∀ j, d.window j 1 = (j 1).val)

include hr0 hr1 hr2 hr3 hc0 hc1 hc2 hc3 hw0 hw1

/-- Inside the packed rows: block `g` at the shifted coordinates. -/
theorem pack4_hit (x : (⟨2, ![A, 1024]⟩ : Shape).Idx → α) (u0 u1 u2 u3 : (⟨2, ![P, 256]⟩ : Shape).Idx → α)
    (k : Fin A) (p : Fin P) (hk : k.val = r0 + p.val) (g : Fin 4) (q : Fin 256) (l : Fin 1024) (hl : l.val = 256 * g.val + q.val) :
    pack4 d i0 i1 i2 i3 x u0 u1 u2 u3 (ix2 k l)
      = (![u0, u1, u2, u3] : Fin 4 → (⟨2, ![P, 256]⟩ : Shape).Idx → α) g (ix2 p q) := by
  have hq := q.isLt
  unfold pack4
  match g, hl with
  | ⟨3, _⟩, hl =>
    exact scatter2_hit d i3 r0 768 hr3 hc3 hw0 hw1 _ u3 k l p q hk (by simpa using hl)
  | ⟨2, _⟩, hl =>
    have hl' : l.val = 512 + q.val := by simpa using hl
    exact (scatter2_miss d i3 r0 768 hr3 hc3 hw0 hw1 _ u3 k l (by omega)).trans
      (scatter2_hit d i2 r0 512 hr2 hc2 hw0 hw1 _ u2 k l p q hk hl')
  | ⟨1, _⟩, hl =>
    have hl' : l.val = 256 + q.val := by simpa using hl
    exact (scatter2_miss d i3 r0 768 hr3 hc3 hw0 hw1 _ u3 k l (by omega)).trans
      ((scatter2_miss d i2 r0 512 hr2 hc2 hw0 hw1 _ u2 k l (by omega)).trans
        (scatter2_hit d i1 r0 256 hr1 hc1 hw0 hw1 _ u1 k l p q hk hl'))
  | ⟨0, _⟩, hl =>
    have hl' : l.val = 0 + q.val := by simpa using hl
    exact (scatter2_miss d i3 r0 768 hr3 hc3 hw0 hw1 _ u3 k l (by omega)).trans
      ((scatter2_miss d i2 r0 512 hr2 hc2 hw0 hw1 _ u2 k l (by omega)).trans
        ((scatter2_miss d i1 r0 256 hr1 hc1 hw0 hw1 _ u1 k l (by omega)).trans
          (scatter2_hit d i0 r0 0 hr0 hc0 hw0 hw1 _ u0 k l p q hk hl')))

/-- On a row outside the packed rows: the array the scatters started from. -/
theorem pack4_miss (x : (⟨2, ![A, 1024]⟩ : Shape).Idx → α) (u0 u1 u2 u3 : (⟨2, ![P, 256]⟩ : Shape).Idx → α)
    (k : Fin A) (l : Fin 1024) (hk : k.val < r0 ∨ r0 + P ≤ k.val) :
    pack4 d i0 i1 i2 i3 x u0 u1 u2 u3 (ix2 k l) = x (ix2 k l) := by
  unfold pack4
  exact (scatter2_miss d i3 r0 768 hr3 hc3 hw0 hw1 _ u3 k l (by omega)).trans
    ((scatter2_miss d i2 r0 512 hr2 hc2 hw0 hw1 _ u2 k l (by omega)).trans
      ((scatter2_miss d i1 r0 256 hr1 hc1 hw0 hw1 _ u1 k l (by omega)).trans
        (scatter2_miss d i0 r0 0 hr0 hc0 hw0 hw1 _ u0 k l (by omega))))

end ScatterSet

end
-- ==== Proof.HostRCommon.lean ====
/-
  What the reference's packing of the weights and of the bias is made of.  For each gate g the host lines cut the
  gate's 256 columns out of an argument (a slice at column offset 256·g), multiply them on the left by the constant
  s_g, and write the product into a zero array at column offset 256·g.  The column offset reaches the scatter as a
  one-element index vector (for the recurrent weights as the second entry of a two-element one, whose first entry
  is the row offset 256).
-/
import proofs.«173986_g2000208858419734_pallasbulk_908_7_alg».proof.Proof.ParamsR
import proofs.«173986_g2000208858419734_pallasbulk_908_7_alg».proof.Proof.HostScale
import proofs.«173986_g2000208858419734_pallasbulk_908_7_alg».proof.Proof.LibScatterFour
import Idealize.ShloMosaic.Lib.IdealHost
import Idealize.ShloMosaic.Lib.Pipeline.Value

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen

variable (m' : (ℓ : Loc Cert.ReferenceIdeal.nD Cert.ReferenceIdeal.τ Cert.ReferenceIdeal.sig) → Buf (Elt Ideal) ℓ) (c : Dev Cert.ReferenceIdeal.nD)

/-- The weight and bias arguments as the launch memory holds them. -/
def rArg1 : FVec Ideal S256x1024 .f32 := m' ((c.tc : Thread nD τ).loc main_arg1)
def rArg2 : FVec Ideal S256x1024 .f32 := m' ((c.tc : Thread nD τ).loc main_arg2)
def rArg3 : FVec Ideal S1x1024 .f32 := m' ((c.tc : Thread nD τ).loc main_arg3)

/-- A one-element index vector holding the column offset `o`. -/
def colIdx (o : BitVec 32) : IVec S1 32 := broadcastInDim S1 ![] bcast_S_S1 (constantI S_ 32 o)
/-- The two-element index vector (256, `o`): row offset 256, column offset `o`. -/
def rowColIdx (o : BitVec 32) : IVec S2 32 := concatenate S2 0 [⟨S1, colIdx 256#32⟩, ⟨S1, colIdx o⟩] concatenates_S1_S1_S2_d0

/-- The constant with word `w` times the 256 columns of a weight matrix at offset `off`. -/
def pieceW (w : BitVec 32) (off : Fin 2 → Nat) (h : S256x1024.Slices off S256x256) (arg : FVec Ideal S256x1024 .f32) :
    FVec Ideal S256x256 .f32 :=
  mulf (broadcastInDim S256x256 ![] bcast_S_S256x256 (constant (F := Ideal) S_ .f32 w)) (extractStridedSlice S256x256 off arg h)

/-- The constant with word `w` times the 256 columns of the bias row at offset `off`. -/
def pieceB (w : BitVec 32) (off : Fin 2 → Nat) (h : S1x1024.Slices off S1x256) (arg : FVec Ideal S1x1024 .f32) :
    FVec Ideal S1x256 .f32 :=
  mulf (broadcastInDim S1x256 ![] bcast_S_S1x256 (constant (F := Ideal) S_ .f32 w)) (extractStridedSlice S1x256 off arg h)

theorem pieceW_apply (w : BitVec 32) (off : Fin 2 → Nat) (h : S256x1024.Slices off S256x256) (arg : FVec Ideal S256x1024 .f32)
    (k q : Fin 256) (l : Fin 1024) (h0 : off 0 = 0) (hl : l.val = off 1 + q.val) :
    pieceW w off h arg (ix2 k q) = Ideal.ofBits .f32 w * arg (ix2 k l) := by
  unfold pieceW
  rw [mulf_apply, broadcastInDim_scalar_apply, constant_apply]
  refine congrArg _ (extractStridedSlice_apply off arg h (ix2 k q) (ix2 k l) fun a => ?_)
  match a with
  | ⟨0, _⟩ => show k.val = off 0 + k.val; omega
  | ⟨1, _⟩ => show l.val = off 1 + q.val; exact hl

theorem pieceB_apply (w : BitVec 32) (off : Fin 2 → Nat) (h : S1x1024.Slices off S1x256) (arg : FVec Ideal S1x1024 .f32)
    (q : Fin 256) (l : Fin 1024) (h0 : off 0 = 0) (hl : l.val = off 1 + q.val) :
    pieceB w off h arg (ix2 0 q) = Ideal.ofBits .f32 w * arg (ix2 0 l) := by
  unfold pieceB
  rw [mulf_apply, broadcastInDim_scalar_apply, constant_apply]
  refine congrArg _ (extractStridedSlice_apply off arg h (ix2 0 q) (ix2 0 l) fun a => ?_)
  match a with
  | ⟨0, _⟩ => show 0 = off 0 + 0; omega
  | ⟨1, _⟩ => show l.val = off 1 + q.val; exact hl

end Cert.Bridge

end
-- ==== Proof.HostRWI.lean ====
/-
  The reference's packed input weights read at coordinates: the four scaled 256-column blocks written side by side
  into a zero [256, 1024] array, then rounded.  The entry at row k and lane j of gate g is s_g times the argument's.
-/
import proofs.«173986_g2000208858419734_pallasbulk_908_7_alg».proof.Proof.HostRCommon

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen

variable (m' : (ℓ : Loc Cert.ReferenceIdeal.nD Cert.ReferenceIdeal.τ Cert.ReferenceIdeal.sig) → Buf (Elt Ideal) ℓ) (c : Dev Cert.ReferenceIdeal.nD)

/-- The packed, rounded input weights. -/
def packWI (arg : FVec Ideal S256x1024 .f32) : FVec Ideal S256x1024 .bf16 :=
  truncf .bf16
    (ScatterSet.pack4 scatter_S256x1024_S1_S256x256_01_n_1_0 (colIdx 0#32) (colIdx 256#32) (colIdx 512#32) (colIdx 768#32)
      (broadcastInDim S256x1024 ![] bcast_S_S256x1024 (constant (F := Ideal) S_ .f32 0x00000000#32))
      (pieceW 0x3F000000#32 ![0, 0] slices_S256x1024_S256x256_0_0 arg)
      (pieceW 0x3F000000#32 ![0, 256] slices_S256x1024_S256x256_0_256 arg)
      (pieceW 0x3F800000#32 ![0, 512] slices_S256x1024_S256x256_0_512 arg)
      (pieceW 0x3F000000#32 ![0, 768] slices_S256x1024_S256x256_0_768 arg))
    bitsLt_bf16_f32

theorem V_main_v75 : Gen.V m' c main_v75 = packWI (rArg1 m' c) := by
  show StableHlo.after hostOps0 (fun b => m' (c, b)) (Proc.devRef .tc main_v75) = _
  after_results_simp
  rfl

theorem packWI_apply (arg : FVec Ideal S256x1024 .f32) (k : Fin 256) (g : Fin 4) (j : Fin 256) :
    packWI arg (ix2 k (Cert.Lstm.lane g j)) = gateScale g * arg (ix2 k (Cert.Lstm.lane g j)) := by
  unfold packWI
  rw [truncf_apply]
  refine (ScatterSet.pack4_hit scatter_S256x1024_S1_S256x256_01_n_1_0 _ _ _ _ 0 (fun _ => rfl) (fun _ => rfl) (fun _ => rfl) (fun _ => rfl) (fun _ => rfl) (fun _ => rfl) (fun _ => rfl) (fun _ => rfl) (fun _ => rfl) (fun _ => rfl)
    _ _ _ _ _ k k (by omega) g j (Cert.Lstm.lane g j) rfl).trans ?_
  match g with
  | ⟨0, hg⟩ =>
    exact pieceW_apply 0x3F000000#32 ![0, 0] _ arg k j (Cert.Lstm.lane ⟨0, hg⟩ j) rfl (by show 256 * 0 + j.val = 0 + j.val; omega)
  | ⟨1, hg⟩ =>
    exact pieceW_apply 0x3F000000#32 ![0, 256] _ arg k j (Cert.Lstm.lane ⟨1, hg⟩ j) rfl (by show 256 * 1 + j.val = 256 + j.val; omega)
  | ⟨2, hg⟩ =>
    exact pieceW_apply 0x3F800000#32 ![0, 512] _ arg k j (Cert.Lstm.lane ⟨2, hg⟩ j) rfl (by show 256 * 2 + j.val = 512 + j.val; omega)
  | ⟨3, hg⟩ =>
    exact pieceW_apply 0x3F000000#32 ![0, 768] _ arg k j (Cert.Lstm.lane ⟨3, hg⟩ j) rfl (by show 256 * 3 + j.val = 768 + j.val; omega)

/-- The reference's input weights are its argument's, gate `g`'s columns scaled by `s_g`. -/
theorem PR_WI_arg (k : Fin 256) (g : Fin 4) (j : Fin 256) :
    (PR m' c).WI k (Cert.Lstm.lane g j) = gateScale g * rArg1 m' c (ix2 k (Cert.Lstm.lane g j)) := by
  unfold PR
  dsimp only
  rw [V_main_v75]
  exact packWI_apply _ k g j

end Cert.Bridge

end
-- ==== Proof.HostRWH.lean ====
/-
  The reference's packed recurrent weights read at coordinates: the four scaled 256-column blocks written side by
  side into rows 256…511 of a zero [1024, 1024] array, then rounded.  The entry at row 256 + k and lane j of gate g
  is s_g times the argument's entry at row k; on the rows outside 256…511 no block is written and the entry is zero.
-/
import proofs.«173986_g2000208858419734_pallasbulk_908_7_alg».proof.Proof.HostRCommon

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen

variable (m' : (ℓ : Loc Cert.ReferenceIdeal.nD Cert.ReferenceIdeal.τ Cert.ReferenceIdeal.sig) → Buf (Elt Ideal) ℓ) (c : Dev Cert.ReferenceIdeal.nD)

/-- The packed, rounded recurrent weights. -/
def packWH (arg : FVec Ideal S256x1024 .f32) : FVec Ideal S1024x1024 .bf16 :=
  truncf .bf16
    (ScatterSet.pack4 scatter_S1024x1024_S2_S256x256_01_n_01_0 (rowColIdx 0#32) (rowColIdx 256#32) (rowColIdx 512#32) (rowColIdx 768#32)
      (broadcastInDim S1024x1024 ![] bcast_S_S1024x1024 (constant (F := Ideal) S_ .f32 0x00000000#32))
      (pieceW 0x3F000000#32 ![0, 0] slices_S256x1024_S256x256_0_0 arg)
      (pieceW 0x3F000000#32 ![0, 256] slices_S256x1024_S256x256_0_256 arg)
      (pieceW 0x3F800000#32 ![0, 512] slices_S256x1024_S256x256_0_512 arg)
      (pieceW 0x3F000000#32 ![0, 768] slices_S256x1024_S256x256_0_768 arg))
    bitsLt_bf16_f32

theorem V_main_v76 : Gen.V m' c main_v76 = packWH (rArg2 m' c) := by
  show StableHlo.after hostOps0 (fun b => m' (c, b)) (Proc.devRef .tc main_v76) = _
  after_results_simp
  rfl

theorem packWH_apply (arg : FVec Ideal S256x1024 .f32) (k : Fin 256) (g : Fin 4) (j : Fin 256) :
    packWH arg (ix2 (hidRow k) (Cert.Lstm.lane g j)) = gateScale g * arg (ix2 k (Cert.Lstm.lane g j)) := by
  unfold packWH
  rw [truncf_apply]
  refine (ScatterSet.pack4_hit scatter_S1024x1024_S2_S256x256_01_n_01_0 _ _ _ _ 256 (fun _ => rfl) (fun _ => rfl) (fun _ => rfl) (fun _ => rfl) (fun _ => rfl) (fun _ => rfl) (fun _ => rfl) (fun _ => rfl) (fun _ => rfl) (fun _ => rfl)
    _ _ _ _ _ (hidRow k) k rfl g j (Cert.Lstm.lane g j) rfl).trans ?_
  match g with
  | ⟨0, hg⟩ =>
    exact pieceW_apply 0x3F000000#32 ![0, 0] _ arg k j (Cert.Lstm.lane ⟨0, hg⟩ j) rfl (by show 256 * 0 + j.val = 0 + j.val; omega)
  | ⟨1, hg⟩ =>
    exact pieceW_apply 0x3F000000#32 ![0, 256] _ arg k j (Cert.Lstm.lane ⟨1, hg⟩ j) rfl (by show 256 * 1 + j.val = 256 + j.val; omega)
  | ⟨2, hg⟩ =>
    exact pieceW_apply 0x3F800000#32 ![0, 512] _ arg k j (Cert.Lstm.lane ⟨2, hg⟩ j) rfl (by show 256 * 2 + j.val = 512 + j.val; omega)
  | ⟨3, hg⟩ =>
    exact pieceW_apply 0x3F000000#32 ![0, 768] _ arg k j (Cert.Lstm.lane ⟨3, hg⟩ j) rfl (by show 256 * 3 + j.val = 768 + j.val; omega)

theorem packWH_zero (arg : FVec Ideal S256x1024 .f32) (r l : Fin 1024) (h : r.val < 256 ∨ 512 ≤ r.val) :
    packWH arg (ix2 r l) = 0 := by
  unfold packWH
  rw [truncf_apply]
  refine (ScatterSet.pack4_miss scatter_S1024x1024_S2_S256x256_01_n_01_0 _ _ _ _ 256 (fun _ => rfl) (fun _ => rfl) (fun _ => rfl) (fun _ => rfl) (fun _ => rfl) (fun _ => rfl) (fun _ => rfl) (fun _ => rfl) (fun _ => rfl) (fun _ => rfl)
    _ _ _ _ _ r l (by omega)).trans ?_
  rw [broadcastInDim_scalar_apply, constant_apply]
  exact Ideal.ofBits_zero_f32

/-- The reference's recurrent weights (rows 256…511 of the packed array) are its argument's, gate `g`'s columns scaled by `s_g`. -/
theorem PR_WH_arg (k : Fin 256) (g : Fin 4) (j : Fin 256) :
    (PR m' c).WH k (Cert.Lstm.lane g j) = gateScale g * rArg2 m' c (ix2 k (Cert.Lstm.lane g j)) := by
  unfold PR
  dsimp only
  rw [V_main_v76]
  exact packWH_apply _ k g j

/-- The packed recurrent weights vanish outside rows 256…511. -/
theorem whhZeroRows : WhhZeroRows m' c := by
  unfold WhhZeroRows
  intro r l h
  dsimp only
  rw [V_main_v76]
  exact packWH_zero _ r l h

end Cert.Bridge

end
-- ==== Proof.HostRB.lean ====
/-
  The reference's packed bias row read at coordinates: the four scaled 256-lane blocks written side by side into a
  zero [1, 1024] row.  The entry at lane j of gate g is s_g times the argument's.
-/
import proofs.«173986_g2000208858419734_pallasbulk_908_7_alg».proof.Proof.HostRCommon

noncomputable section

namespace Cert.Bridge

open Idealize.ShloMosaic Idealize.ShloMosaic.TcCoe Idealize.ShloMosaic.ValueIdx Idealize.SL.Sem Idealize.ShloMosaic.StableHlo
open Cert.ReferenceIdeal Cert.ReferenceIdeal.Gen

variable (m' : (ℓ : Loc Cert.ReferenceIdeal.nD Cert.ReferenceIdeal.τ Cert.ReferenceIdeal.sig) → Buf (Elt Ideal) ℓ) (c : Dev Cert.ReferenceIdeal.nD)

/-- The packed bias row. -/
def packB (arg : FVec Ideal S1x1024 .f32) : FVec Ideal S1x1024 .f32 :=
  ScatterSet.pack4 scatter_S1x1024_S1_S1x256_01_n_1_0 (colIdx 0#32) (colIdx 256#32) (colIdx 512#32) (colIdx 768#32)
    (broadcastInDim S1x1024 ![] bcast_S_S1x1024 (constant (F := Ideal) S_ .f32 0x00000000#32))
    (pieceB 0x3F000000#32 ![0, 0] slices_S1x1024_S1x256_0_0 arg)
      (pieceB 0x3F000000#32 ![0, 256] slices_S1x1024_S1x256_0_256 arg)
      (pieceB 0x3F800000#32 ![0, 512] slices_S1x1024_S1x256_0_512 arg)
      (pieceB 0x3F000000#32 ![0, 768] slices_S1x1024_S1x256_0_768 arg)

theorem V_main_v74 : Gen.V m' c main_v74 = packB (rArg3 m' c) := by
  show StableHlo.after hostOps0 (fun b => m' (c, b)) (Proc.devRef .tc main_v74) = _
  after_results_simp
  rfl

theorem packB_apply (arg : FVec Ideal S1x1024 .f32) (g : Fin 4) (j : Fin 256) :
    packB arg (ix2 0 (Cert.Lstm.lane g j)) = gateScale g * arg (ix2 0 (Cert.Lstm.lane g j)) := by
  unfold packB
  refine (ScatterSet.pack4_hit scatter_S1x1024_S1_S1x256_01_n_1_0 _ _ _ _ 0 (fun _ => rfl) (fun _ => rfl) (fun _ => rfl) (fun _ => rfl) (fun _ => rfl) (fun _ => rfl) (fun _ => rfl) (fun _ => rfl) (fun _ => rfl) (fun _ => rfl)
    _ _ _ _ _ (0 : Fin 1) (0 : Fin 1) rfl g j (Cert.Lstm.lane g j) rfl).trans ?_
  match g with
  | ⟨0, hg⟩ =>
    exact pieceB_apply 0x3F000000#32 ![0, 0] _ arg j (Cert.Lstm.lane ⟨0, hg⟩ j) rfl (by show 256 * 0 + j.val = 0 + j.val; omega)
  | ⟨1, hg⟩ =>
    exact pieceB_apply 0x3F000000#32 ![0, 256] _ arg j (Cert.Lstm.lane ⟨1, hg⟩ j) rfl (by show 256 * 1 + j.val = 256 + j.val; omega)
  | ⟨2, hg⟩ =>
    exact pieceB_apply 0x3F800000#32 ![0, 512] _ arg j (Cert.Lstm.lane ⟨2, hg⟩ j) rfl (by show 256 * 2 + j.val = 512 + j.val; omega)
  | ⟨3, hg⟩ =>
    exact pieceB_apply 0x3F000000#32 ![0, 768] _ arg j (Cert.Lstm.lane ⟨3, hg⟩ j) rfl (by show 256 * 3 + j.val = 768 + j.val; omega)

/-- The reference's bias row is its argument's, gate `g`'s lanes scaled by `s_g`. -/
theorem PR_BI_arg (g : Fin 4) (j : Fin 256) :
    (PR m' c).BI (Cert.Lstm.lane g j) = gateScale g * rArg3 m' c (ix2 0 (Cert.Lstm.lane g j)) := by
  unfold PR
  dsimp only
  rw [V_main_v74]
  exact packB_apply _ g j

end Cert.Bridge

end
-- ==== Proof.HostsEq.lean ====
/-
  The two programs hand their launches the same numbers.  Both scale gate g's columns of the weights and of the bias by
  s_g = (½, ½, 1, ½): the kernel multiplies by one row of 1024 scale factors, the reference multiplies each gate's
  256-column slice by its factor and writes it into a zero array at the gate's offset (the recurrent weights at rows
  256…511); roundings are the identity; the sequence is flattened row-major; the lane vectors are computed alike.
-/
import proofs.«173986_g2000208858419734_pallasbulk_908_7_alg».proof.Proof.HostLanes
import proofs.«173986_g2000208858419734_pallasbulk_908_7_alg».proof.Proof.HostK
import proofs.«173986_g2000208858419734_pallasbulk_908_7_alg».proof.Proof.HostRX
import proofs.«173986_g2000208858419734_pallasbulk_908_7_alg».proof.Proof.HostRWI
import proofs.«173986_g2000208858419734_pallasbulk_908_7_alg».proof.Proof.HostRWH
import proofs.«173986_g2000208858419734_pallasbulk_908_7_alg».proof.Proof.HostRB

noncomputable section

namespace Cert.Bridge

open Idealize.ShloMosaic Idealize.ShloMosaic.TcCoe Idealize.ShloMosaic.ValueIdx Idealize.SL.Sem

theorem params_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    (∀ τ b k, (PK m c).X τ b k = (PR m' c).X τ b k) ∧ (∀ k l, (PK m c).WI k l = (PR m' c).WI k l)
      ∧ (∀ k l, (PK m c).WH k l = (PR m' c).WH k l) ∧ (∀ l, (PK m c).BI l = (PR m' c).BI l)
      ∧ (∀ b l, (PK m c).S b l = (PR m' c).S b l) ∧ (∀ b l, (PK m c).T b l = (PR m' c).T b l) := by
  obtain ⟨h0, h1, h2, h3⟩ := hagree c
  have e0 : rArg0 m' c = kArg0 m c := h0
  have e1 : rArg1 m' c = kArg1 m c := h1
  have e2 : rArg2 m' c = kArg2 m c := h2
  have e3 : rArg3 m' c = kArg3 m c := h3
  refine ⟨fun τ' b k => ?_, fun k l => ?_, fun k l => ?_, fun l => ?_, fun b l => ?_, fun b l => ?_⟩
  · rw [PK_X, PR_X_arg, e0]
  · obtain ⟨g, j, rfl⟩ := exists_lane l
    rw [PK_WI, PR_WI_arg, e1]
    exact mul_comm _ _
  · obtain ⟨g, j, rfl⟩ := exists_lane l
    rw [PK_WH, PR_WH_arg, e2]
    exact mul_comm _ _
  · obtain ⟨g, j, rfl⟩ := exists_lane l
    rw [PK_BI, PR_BI_arg, e3]
    exact mul_comm _ _
  · exact congrFun laneScale_eq (ix2 b l)
  · exact congrFun laneShift_eq (ix2 b l)

theorem whh_zero_rows (m' : (ℓ : Loc Cert.ReferenceIdeal.nD Cert.ReferenceIdeal.τ Cert.ReferenceIdeal.sig) → Buf (Elt Ideal) ℓ) (c : Dev Cert.ReferenceIdeal.nD) : WhhZeroRows m' c :=
  whhZeroRows m' c

end Cert.Bridge

end
-- ==== Proof.Bridge.lean ====
/-
  The one equation the value claim comes down to.  Both programs compute the same LSTM: with the gate columns of the
  weights and of the bias scaled by (½, ½, 1, ½), the pre-activation at step τ is  x_τ·W_ih + b + h_{τ-1}·W_hh,  the four
  gates are one tanh followed by the lane-wise affine map (½·tanh + ½ on the i, f, o lanes, tanh on the g lanes), and
  c_τ = f·c_{τ-1} + i·g,  h_τ = o·tanh c_τ,  from h = c = 0.  The kernel keeps (h, c) at width 256 and takes eight steps
  per grid point; the reference keeps them in lanes 256…511 of a width-1024 state, multiplies by a 1024×1024 matrix whose
  rows outside 256…511 are zero, aligns the gates by lane rotations, takes two steps per grid point, and slices lanes
  256…511 out at the end.  On the extended reals a zero weight annihilates whatever the unused lanes hold, a rotation by
  half the width is its own inverse, and the rest is commutativity of the product.
-/
import proofs.«173986_g2000208858419734_pallasbulk_908_7_alg».proof.Proof.KernelValue
import proofs.«173986_g2000208858419734_pallasbulk_908_7_alg».proof.Proof.RefValue
import proofs.«173986_g2000208858419734_pallasbulk_908_7_alg».proof.Proof.HostsEq

noncomputable section

namespace Cert.Bridge

open Idealize.ShloMosaic Idealize.ShloMosaic.TcCoe Idealize.ShloMosaic.ValueIdx Idealize.SL.Sem

/-- The kernel's final output array and the reference's sliced result are the same array of extended reals when the
    two programs start from memories that agree on the four arguments: each is the recurrence's output at its own
    program's parameters, and the parameters agree. -/
theorem value_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    (Pipeline.afterTail₀ Cert.ReferenceIdeal.cfgs (Cert.ReferenceIdeal.Gen.dats (F := Ideal) m') 0 (Cert.ReferenceIdeal.Gen.V0 m') [Cert.ReferenceIdeal.Gen.hostOps1] c Cert.ReferenceIdeal.main_v79
      : Buf (Elt Ideal) ((c.tc : Thread Cert.KernelIdeal.nD Cert.KernelIdeal.τ).loc Cert.KernelIdeal.main_v13))
      = (Cert.KernelIdeal.Hand.dats (F := Ideal) m 0 c).arrAt 4 Cert.KernelIdeal.cfg0.N := by
  obtain ⟨hX, hWI, hWH, hBI, hS, hT⟩ := params_agree m m' hagree c
  show (show (⟨3, ![256, 128, 256]⟩ : Shape).Idx → EReal from _) = (show (⟨3, ![256, 128, 256]⟩ : Shape).Idx → EReal from _)
  funext idx
  rw [eq_ix3 idx]
  exact (reference_final m' c (whh_zero_rows m' c) _ _ _).trans
    ((congrFun (congrFun (congrFun (Cert.Lstm.out_congr _ _ hX hWI hWH hBI hS hT).symm _) _) _).trans (kernel_final m c _ _ _).symm)

end Cert.Bridge

end
-- ==== Proof.lean ====
/-
  The certificate of the LSTM kernel against its reference.  Three frames — each program runs to completion and leaves
  its four argument arrays as given: the kernel's, read at bits and at extended reals, by the hand-written launch proof
  for a body that carries its recurrent state between grid points; the reference's by its generated one —, the
  idealization rewrote nothing, and the two idealized programs end with the same output array.
-/
import proofs.«173986_g2000208858419734_pallasbulk_908_7_alg».proof.Defs
import proofs.«173986_g2000208858419734_pallasbulk_908_7_alg».proof.Proof.Gen.Kernel
import proofs.«173986_g2000208858419734_pallasbulk_908_7_alg».proof.Proof.Gen.KernelIdeal
import proofs.«173986_g2000208858419734_pallasbulk_908_7_alg».proof.Proof.Gen.ReferenceIdeal
import proofs.«173986_g2000208858419734_pallasbulk_908_7_alg».proof.Proof.Gen.ReferenceIdeal.Frame
import proofs.«173986_g2000208858419734_pallasbulk_908_7_alg».proof.Proof.Gen.Pre_finite_inputs
import proofs.«173986_g2000208858419734_pallasbulk_908_7_alg».proof.Proof.KbFrame
import proofs.«173986_g2000208858419734_pallasbulk_908_7_alg».proof.Proof.KiFrame
import proofs.«173986_g2000208858419734_pallasbulk_908_7_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Gen.frame m ρ

/-- The idealization is the kernel's own text read over the extended reals. -/
theorem preserves : Cert.preserves_Kernel_KernelIdeal := trivial

/-- The kernel's run names its output array; the reference's run names its sliced result; the two are one array. -/
theorem algebraic : Cert.algebraic_KernelIdeal_ReferenceIdeal := by
  intro m ρ m' ρ' _ hagree
  refine ⟨fun c => (Cert.KernelIdeal.Hand.dats (F := Ideal) m 0 c).arrAt 4 Cert.KernelIdeal.cfg0.N, ?_, ?_⟩
  · refine (θ_run Cert.KernelIdeal.defs _ _).mono (fun r h c => ⟨(h c).1 4, ?_, ?_, ?_, ?_⟩) (Cert.KernelIdeal.Hand.run_main (F := Ideal) m ρ)
    · exact ((h c).2 Cert.KernelIdeal.main_arg0 (Pipeline.mem_restRefs_of Cert.KernelIdeal.main_arg0 (by decide) (by decide))).trans (Cert.KernelIdeal.Hand.V_main_arg0 m c)
    · exact ((h c).2 Cert.KernelIdeal.main_arg1 (Pipeline.mem_restRefs_of Cert.KernelIdeal.main_arg1 (by decide) (by decide))).trans (Cert.KernelIdeal.Hand.V_main_arg1 m c)
    · exact ((h c).2 Cert.KernelIdeal.main_arg2 (Pipeline.mem_restRefs_of Cert.KernelIdeal.main_arg2 (by decide) (by decide))).trans (Cert.KernelIdeal.Hand.V_main_arg2 m c)
    · exact ((h c).2 Cert.KernelIdeal.main_arg3 (Pipeline.mem_restRefs_of Cert.KernelIdeal.main_arg3 (by decide) (by decide))).trans (Cert.KernelIdeal.Hand.V_main_arg3 m c)
  · refine (θ_run Cert.ReferenceIdeal.defs _ _).mono (fun r h c => ⟨?_, ?_, ?_, ?_, ?_⟩) (Cert.ReferenceIdeal.Gen.run_main (F := Ideal) m' ρ')
    · exact ((h c).2 Cert.ReferenceIdeal.main_v79 (Pipeline.mem_restRefs_of Cert.ReferenceIdeal.main_v79 (by decide) (by decide))).trans (Cert.Bridge.value_eq m m' hagree c)
    · exact ((h c).2 Cert.ReferenceIdeal.main_arg0 (Pipeline.mem_restRefs_of Cert.ReferenceIdeal.main_arg0 (by decide) (by decide))).trans (Cert.ReferenceIdeal.Gen.W_main_arg0 m' _ c)
    · exact ((h c).2 Cert.ReferenceIdeal.main_arg1 (Pipeline.mem_restRefs_of Cert.ReferenceIdeal.main_arg1 (by decide) (by decide))).trans (Cert.ReferenceIdeal.Gen.W_main_arg1 m' _ c)
    · exact ((h c).2 Cert.ReferenceIdeal.main_arg2 (Pipeline.mem_restRefs_of Cert.ReferenceIdeal.main_arg2 (by decide) (by decide))).trans (Cert.ReferenceIdeal.Gen.W_main_arg2 m' _ c)
    · exact ((h c).2 Cert.ReferenceIdeal.main_arg3 (Pipeline.mem_restRefs_of Cert.ReferenceIdeal.main_arg3 (by decide) (by decide))).trans (Cert.ReferenceIdeal.Gen.W_main_arg3 m' _ c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
